-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S300x784 : Shape := ⟨2, ![300, 784]⟩
abbrev S300 : Shape := ⟨1, ![300]⟩
abbrev S10x300 : Shape := ⟨2, ![10, 300]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S300x784 : S_.BroadcastsInDim S300x784 (![] : Fin 0 → Fin S300x784.rank)
  reducesTo_S300x784_S_d0_1 : S300x784.ReducesTo [0, 1] S_
  bcast_S_S300 : S_.BroadcastsInDim S300 (![] : Fin 0 → Fin S300.rank)
  reducesTo_S300_S_d0 : S300.ReducesTo [0] S_
  bcast_S_S10x300 : S_.BroadcastsInDim S10x300 (![] : Fin 0 → Fin S10x300.rank)
  reducesTo_S10x300_S_d0_1 : S10x300.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10x300 .f32) (main_arg5 : FVec F S10 .f32) (main_arg6 : FVec F S10 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S10x300 .f32 := Host.absf main_arg4
  let main_cst_6 : FVec F S_ .f32 := constant S_ .f32 0x7F800000#32
  let main_v20 : FVec F S10x300 .f32 := broadcastInDim S10x300 ![] bcast_S_S10x300 main_cst_6
  let main_v21 : IVec S10x300 1 := cmpf .olt main_v19 main_v20
  let main_c_7 : IVec S_ 1 := constantI S_ 1 1#1
  let main_v22 : IVec S_ 1 := (fun x v => Host.reduce IntOp.andi x v reducesTo_S10x300_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S65536x784 .f32) (main_arg1 : FVec F S300x784 .f32) (main_arg2 : FVec F S300 .f32) (main_arg3 : FVec F S300 .f32) (main_arg4 : FVec F S10x300 .f32) (main_arg5 : FVec F S10 .f32) (main_arg6 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S300x784 .f32 := Host.absf main_arg1
  let main_cst_0 : FVec F S_ .f32 := constant S_ .f32 0x7F800000#32
  let main_v5 : FVec F S300x784 .f32 := broadcastInDim S300x784 ![] bcast_S_S300x784 main_cst_0
  let main_v6 : IVec S300x784 1 := cmpf .olt main_v4 main_v5
  let main_c_1 : IVec S_ 1 := constantI S_ 1 1#1
  let main_v7 : IVec S_ 1 := (fun x v => Host.reduce IntOp.andi x v reducesTo_S300x784_S_d0_1 h_S_) main_v6 main_c_1
  let main_v8 : IVec S_ 1 := andi main_v3 main_v7
  let main_v9 : FVec F S300 .f32 := Host.absf main_arg2
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_arg6 main_v13 main_v16
-- ==== Kernel.lean ====
abbrev S65536x784 : Shape := ⟨2, ![65536, 784]⟩
abbrev S300x784 : Shape := ⟨2, ![300, 784]⟩
abbrev S300 : Shape := ⟨1, ![300]⟩
abbrev S10x300 : Shape := ⟨2, ![10, 300]⟩
abbrev S10 : Shape := ⟨1, ![10]⟩
abbrev S_ : Shape := ⟨0, ![]⟩
abbrev S784x300 : Shape := ⟨2, ![784, 300]⟩
abbrev S300x10 : Shape := ⟨2, ![300, 10]⟩
abbrev S1x300 : Shape := ⟨2, ![1, 300]⟩
abbrev S1x10 : Shape := ⟨2, ![1, 10]⟩
abbrev S65536x300 : Shape := ⟨2, ![65536, 300]⟩
abbrev S2048x784 : Shape := ⟨2, ![2048, 784]⟩
abbrev S2048x300 : Shape := ⟨2, ![2048, 300]⟩
abbrev S65536x10 : Shape := ⟨2, ![65536, 10]⟩
abbrev S8192x300 : Shape := ⟨2, ![8192, 300]⟩
abbrev S8192x10 : Shape := ⟨2, ![8192, 10]⟩

abbrev nBuf : Space → Nat
  | .hbm => 38
  | .vmem => 30
  | .smem => 0
  | _ => 0

abbrev bufTy : (tb : Table) → Fin (tcTables nBuf tb) → BufTy
  | .hbm, ⟨0, _⟩ => ⟨S65536x784, .f32⟩
  | .hbm, ⟨1, _⟩ => ⟨S300x784, .f32⟩
  | .hbm, ⟨2, _⟩ => ⟨S300, .f32⟩
  | .hbm, ⟨3, _⟩ => ⟨S300, .f32⟩
  | .hbm, ⟨4, _⟩ => ⟨S10x300, .f32⟩
  | .hbm, ⟨5, _⟩ => ⟨S10, .f32⟩
  | .hbm, ⟨6, _⟩ => ⟨S10, .f32⟩
  | .hbm, ⟨7, _⟩ => ⟨S_, .f32⟩
  | .hbm, ⟨8, _⟩ => ⟨S300x784, .f32⟩
  | .hbm, ⟨9, _⟩ => ⟨S300x784, .i1⟩
  | .hbm, ⟨10, _⟩ => ⟨S_, .f32⟩
  | .hbm, ⟨11, _⟩ => ⟨S_, .f32⟩
  | .hbm, ⟨12, _⟩ => ⟨S300x784, .f32⟩
  | .hbm, ⟨13, _⟩ => ⟨S300x784, .f32⟩
  | .hbm, ⟨14, _⟩ => ⟨S300x784, .f32⟩
  | .hbm, ⟨15, _⟩ => ⟨S784x300, .f32⟩
  | .hbm, ⟨16, _⟩ => ⟨S784x300, .bf16⟩
  | .hbm, ⟨17, _⟩ => ⟨S_, .f32⟩
  | .hbm, ⟨18, _⟩ => ⟨S10x300, .f32⟩
  | .hbm, ⟨19, _⟩ => ⟨S10x300, .i1⟩
  | .hbm, ⟨20, _⟩ => ⟨S_, .f32⟩
  | .hbm, ⟨21, _⟩ => ⟨S_, .f32⟩
  | .hbm, ⟨22, _⟩ => ⟨S10x300, .f32⟩
  | .hbm, ⟨23, _⟩ => ⟨S10x300, .f32⟩
  | .hbm, ⟨24, _⟩ => ⟨S10x300, .f32⟩
  | .hbm, ⟨25, _⟩ => ⟨S300x10, .f32⟩
  | .hbm, ⟨26, _⟩ => ⟨S300x10, .bf16⟩
  | .hbm, ⟨27, _⟩ => ⟨S1x300, .f32⟩
  | .hbm, ⟨28, _⟩ => ⟨S1x300, .f32⟩
  | .hbm, ⟨29, _⟩ => ⟨S1x10, .f32⟩
  | .hbm, ⟨30, _⟩ => ⟨S1x10, .f32⟩
  | .hbm, ⟨31, _⟩ => ⟨S65536x300, .f32⟩
  | .hbm, ⟨32, _⟩ => ⟨S1x300, .f32⟩
  | .hbm, ⟨33, _⟩ => ⟨S1x300, .f32⟩
  | .hbm, ⟨34, _⟩ => ⟨S65536x10, .f32⟩
  | .hbm, ⟨35, _⟩ => ⟨S1x10, .f32⟩
  | .hbm, ⟨36, _⟩ => ⟨S1x10, .f32⟩
  | .hbm, ⟨37, _⟩ => ⟨S65536x10, .f32⟩
  | .local _ .vmem, ⟨0, _⟩ => ⟨S2048x784, .f32⟩
  | .local _ .vmem, ⟨1, _⟩ => ⟨S2048x784, .f32⟩
  | .local _ .vmem, ⟨2, _⟩ => ⟨S784x300, .bf16⟩
  | .local _ .vmem, ⟨3, _⟩ => ⟨S2048x300, .f32⟩
  | .local _ .vmem, ⟨4, _⟩ => ⟨S2048x300, .f32⟩
  | .local _ .vmem, ⟨5, _⟩ => ⟨S1x300, .f32⟩
  | .local _ .vmem, ⟨6, _⟩ => ⟨S1x300, .f32⟩
  | .local _ .vmem, ⟨7, _⟩ => ⟨S1x300, .f32⟩
  | .local _ .vmem, ⟨8, _⟩ => ⟨S1x300, .f32⟩
  | .local _ .vmem, ⟨9, _⟩ => ⟨S8192x300, .f32⟩
  | .local _ .vmem, ⟨10, _⟩ => ⟨S8192x300, .f32⟩
  | .local _ .vmem, ⟨11, _⟩ => ⟨S1x300, .f32⟩
  | .local _ .vmem, ⟨12, _⟩ => ⟨S1x300, .f32⟩
  | .local _ .vmem, ⟨13, _⟩ => ⟨S1x300, .f32⟩
  | .local _ .vmem, ⟨14, _⟩ => ⟨S1x300, .f32⟩
  | .local _ .vmem, ⟨15, _⟩ => ⟨S300x10, .bf16⟩
  | .local _ .vmem, ⟨16, _⟩ => ⟨S8192x10, .f32⟩
  | .local _ .vmem, ⟨17, _⟩ => ⟨S8192x10, .f32⟩
  | .local _ .vmem, ⟨18, _⟩ => ⟨S1x10, .f32⟩
  | .local _ .vmem, ⟨19, _⟩ => ⟨S1x10, .f32⟩
  | .local _ .vmem, ⟨20, _⟩ => ⟨S1x10, .f32⟩
  | .local _ .vmem, ⟨21, _⟩ => ⟨S1x10, .f32⟩
  | .local _ .vmem, ⟨22, _⟩ => ⟨S8192x10, .f32⟩
  | .local _ .vmem, ⟨23, _⟩ => ⟨S8192x10, .f32⟩
  | .local _ .vmem, ⟨24, _⟩ => ⟨S1x10, .f32⟩
  | .local _ .vmem, ⟨25, _⟩ => ⟨S1x10, .f32⟩
  | .local _ .vmem, ⟨26, _⟩ => ⟨S1x10, .f32⟩
  | .local _ .vmem, ⟨27, _⟩ => ⟨S1x10, .f32⟩
  | .local _ .vmem, ⟨28, _⟩ => ⟨S8192x10, .f32⟩
  | .local _ .vmem, ⟨29, _⟩ => ⟨S8192x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v15_0 : Ref sig .tc := ⟨.hbm, 34, rfl⟩
abbrev main_v15_1 : Ref sig .tc := ⟨.hbm, 35, rfl⟩
abbrev main_v15_2 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v24 : BitVec 1 := Scalar.cmpi .eq arg0 c31_i32
  let v25 : BitVec 32 := Scalar.extui v24
  let c0_i32_16 : BitVec 32 := 0#32
  let v26 : BitVec 1 := Scalar.cmpi .ne v25 c0_i32_16
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_24 : BitVec 32 := 0#32
  let v43 : BitVec 1 := Scalar.cmpi .ne v42 c0_i32_24
  v43

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S300x10 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S300x784 : S_.BroadcastsInDim S300x784 (![] : Fin 0 → Fin S300x784.rank)
  transposes_S300x784_S784x300_1_0 : S300x784.Transposes [1, 0] S784x300
  bitsLt_bf16_f32 : FTy.bits .bf16 < FTy.bits .f32
  bcast_S_S10x300 : S_.BroadcastsInDim S10x300 (![] : Fin 0 → Fin S10x300.rank)
  transposes_S10x300_S300x10_1_0 : S10x300.Transposes [1, 0] S300x10
  shapeCasts_S300_S1x300 : S300.ShapeCasts S1x300
  shapeCasts_S10_S1x10 : S10.ShapeCasts S1x10
  inb_S1x300_S1x300_0_0 : ∀ a, (![0, 0] : Fin 2 → Nat) a + S1x300.size a ≤ S1x300.size a
  h_S1x300 : 0 < S1x300.numel
  shapeCasts_S1x300_S1x300 : S1x300.ShapeCasts S1x300
  inb_S2048x784_S2048x784_0_0 : ∀ a, (![0, 0] : Fin 2 → Nat) a + S2048x784.size a ≤ S2048x784.size a
  h_S2048x784 : 0 < S2048x784.numel
  inb_S784x300_S784x300_0_0 : ∀ a, (![0, 0] : Fin 2 → Nat) a + S784x300.size a ≤ S784x300.size a
  h_S784x300 : 0 < S784x300.numel
  shapeCasts_S784x300_S784x300 : S784x300.ShapeCasts S784x300
  inb_S2048x300_S2048x300_0_0 : ∀ a, (![0, 0] : Fin 2 → Nat) a + S2048x300.size a ≤ S2048x300.size a
  h_S2048x300 : 0 < S2048x300.numel
  reduces_S2048x300_S300 : S2048x300.Reduces [0] S300
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S8192x300_S8192x300_0_0 : ∀ a, (![0, 0] : Fin 2 → Nat) a + S8192x300.size a ≤ S8192x300.size a
  h_S8192x300 : 0 < S8192x300.numel
  shapeCasts_S8192x300_S8192x300 : S8192x300.ShapeCasts S8192x300
  broadcasts_S1x300_S8192x300 : S1x300.Broadcasts S8192x300
  inb_S300x10_S300x10_0_0 : ∀ a, (![0, 0] : Fin 2 → Nat) a + S300x10.size a ≤ S300x10.size a
  h_S300x10 : 0 < S300x10.numel
  shapeCasts_S300x10_S300x10 : S300x10.ShapeCasts S300x10
  inb_S8192x10_S8192x10_0_0 : ∀ a, (![0, 0] : Fin 2 → Nat) a + S8192x10.size a ≤ S8192x10.size a
  h_S8192x10 : 0 < S8192x10.numel
  reduces_S8192x10_S10 : S8192x10.Reduces [0] S10
  shapeCasts_S8192x10_S8192x10 : S8192x10.ShapeCasts S8192x10
  broadcasts_S1x10_S8192x10 : S1x10.Broadcasts S8192x10
  dot_S2048x784_S784x300_S2048x300_1_0_0_1_n_n_wf : DotDims.WF S2048x784 S784x300 S2048x300 [1] [0] [0] [1] [] []
  dot_S8192x300_S300x10_S8192x10_1_0_0_1_n_n_wf : DotDims.WF S8192x300 S300x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x300.size a ≤ S784x300.size a
  hwx0_1 : ∀ i : grid0.Coords, EltTy.bits .bf16 = 32 ∨ (Rect.block (s := S784x300) S784x300.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x300.size a ≤ S65536x300.size a
  hwx0_2 : ∀ i : grid0.Coords, EltTy.bits .f32 = 32 ∨ (Rect.block (s := S65536x300) S2048x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x300.size a ≤ S1x300.size a
  hwx0_3 : ∀ i : grid0.Coords, EltTy.bits .f32 = 32 ∨ (Rect.block (s := S1x300) S1x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x300.size a ≤ S65536x300.size a
  hwx1_0 : ∀ i : grid1.Coords, EltTy.bits .f32 = 32 ∨ (Rect.block (s := S65536x300) S8192x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x300.size a ≤ S1x300.size a
  hwx1_1 : ∀ i : grid1.Coords, EltTy.bits .f32 = 32 ∨ (Rect.block (s := S1x300) S1x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S300x10.size a ≤ S300x10.size a
  hwx1_5 : ∀ i : grid1.Coords, EltTy.bits .bf16 = 32 ∨ (Rect.block (s := S300x10) S300x10.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8192x10.size a ≤ S65536x10.size a
  hwx1_6 : ∀ i : grid1.Coords, EltTy.bits .f32 = 32 ∨ (Rect.block (s := S65536x10) S8192x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x10.size a ≤ S1x10.size a
  hwx1_8 : ∀ i : grid1.Coords, EltTy.bits .f32 = 32 ∨ (Rect.block (s := S1x10) S1x10.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x10.size a ≤ S65536x10.size a
  hwx2_0 : ∀ i : grid2.Coords, EltTy.bits .f32 = 32 ∨ (Rect.block (s := S65536x10) S8192x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x10.size a ≤ S65536x10.size a
  hwx2_5 : ∀ i : grid2.Coords, EltTy.bits .f32 = 32 ∨ (Rect.block (s := S65536x10) S8192x10.size (cc2_transform_5 i) (hinb2_5 i)).WholeWords (EltTy.packing .f32)

variable [Facts₀]

def dot_S2048x784_S784x300_S2048x300_1_0_0_1_n_n : DotDims S2048x784 S784x300 S2048x300 where
  lhsContracting := [1]
  rhsContracting := [0]
  lhsNonContracting := [0]
  rhsNonContracting := [1]
  lhsBatch := []
  rhsBatch := []
  wf := dot_S2048x784_S784x300_S2048x300_1_0_0_1_n_n_wf
def dot_S8192x300_S300x10_S8192x10_1_0_0_1_n_n : DotDims S8192x300 S300x10 S8192x10 where
  lhsContracting := [1]
  rhsContracting := [0]
  lhsNonContracting := [0]
  rhsNonContracting := [1]
  lhsBatch := []
  rhsBatch := []
  wf := dot_S8192x300_S300x10_S8192x10_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S784x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S2048x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S1x300.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_2) S1x300.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v14_0) S8192x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S1x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_2) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S300x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15_0) S8192x10.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15_1) S1x10.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15_2) S1x10.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v15_0) S8192x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_1) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15_2) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S8192x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S65536x784 : Shape := ⟨2, ![65536, 784]⟩
abbrev S300x784 : Shape := ⟨2, ![300, 784]⟩
abbrev S300 : Shape := ⟨1, ![300]⟩
abbrev S10x300 : Shape := ⟨2, ![10, 300]⟩
abbrev S10 : Shape := ⟨1, ![10]⟩
abbrev S_ : Shape := ⟨0, ![]⟩
abbrev S784x300 : Shape := ⟨2, ![784, 300]⟩
abbrev S65536x300 : Shape := ⟨2, ![65536, 300]⟩
abbrev S1x300 : Shape := ⟨2, ![1, 300]⟩
abbrev S300x10 : Shape := ⟨2, ![300, 10]⟩
abbrev S65536x10 : Shape := ⟨2, ![65536, 10]⟩
abbrev S1x10 : Shape := ⟨2, ![1, 10]⟩

abbrev nBuf : Space → Nat
  | .hbm => 93
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S300x784, .f32⟩
  | .hbm, ⟨2, _⟩ => ⟨S300, .f32⟩
  | .hbm, ⟨3, _⟩ => ⟨S300, .f32⟩
  | .hbm, ⟨4, _⟩ => ⟨S10x300, .f32⟩
  | .hbm, ⟨5, _⟩ => ⟨S10, .f32⟩
  | .hbm, ⟨6, _⟩ => ⟨S10, .f32⟩
  | .hbm, ⟨7, _⟩ => ⟨S_, .f32⟩
  | .hbm, ⟨8, _⟩ => ⟨S300x784, .f32⟩
  | .hbm, ⟨9, _⟩ => ⟨S300x784, .i1⟩
  | .hbm, ⟨10, _⟩ => ⟨S_, .f32⟩
  | .hbm, ⟨11, _⟩ => ⟨S_, .f32⟩
  | .hbm, ⟨12, _⟩ => ⟨S300x784, .f32⟩
  | .hbm, ⟨13, _⟩ => ⟨S300x784, .f32⟩
  | .hbm, ⟨14, _⟩ => ⟨S300x784, .f32⟩
  | .hbm, ⟨15, _⟩ => ⟨S300x784, .f32⟩
  | .hbm, ⟨16, _⟩ => ⟨S300x784, .f32⟩
  | .hbm, ⟨17, _⟩ => ⟨S300x784, .f32⟩
  | .hbm, ⟨18, _⟩ => ⟨S784x300, .f32⟩
  | .hbm, ⟨19, _⟩ => ⟨S65536x300, .f32⟩
  | .hbm, ⟨20, _⟩ => ⟨S_, .f32⟩
  | .hbm, ⟨21, _⟩ => ⟨S300, .f32⟩
  | .hbm, ⟨22, _⟩ => ⟨S_, .f32⟩
  | .hbm, ⟨23, _⟩ => ⟨S300, .f32⟩
  | .hbm, ⟨24, _⟩ => ⟨S300, .f32⟩
  | .hbm, ⟨25, _⟩ => ⟨S1x300, .f32⟩
  | .hbm, ⟨26, _⟩ => ⟨S65536x300, .f32⟩
  | .hbm, ⟨27, _⟩ => ⟨S65536x300, .f32⟩
  | .hbm, ⟨28, _⟩ => ⟨S65536x300, .f32⟩
  | .hbm, ⟨29, _⟩ => ⟨S_, .f32⟩
  | .hbm, ⟨30, _⟩ => ⟨S300, .f32⟩
  | .hbm, ⟨31, _⟩ => ⟨S_, .f32⟩
  | .hbm, ⟨32, _⟩ => ⟨S300, .f32⟩
  | .hbm, ⟨33, _⟩ => ⟨S300, .f32⟩
  | .hbm, ⟨34, _⟩ => ⟨S1x300, .f32⟩
  | .hbm, ⟨35, _⟩ => ⟨S65536x300, .f32⟩
  | .hbm, ⟨36, _⟩ => ⟨S65536x300, .f32⟩
  | .hbm, ⟨37, _⟩ => ⟨S_, .f32⟩
  | .hbm, ⟨38, _⟩ => ⟨S300, .f32⟩
  | .hbm, ⟨39, _⟩ => ⟨S300, .f32⟩
  | .hbm, ⟨40, _⟩ => ⟨S300, .f32⟩
  | .hbm, ⟨41, _⟩ => ⟨S1x300, .f32⟩
  | .hbm, ⟨42, _⟩ => ⟨S65536x300, .f32⟩
  | .hbm, ⟨43, _⟩ => ⟨S65536x300, .f32⟩
  | .hbm, ⟨44, _⟩ => ⟨S1x300, .f32⟩
  | .hbm, ⟨45, _⟩ => ⟨S65536x300, .f32⟩
  | .hbm, ⟨46, _⟩ => ⟨S65536x300, .f32⟩
  | .hbm, ⟨47, _⟩ => ⟨S1x300, .f32⟩
  | .hbm, ⟨48, _⟩ => ⟨S65536x300, .f32⟩
  | .hbm, ⟨49, _⟩ => ⟨S65536x300, .f32⟩
  | .hbm, ⟨50, _⟩ => ⟨S_, .f32⟩
  | .hbm, ⟨51, _⟩ => ⟨S10x300, .f32⟩
  | .hbm, ⟨52, _⟩ => ⟨S10x300, .i1⟩
  | .hbm, ⟨53, _⟩ => ⟨S_, .f32⟩
  | .hbm, ⟨54, _⟩ => ⟨S_, .f32⟩
  | .hbm, ⟨55, _⟩ => ⟨S10x300, .f32⟩
  | .hbm, ⟨56, _⟩ => ⟨S10x300, .f32⟩
  | .hbm, ⟨57, _⟩ => ⟨S10x300, .f32⟩
  | .hbm, ⟨58, _⟩ => ⟨S10x300, .f32⟩
  | .hbm, ⟨59, _⟩ => ⟨S10x300, .f32⟩
  | .hbm, ⟨60, _⟩ => ⟨S10x300, .f32⟩
  | .hbm, ⟨61, _⟩ => ⟨S300x10, .f32⟩
  | .hbm, ⟨62, _⟩ => ⟨S65536x10, .f32⟩
  | .hbm, ⟨63, _⟩ => ⟨S_, .f32⟩
  | .hbm, ⟨64, _⟩ => ⟨S10, .f32⟩
  | .hbm, ⟨65, _⟩ => ⟨S_, .f32⟩
  | .hbm, ⟨66, _⟩ => ⟨S10, .f32⟩
  | .hbm, ⟨67, _⟩ => ⟨S10, .f32⟩
  | .hbm, ⟨68, _⟩ => ⟨S1x10, .f32⟩
  | .hbm, ⟨69, _⟩ => ⟨S65536x10, .f32⟩
  | .hbm, ⟨70, _⟩ => ⟨S65536x10, .f32⟩
  | .hbm, ⟨71, _⟩ => ⟨S65536x10, .f32⟩
  | .hbm, ⟨72, _⟩ => ⟨S_, .f32⟩
  | .hbm, ⟨73, _⟩ => ⟨S10, .f32⟩
  | .hbm, ⟨74, _⟩ => ⟨S_, .f32⟩
  | .hbm, ⟨75, _⟩ => ⟨S10, .f32⟩
  | .hbm, ⟨76, _⟩ => ⟨S10, .f32⟩
  | .hbm, ⟨77, _⟩ => ⟨S1x10, .f32⟩
  | .hbm, ⟨78, _⟩ => ⟨S65536x10, .f32⟩
  | .hbm, ⟨79, _⟩ => ⟨S65536x10, .f32⟩
  | .hbm, ⟨80, _⟩ => ⟨S_, .f32⟩
  | .hbm, ⟨81, _⟩ => ⟨S10, .f32⟩
  | .hbm, ⟨82, _⟩ => ⟨S10, .f32⟩
  | .hbm, ⟨83, _⟩ => ⟨S10, .f32⟩
  | .hbm, ⟨84, _⟩ => ⟨S1x10, .f32⟩
  | .hbm, ⟨85, _⟩ => ⟨S65536x10, .f32⟩
  | .hbm, ⟨86, _⟩ => ⟨S65536x10, .f32⟩
  | .hbm, ⟨87, _⟩ => ⟨S1x10, .f32⟩
  | .hbm, ⟨88, _⟩ => ⟨S65536x10, .f32⟩
  | .hbm, ⟨89, _⟩ => ⟨S65536x10, .f32⟩
  | .hbm, ⟨90, _⟩ => ⟨S1x10, .f32⟩
  | .hbm, ⟨91, _⟩ => ⟨S65536x10, .f32⟩
  | .hbm, ⟨92, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_cst_9 : Ref sig .tc := ⟨.hbm, 54, rfl⟩
abbrev main_call1_v0 : Ref sig .tc := ⟨.hbm, 55, rfl⟩
abbrev main_call1_v1 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_cst_13 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  bcast_S_S300x784 : S_.BroadcastsInDim S300x784 (![] : Fin 0 → Fin S300x784.rank)
  transposes_S300x784_S784x300_1_0 : S300x784.Transposes [1, 0] S784x300
  reducesTo_S65536x300_S300_d0 : S65536x300.ReducesTo [0] S300
  h_S_ : 0 < S_.numel
  bcast_S_S300 : S_.BroadcastsInDim S300 (![] : Fin 0 → Fin S300.rank)
  bcast_S300_S1x300_1 : S300.BroadcastsInDim S1x300 (![1] : Fin 1 → Fin S1x300.rank)
  bcast_S1x300_S65536x300_0_1 : S1x300.BroadcastsInDim S65536x300 (![0, 1] : Fin 2 → Fin S65536x300.rank)
  bcast_S_S10x300 : S_.BroadcastsInDim S10x300 (![] : Fin 0 → Fin S10x300.rank)
  transposes_S10x300_S300x10_1_0 : S10x300.Transposes [1, 0] S300x10
  reducesTo_S65536x10_S10_d0 : S65536x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x784_S784x300_S65536x300_1_0_0_1_n_n_wf : DotDims.WF S65536x784 S784x300 S65536x300 [1] [0] [0] [1] [] []
  dot_S65536x300_S300x10_S65536x10_1_0_0_1_n_n_wf : DotDims.WF S65536x300 S300x10 S65536x10 [1] [0] [0] [1] [] []

variable [Facts₀]

def dot_S65536x784_S784x300_S65536x300_1_0_0_1_n_n : DotDims S65536x784 S784x300 S65536x300 where
  lhsContracting := [1]
  rhsContracting := [0]
  lhsNonContracting := [0]
  rhsNonContracting := [1]
  lhsBatch := []
  rhsBatch := []
  wf := dot_S65536x784_S784x300_S65536x300_1_0_0_1_n_n_wf
def dot_S65536x300_S300x10_S65536x10_1_0_0_1_n_n : DotDims S65536x300 S300x10 S65536x10 where
  lhsContracting := [1]
  rhsContracting := [0]
  lhsNonContracting := [0]
  rhsNonContracting := [1]
  lhsBatch := []
  rhsBatch := []
  wf := dot_S65536x300_S300x10_S65536x10_1_0_0_1_n_n_wf

class Facts : Prop extends Facts₀ where

variable [Facts]
-- ==== Proof.Kernel.Call0Base.lean ====
/-
  The first matrix-product call (32 grid points of 2048 rows each): what its runs share.
  At point t the body multiplies rows [2048 t, 2048 (t+1)) of x by the sign matrix, stores the product block, and adds
  the block's column sums and the column sums of its squares to two running [1,300] accumulators kept in scratch
  memory. The accumulators are zeroed at the first point (t = 0) and, at the last point (t = 31), divided by 65536
  to give the column means and 1/sqrt(variance + eps), the only point at which the two [1,300] outputs are stored
  and written back. Hence three control cases: first, middle, last.
-/
import proofs.«117614_j79061757985000_1_alg».proof.Proof.Gen.Kernel.Launch
import proofs.«117614_j79061757985000_1_alg».proof.Proof.Gen.Kernel.Skeleton
import proofs.«117614_j79061757985000_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter
variable (V : (c : Dev nD) → (b : Ref sig .tc) → Buf (Elt F) ((c : Thread nD τ).loc b))

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The sign matrix (one block, fetched once) is in its staging buffer at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, over the grid -/

/-- "this is the first point": the accumulators are zeroed. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)
/-- "this is the last point": the mean and the inverse deviation are stored. -/
abbrev isLast (i : grid0.Coords) : Prop := k0_cond2 i = 1#1
theorem isLast_iff : ∀ t : Fin cfg0.N, isLast (grid0.coords t) ↔ t.val = 31 :=
  (by decide +kernel : ∀ t : Fin grid0.N, isLast (grid0.coords t) ↔ t.val = 31)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬isLast (grid0.coords t) → cfg0.idle 3 (grid0.coords t) = true := by decide +kernel
theorem idle_4 : ∀ t : Fin cfg0.N, ¬isLast (grid0.coords t) → cfg0.idle 4 (grid0.coords t) = true := by decide +kernel
theorem noFlush_3 : ∀ t : Fin cfg0.N, ¬isLast (grid0.coords t) → (cfg0.win 3).flush t = false := by decide +kernel
theorem noFlush_4 : ∀ t : Fin cfg0.N, ¬isLast (grid0.coords t) → (cfg0.win 4).flush t = false := by decide +kernel
theorem live_3 : ∀ t : Fin cfg0.N, isLast (grid0.coords t) → cfg0.idle 3 (grid0.coords t) = false := by decide +kernel
theorem live_4 : ∀ t : Fin cfg0.N, isLast (grid0.coords t) → cfg0.idle 4 (grid0.coords t) = false := by decide +kernel

/-! ## The memrefs the body is called with -/

abbrev ms_0 (t : Fin cfg0.N) : Memref sig .tc .vmem S2048x784 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S784x300 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x300 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x300 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x300 .f32 := win0_4.stage (cfg0.slots t 4)
abbrev hs_4 (t : Fin cfg0.N) : (ms_4 t).IsWhole := hstage0_4 ((cfg0.slots t 4).cast nbuf0_4)
/-- The two accumulators: the running column sums and the running column sums of squares. -/
abbrev accSum : Memref sig .tc .vmem S1x300 .f32 := Memref.whole cc0_scratch0
abbrev accSq : Memref sig .tc .vmem S1x300 .f32 := Memref.whole cc0_scratch1
/-- Views through which the contents of the product block, the two statistics and the two accumulators are stated. -/
abbrev VO_2 : View sig .tc .vmem S2048x300 .f32 := (Memref.whole cc0_stg2_0 : Memref sig .tc .vmem S2048x300 .f32).view
abbrev VO_3 : View sig .tc .vmem S1x300 .f32 := (Memref.whole cc0_stg3_0 : Memref sig .tc .vmem S1x300 .f32).view
abbrev VO_4 : View sig .tc .vmem S1x300 .f32 := (Memref.whole cc0_stg4_0 : Memref sig .tc .vmem S1x300 .f32).view
abbrev VS_0 : View sig .tc .vmem S1x300 .f32 := (accSum).view
abbrev VS_1 : View sig .tc .vmem S1x300 .f32 := (accSq).view

/-- The core's scoped buffers that this call does not stage: the two accumulators first, then the other calls'. -/
theorem scopedRest_split (c : Dev nD) : ∃ Rst : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f) ∗ Rst) :=
  ⟨_, scopedRest0_eq c⟩

/-- What is left of the scoped buffers beside the two accumulators (the other calls' staging and scratch buffers, each at
    some contents): never touched by this call. -/
def others (c : Dev nD) : sProp 𝕄 := Classical.choose (scopedRest_split (F := F) c)

/-- The invariant handed to the body at a point where nothing is known of the accumulators. -/
theorem PhiA_eq (c : Dev nD) :
    (Pipeline.ΦA spec0 c : sProp 𝕄)
      = iprop(iprop((∃ d, owns (c : Thread nD τ) accSum fullShare d) ∗ (∃ d, owns (c : Thread nD τ) accSq fullShare d) ∗ others c) ∗ (∃ r, prngReg c r)) := by
  unfold Pipeline.ΦA; rw [Classical.choose_spec (scopedRest_split (F := F) c)]; simp only [accSum, accSq, owns_whole]; try rfl

end Cert.Kernel.Call0

end
-- ==== Proof.Kernel.Call0RunFirst.lean ====
/-
  The body at the FIRST grid point of the first matrix-product call: both accumulators are zeroed, then the product block is stored and its column sums (and those of its squares) are added to the accumulators; the two statistics outputs are not touched.
-/
import proofs.«117614_j79061757985000_1_alg».proof.Proof.Kernel.Call0Base

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runFirst (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i)
    (x0 : Vec F S2048x784 .f32) (x1 : Vec F S784x300 .bf16) :
    Σ' (L2 : List (View.Piece (Elt F) S2048x300 .f32)) (LS0 : List (View.Piece (Elt F) S1x300 .f32)), { LS1 : List (View.Piece (Elt F) S1x300 .f32) //
      ∀ (xi3 xi4 : Vec F S1x300 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7) K } := by
  refine ⟨?_, ?_, ?_, fun xi3 xi4 E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%f3, %hf3, H3⟩, ⟨%f4, %hf4, H4⟩, ⟨%d6, %f6, -, HS0⟩, ⟨%d7, %f7, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Call0

end
-- ==== Proof.Kernel.Call0RunMid.lean ====
/-
  The body at a MIDDLE grid point (neither first nor last) of the first matrix-product call: the product block is stored and its column sums (and those of its squares) are added to the accumulators as the point before left them; the two statistics outputs are not touched.
-/
import proofs.«117614_j79061757985000_1_alg».proof.Proof.Kernel.Call0RunFirst

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runMid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i)
    (x0 : Vec F S2048x784 .f32) (x1 : Vec F S784x300 .bf16) (xs0 xs1 : Vec F S1x300 .f32) :
    Σ' (L2 : List (View.Piece (Elt F) S2048x300 .f32)) (LS0 : List (View.Piece (Elt F) S1x300 .f32)), { LS1 : List (View.Piece (Elt F) S1x300 .f32) //
      ∀ (xi3 xi4 : Vec F S1x300 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7) K } := by
  refine ⟨?_, ?_, ?_, fun xi3 xi4 E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%f3, %hf3, H3⟩, ⟨%f4, %hf4, H4⟩, ⟨%f6, %hf6, HS0⟩, ⟨%f7, %hf7, HS1⟩, Hk⟩
    obtain rfl := harg1.eq_unread hf0; obtain rfl := harg2.eq_unread hf1; obtain rfl := harg4.eq_unread hf3; obtain rfl := harg5.eq_unread hf4; obtain rfl := harg6.eq_unread hf6; obtain rfl := harg7.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Call0

end
-- ==== Proof.Kernel.Call0RunLast.lean ====
/-
  The body at the LAST grid point of the first matrix-product call: the product block is stored, the accumulators are brought up to date, and from them the column means (sum / 65536) and 1/sqrt(sumsq / 65536 - mean^2 + eps) are stored into the two statistics outputs.
-/
import proofs.«117614_j79061757985000_1_alg».proof.Proof.Kernel.Call0RunMid

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runLast (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i)
    (x0 : Vec F S2048x784 .f32) (x1 : Vec F S784x300 .bf16) (xs0 xs1 : Vec F S1x300 .f32) :
    Σ' (L2 : List (View.Piece (Elt F) S2048x300 .f32)) (L3 : List (View.Piece (Elt F) S1x300 .f32)) (L4 : List (View.Piece (Elt F) S1x300 .f32)) (LS0 : List (View.Piece (Elt F) S1x300 .f32)), { LS1 : List (View.Piece (Elt F) S1x300 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7) K } := by
  refine ⟨?_, ?_, ?_, ?_, ?_, fun E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f6, %hf6, HS0⟩, ⟨%f7, %hf7, HS1⟩, Hk⟩
    obtain rfl := harg1.eq_unread hf0; obtain rfl := harg2.eq_unread hf1; obtain rfl := harg6.eq_unread hf6; obtain rfl := harg7.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Call0

end
-- ==== Proof.Kernel.Call0Points.lean ====
/-
  The first matrix-product call, point by point. After point n the product output's staging buffer holds the block
  x[2048 n .. 2048 (n+1)) · signs, and the two accumulators hold the column sums (of the entries, of their squares)
  over the blocks 0..n: each point adds its block's column sums to what the point before left, the first point to zero.
  At the last point the two statistics buffers hold sum/65536 and 1/sqrt(sumsq/65536 - mean^2 + eps). Between points
  the accumulators are carried by the call's invariant; the other calls' scoped buffers ride along untouched.
-/
import proofs.«117614_j79061757985000_1_alg».proof.Proof.Kernel.Call0RunLast

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves: the product block, the two statistics (meaningful at the last point only), the two accumulators. -/
structure Left (F : FTy → Type) where
  prod : Vec F S2048x300 .f32
  mean : Vec F S1x300 .f32
  istd : Vec F S1x300 .f32
  sum : Vec F S1x300 .f32
  sq : Vec F S1x300 .f32

/-- A buffer's pieces read back over arbitrary contents. -/
abbrev rd2 (L : List (View.Piece (Elt F) S2048x300 .f32)) : Vec F S2048x300 .f32 := VO_2.read (Elt F) (VO_2.writes (Elt F) VO_2.junk L)
abbrev rd3 (L : List (View.Piece (Elt F) S1x300 .f32)) : Vec F S1x300 .f32 := VO_3.read (Elt F) (VO_3.writes (Elt F) VO_3.junk L)
abbrev rd4 (L : List (View.Piece (Elt F) S1x300 .f32)) : Vec F S1x300 .f32 := VO_4.read (Elt F) (VO_4.writes (Elt F) VO_4.junk L)
abbrev rdS0 (L : List (View.Piece (Elt F) S1x300 .f32)) : Vec F S1x300 .f32 := VS_0.read (Elt F) (VS_0.writes (Elt F) VS_0.junk L)
abbrev rdS1 (L : List (View.Piece (Elt F) S1x300 .f32)) : Vec F S1x300 .f32 := VS_1.read (Elt F) (VS_1.writes (Elt F) VS_1.junk L)

/-- What the first point leaves, from its blocks. -/
def leftFirst (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i)
    (x0 : Vec F S2048x784 .f32) (x1 : Vec F S784x300 .bf16) : Left F :=
  let r := runFirst c i arg1 harg1 arg2 harg2 arg3 harg3 arg4 harg4 arg5 harg5 arg6 harg6 arg7 harg7 hc0 hc1 x0 x1
  ⟨rd2 r.1, rd3 [], rd4 [], rdS0 r.2.1, rdS1 r.2.2.1⟩
/-- What a middle point leaves, from its blocks and the accumulators before it. -/
def leftMid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i)
    (x0 : Vec F S2048x784 .f32) (x1 : Vec F S784x300 .bf16) (xs0 xs1 : Vec F S1x300 .f32) : Left F :=
  let r := runMid c i arg1 harg1 arg2 harg2 arg3 harg3 arg4 harg4 arg5 harg5 arg6 harg6 arg7 harg7 hc0 hc1 x0 x1 xs0 xs1
  ⟨rd2 r.1, rd3 [], rd4 [], rdS0 r.2.1, rdS1 r.2.2.1⟩
/-- What the last point leaves. -/
def leftLast (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i)
    (x0 : Vec F S2048x784 .f32) (x1 : Vec F S784x300 .bf16) (xs0 xs1 : Vec F S1x300 .f32) : Left F :=
  let r := runLast c i arg1 harg1 arg2 harg2 arg3 harg3 arg4 harg4 arg5 harg5 arg6 harg6 arg7 harg7 hc0 hc1 x0 x1 xs0 xs1
  ⟨rd2 r.1, rd3 r.2.1, rd4 r.2.2.1, rdS0 r.2.2.2.1, rdS1 r.2.2.2.2.1⟩

/-! ## Each written buffer is covered by its pieces -/

theorem cov2_first (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i) (x0 : Vec F S2048x784 .f32) (x1 : Vec F S784x300 .bf16) (y : S2048x300.Idx) :
    ∃ pc ∈ (runFirst c i arg1 harg1 arg2 harg2 arg3 harg3 arg4 harg4 arg5 harg5 arg6 harg6 arg7 harg7 hc0 hc1 x0 x1).1, y ∈ pc.1.set :=
  View.cover_of_tiledL _ S2048x300.size (by sl_kernel_rfl) y
theorem covS0_first (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i) (x0 : Vec F S2048x784 .f32) (x1 : Vec F S784x300 .bf16) (y : S1x300.Idx) :
    ∃ pc ∈ (runFirst c i arg1 harg1 arg2 harg2 arg3 harg3 arg4 harg4 arg5 harg5 arg6 harg6 arg7 harg7 hc0 hc1 x0 x1).2.1, y ∈ pc.1.set :=
  View.cover_of_tiledL _ S1x300.size (by sl_kernel_rfl) y
theorem covS1_first (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i) (x0 : Vec F S2048x784 .f32) (x1 : Vec F S784x300 .bf16) (y : S1x300.Idx) :
    ∃ pc ∈ (runFirst c i arg1 harg1 arg2 harg2 arg3 harg3 arg4 harg4 arg5 harg5 arg6 harg6 arg7 harg7 hc0 hc1 x0 x1).2.2.1, y ∈ pc.1.set :=
  View.cover_of_tiledL _ S1x300.size (by sl_kernel_rfl) y
theorem cov2_mid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i) (x0 : Vec F S2048x784 .f32) (x1 : Vec F S784x300 .bf16) (xs0 xs1 : Vec F S1x300 .f32) (y : S2048x300.Idx) :
    ∃ pc ∈ (runMid c i arg1 harg1 arg2 harg2 arg3 harg3 arg4 harg4 arg5 harg5 arg6 harg6 arg7 harg7 hc0 hc1 x0 x1 xs0 xs1).1, y ∈ pc.1.set :=
  View.cover_of_tiledL _ S2048x300.size (by sl_kernel_rfl) y
theorem covS0_mid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i) (x0 : Vec F S2048x784 .f32) (x1 : Vec F S784x300 .bf16) (xs0 xs1 : Vec F S1x300 .f32) (y : S1x300.Idx) :
    ∃ pc ∈ (runMid c i arg1 harg1 arg2 harg2 arg3 harg3 arg4 harg4 arg5 harg5 arg6 harg6 arg7 harg7 hc0 hc1 x0 x1 xs0 xs1).2.1, y ∈ pc.1.set :=
  View.cover_of_tiledL _ S1x300.size (by sl_kernel_rfl) y
theorem covS1_mid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i) (x0 : Vec F S2048x784 .f32) (x1 : Vec F S784x300 .bf16) (xs0 xs1 : Vec F S1x300 .f32) (y : S1x300.Idx) :
    ∃ pc ∈ (runMid c i arg1 harg1 arg2 harg2 arg3 harg3 arg4 harg4 arg5 harg5 arg6 harg6 arg7 harg7 hc0 hc1 x0 x1 xs0 xs1).2.2.1, y ∈ pc.1.set :=
  View.cover_of_tiledL _ S1x300.size (by sl_kernel_rfl) y
theorem cov2_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S2048x300.Idx) :
    ∃ pc ∈ (runLast c i arg1 harg1 arg2 harg2 arg3 harg3 arg4 harg4 arg5 harg5 arg6 harg6 arg7 harg7 hc0 hc1 x0 x1 xs0 xs1).1, y ∈ pc.1.set :=
  View.cover_of_tiledL _ S2048x300.size (by sl_kernel_rfl) y
theorem cov3_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S1x300.Idx) :
    ∃ pc ∈ (runLast c i arg1 harg1 arg2 harg2 arg3 harg3 arg4 harg4 arg5 harg5 arg6 harg6 arg7 harg7 hc0 hc1 x0 x1 xs0 xs1).2.1, y ∈ pc.1.set :=
  View.cover_of_tiledL _ S1x300.size (by sl_kernel_rfl) y
theorem cov4_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S1x300.Idx) :
    ∃ pc ∈ (runLast c i arg1 harg1 arg2 harg2 arg3 harg3 arg4 harg4 arg5 harg5 arg6 harg6 arg7 harg7 hc0 hc1 x0 x1 xs0 xs1).2.2.1, y ∈ pc.1.set :=
  View.cover_of_tiledL _ S1x300.size (by sl_kernel_rfl) y
theorem covS0_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S1x300.Idx) :
    ∃ pc ∈ (runLast c i arg1 harg1 arg2 harg2 arg3 harg3 arg4 harg4 arg5 harg5 arg6 harg6 arg7 harg7 hc0 hc1 x0 x1 xs0 xs1).2.2.2.1, y ∈ pc.1.set :=
  View.cover_of_tiledL _ S1x300.size (by sl_kernel_rfl) y
theorem covS1_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S1x300.Idx) :
    ∃ pc ∈ (runLast c i arg1 harg1 arg2 harg2 arg3 harg3 arg4 harg4 arg5 harg5 arg6 harg6 arg7 harg7 hc0 hc1 x0 x1 xs0 xs1).2.2.2.2.1, y ∈ pc.1.set :=
  View.cover_of_tiledL _ S1x300.size (by sl_kernel_rfl) y

/-! ## The accumulation over the points -/

/-- What the buffers hold after the body at position n: the case of n, run at the point's memrefs and blocks, over the
    accumulators the point before left. -/
def leftAt (c : Dev nD) : (n : ℕ) → n < cfg0.N → Left F
  | 0, hn => leftFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) accSum (Memref.isWhole_whole _) accSq (Memref.isWhole_whole _) ((isFirst_iff ⟨0, hn⟩).mpr rfl) (fun h => absurd ((isLast_iff ⟨0, hn⟩).mp h) (show ¬(0 : ℕ) = 31 by decide)) (iblk V c 0 ⟨0, hn⟩) (iblk V c 1 ⟨0, hn⟩)
  | n + 1, hn =>
    if h1 : n + 1 = 31 then
      leftLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accSum (Memref.isWhole_whole _) accSq (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (leftAt c n (Nat.lt_of_succ_lt hn)).sum (leftAt c n (Nat.lt_of_succ_lt hn)).sq
    else
      leftMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accSum (Memref.isWhole_whole _) accSq (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (leftAt c n (Nat.lt_of_succ_lt hn)).sum (leftAt c n (Nat.lt_of_succ_lt hn)).sq

theorem leftAt_first (c : Dev nD) (t : Fin cfg0.N) (h0 : t.val = 0) (h1 : ¬t.val = 31) :
    leftAt V c t.val t.isLt = leftFirst c (grid0.coords t) (ms_0 t) (hs_0 t) (ms_1 t) (hs_1 t) (ms_2 t) (hs_2 t) (ms_3 t) (hs_3 t) (ms_4 t) (hs_4 t) accSum (Memref.isWhole_whole _) accSq (Memref.isWhole_whole _) ((isFirst_iff t).mpr h0) (fun h => h1 ((isLast_iff t).mp h)) (iblk V c 0 t) (iblk V c 1 t) := by
  obtain ⟨n, hn⟩ := t
  cases n with
  | zero => rfl
  | succ n => exact absurd h0 (Nat.succ_ne_zero n)

theorem leftAt_mid (c : Dev nD) (t : Fin cfg0.N) (h0 : ¬t.val = 0) (h1 : ¬t.val = 31) :
    leftAt V c t.val t.isLt = leftMid c (grid0.coords t) (ms_0 t) (hs_0 t) (ms_1 t) (hs_1 t) (ms_2 t) (hs_2 t) (ms_3 t) (hs_3 t) (ms_4 t) (hs_4 t) accSum (Memref.isWhole_whole _) accSq (Memref.isWhole_whole _) (fun h => h0 ((isFirst_iff t).mp h)) (fun h => h1 ((isLast_iff t).mp h)) (iblk V c 0 t) (iblk V c 1 t)
      (leftAt V c (t.val - 1) (Nat.lt_of_le_of_lt (Nat.sub_le _ _) t.isLt)).sum (leftAt V c (t.val - 1) (Nat.lt_of_le_of_lt (Nat.sub_le _ _) t.isLt)).sq := by
  obtain ⟨n, hn⟩ := t
  cases n with
  | zero => exact absurd rfl h0
  | succ n => exact (dif_neg h1).trans rfl

theorem leftAt_last (c : Dev nD) (t : Fin cfg0.N) (h0 : ¬t.val = 0) (h1 : t.val = 31) :
    leftAt V c t.val t.isLt = leftLast c (grid0.coords t) (ms_0 t) (hs_0 t) (ms_1 t) (hs_1 t) (ms_2 t) (hs_2 t) (ms_3 t) (hs_3 t) (ms_4 t) (hs_4 t) accSum (Memref.isWhole_whole _) accSq (Memref.isWhole_whole _) (fun h => h0 ((isFirst_iff t).mp h)) ((isLast_iff t).mpr h1) (iblk V c 0 t) (iblk V c 1 t)
      (leftAt V c (t.val - 1) (Nat.lt_of_le_of_lt (Nat.sub_le _ _) t.isLt)).sum (leftAt V c (t.val - 1) (Nat.lt_of_le_of_lt (Nat.sub_le _ _) t.isLt)).sq := by
  obtain ⟨n, hn⟩ := t
  cases n with
  | zero => exact absurd rfl h0
  | succ n => exact (dif_pos h1).trans rfl

/-! ## The invariant between points: the accumulators at what the point before left -/

def PhiS (c : Dev nD) : (n : ℕ) → n ≤ cfg0.N → sProp 𝕄
  | 0, _ => Pipeline.ΦA spec0 c
  | n + 1, hn => iprop(iprop(owns (c : Thread nD τ) accSum fullShare (leftAt V c n hn).sum ∗ owns (c : Thread nD τ) accSq fullShare (leftAt V c n hn).sq ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accSum fullShare (leftAt V c n hn).sum ∗ owns (c : Thread nD τ) accSq fullShare (leftAt V c n hn).sq ∗ others c) ∗ (∃ r, prngReg c r)) := rfl
theorem PhiS_pos (c : Dev nD) (n : ℕ) (h : n ≤ cfg0.N) (hz : n ≠ 0) :
    PhiS V c n h = iprop(iprop(owns (c : Thread nD τ) accSum fullShare (leftAt V c (n - 1) (by omega)).sum ∗ owns (c : Thread nD τ) accSq fullShare (leftAt V c (n - 1) (by omega)).sq ∗ others c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (leftAt V c t.val t.isLt).prod
    | ⟨3, _⟩ => (leftAt V c t.val t.isLt).mean
    | ⟨4, _⟩ => (leftAt V c t.val t.isLt).istd
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (leftAt V c t.val t.isLt).prod := by dsimp only [dat]
theorem after_3 (c : Dev nD) (t : Fin cfg0.N) : (dat V c).after 3 t = (leftAt V c t.val t.isLt).mean := by dsimp only [dat]
theorem after_4 (c : Dev nD) (t : Fin cfg0.N) : (dat V c).after 4 t = (leftAt V c t.val t.isLt).istd := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

end Cert.Kernel.Call0

end
-- ==== Proof.Kernel.Call0Body.lean ====
/-
  The first matrix-product call: the body meets its obligation at every grid point. The invariant hands the body the two
  accumulators (at anything before the first point, at what the point before left afterwards) and takes them back at
  this point's contents; the row block and the sign matrix are where the pipeline staged them; the product buffer is
  written whole at every point; the two statistics buffers are written at the last point only and handed back untouched
  elsewhere.
-/
import proofs.«117614_j79061757985000_1_alg».proof.Proof.Kernel.Call0Points

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_0 (c : Dev nD) (t : Fin cfg0.N) : (dat V c).leavesExact 0 t = owns (c : Thread nD τ) (ms_0 t) fullShare (iblk V c 0 t) := by
  unfold Dat.leavesExact; rw [live_0 t, after_0]
theorem leaves_1 (c : Dev nD) (t : Fin cfg0.N) : (dat V c).leavesExact 1 t = owns (c : Thread nD τ) (ms_1 t) fullShare (iblk V c 1 t) := by
  unfold Dat.leavesExact; rw [live_1 t, after_1]
theorem leaves_2 (c : Dev nD) (t : Fin cfg0.N) : (dat V c).leavesExact 2 t = owns (c : Thread nD τ) (ms_2 t) fullShare (leftAt V c t.val t.isLt).prod := by
  unfold Dat.leavesExact; rw [live_2 t, after_2]
theorem leaves_3 (c : Dev nD) (t : Fin cfg0.N) (h : isLast (grid0.coords t)) : (dat V c).leavesExact 3 t = owns (c : Thread nD τ) (ms_3 t) fullShare (leftAt V c t.val t.isLt).mean := by
  unfold Dat.leavesExact; rw [live_3 t h, after_3]
theorem leaves_4 (c : Dev nD) (t : Fin cfg0.N) (h : isLast (grid0.coords t)) : (dat V c).leavesExact 4 t = owns (c : Thread nD τ) (ms_4 t) fullShare (leftAt V c t.val t.isLt).istd := by
  unfold Dat.leavesExact; rw [live_4 t h, after_4]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 32 := lt_of_lt_of_eq t.isLt (show cfg0.N = 32 from N_0)
  by_cases h0 : t.val = 0
  · have h1 : ¬t.val = 31 := by omega
    rw [Dat.leavesExact_idle (dat V c) 3 t (idle_3 t (fun h => h1 ((isLast_iff t).mp h))) (noFlush_3 t (fun h => h1 ((isLast_iff t).mp h)))]
    rw [Dat.leavesExact_idle (dat V c) 4 t (idle_4 t (fun h => h1 ((isLast_iff t).mp h))) (noFlush_4 t (fun h => h1 ((isLast_iff t).mp h)))]
    rw [leftAt_first V c t h0 h1]
    unfold leftFirst; dsimp only
    rw [PhiS_castSucc V c t, PhiS_zero V c _ _ h0, PhiA_eq]
    iintro ⟨⟨⟨HS0, HS1, Hoth⟩, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ _ _ ((isFirst_iff t).mpr h0) (fun h => h1 ((isLast_iff t).mp h)) (iblk V c 0 t) (iblk V c 1 t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 Hoth Hg]
    · isplitr [Hg]
      · isplitl [HS0]
        · unfold owns; iexists _; isplitr
          swap; · iexact HS0
          ipureintro; exact View.read_writes_of_cover _ _ _ _ _ (covS0_first c _ _ _ _ _ _ _ _ _ _ _ _ _ _ _ _ _ _ _)
        isplitl [HS1]
        · unfold owns; iexists _; isplitr
          swap; · iexact HS1
          ipureintro; exact View.read_writes_of_cover _ _ _ _ _ (covS1_first c _ _ _ _ _ _ _ _ _ _ _ _ _ _ _ _ _ _ _)
        iexact Hoth
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cov2_first c _ _ _ _ _ _ _ _ _ _ _ _ _ _ _ _ _ _ _)
    isplitl [H3]; · iexists _; iexact H3
    iexists _; iexact H4
  · by_cases h1 : t.val = 31
    · rw [leaves_3 V c t ((isLast_iff t).mpr h1), leaves_4 V c t ((isLast_iff t).mpr h1)]
      rw [leftAt_last V c t h0 h1]
      unfold leftLast; dsimp only
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((isFirst_iff t).mp h)) ((isLast_iff t).mpr h1) (iblk V c 0 t) (iblk V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (covS0_last c _ _ _ _ _ _ _ _ _ _ _ _ _ _ _ _ _ _ _ _ _)
          isplitl [HS1]
          · unfold owns; iexists _; isplitr
            swap; · iexact HS1
            ipureintro; exact View.read_writes_of_cover _ _ _ _ _ (covS1_last c _ _ _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cov2_last c _ _ _ _ _ _ _ _ _ _ _ _ _ _ _ _ _ _ _ _ _)
      isplitl [H3]
      · unfold owns; iexists _; isplitr
        swap; · iexact H3
        ipureintro; exact View.read_writes_of_cover _ _ _ _ _ (cov3_last c _ _ _ _ _ _ _ _ _ _ _ _ _ _ _ _ _ _ _ _ _)
      unfold owns; iexists _; isplitr
      swap; · iexact H4
      ipureintro; exact View.read_writes_of_cover _ _ _ _ _ (cov4_last c _ _ _ _ _ _ _ _ _ _ _ _ _ _ _ _ _ _ _ _ _)
    · rw [Dat.leavesExact_idle (dat V c) 3 t (idle_3 t (fun h => h1 ((isLast_iff t).mp h))) (noFlush_3 t (fun h => h1 ((isLast_iff t).mp h)))]
      rw [Dat.leavesExact_idle (dat V c) 4 t (idle_4 t (fun h => h1 ((isLast_iff t).mp h))) (noFlush_4 t (fun h => h1 ((isLast_iff t).mp h)))]
      rw [leftAt_mid V c t h0 h1]
      unfold leftMid; dsimp only
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((isFirst_iff t).mp h)) (fun h => h1 ((isLast_iff t).mp h)) (iblk V c 0 t) (iblk V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (covS0_mid c _ _ _ _ _ _ _ _ _ _ _ _ _ _ _ _ _ _ _ _ _)
          isplitl [HS1]
          · unfold owns; iexists _; isplitr
            swap; · iexact HS1
            ipureintro; exact View.read_writes_of_cover _ _ _ _ _ (covS1_mid c _ _ _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cov2_mid c _ _ _ _ _ _ _ _ _ _ _ _ _ _ _ _ _ _ _ _ _)
      isplitl [H3]; · iexists _; iexact H3
      iexists _; iexact H4

theorem body_obligation (c : Dev nD) : BodyObligation (dat (F := F) V c) (defs₀ (F := F)) Variants.none () Set.univ := fun t => by
  rw [bigSep_W0, bigSep_W0]
  exact sound_body V c t

/-- What the call is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant forgets what the accumulators hold. -/
theorem hout (c : Dev nD) : (dat V c).Φ (Fin.last cfg0.N) ⊢ Pipeline.ΦA spec0 c := by
  have ht : (Fin.last cfg0.N).val ≠ 0 := by rw [Fin.val_last]; have : cfg0.N = 32 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, HS1, Hoth⟩, Hg⟩
  isplitr [Hg]
  · isplitl [HS0]; · iexists _; iexact HS0
    isplitl [HS1]; · iexists _; iexact HS1
    iexact Hoth
  iexact Hg

end Cert.Kernel.Call0

end
-- ==== Proof.Kernel.Call1Base.lean ====
/-
  The second matrix-product call (8 grid points of 8192 rows each): what its runs share.
  At point t the body normalises rows [8192 t, 8192 (t+1)) of the first product with the first call's column means and
  inverse deviations, scales and shifts them, multiplies by the second sign matrix, stores the product block, and adds
  the block's column sums and the column sums of its squares to two running [1,10] accumulators kept in scratch memory:
  zeroed at the first point (t = 0) and, at the last (t = 7), turned into the second column means and inverse
  deviations, the only point at which the two [1,10] outputs are stored and written back. Three control cases.
-/
import proofs.«117614_j79061757985000_1_alg».proof.Proof.Gen.Kernel.Launch
import proofs.«117614_j79061757985000_1_alg».proof.Proof.Gen.Kernel.Skeleton
import proofs.«117614_j79061757985000_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is in its staging buffer at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is in its staging buffer at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is in its staging buffer at every point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 is in its staging buffer at every point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 is in its staging buffer at every point, fetched there or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 is in its staging buffer at every point, fetched there or not. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, over the grid -/

abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)
abbrev isLast (i : grid1.Coords) : Prop := k1_cond2 i = 1#1
theorem isLast_iff : ∀ t : Fin cfg1.N, isLast (grid1.coords t) ↔ t.val = 7 :=
  (by decide +kernel : ∀ t : Fin grid1.N, isLast (grid1.coords t) ↔ t.val = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
theorem live_5 : ∀ t : Fin cfg1.N, cfg1.idle 5 (grid1.coords t) = false := by decide +kernel
theorem live_6 : ∀ t : Fin cfg1.N, cfg1.idle 6 (grid1.coords t) = false := by decide +kernel
theorem idle_7 : ∀ t : Fin cfg1.N, ¬isLast (grid1.coords t) → cfg1.idle 7 (grid1.coords t) = true := by decide +kernel
theorem noFlush_7 : ∀ t : Fin cfg1.N, ¬isLast (grid1.coords t) → (cfg1.win 7).flush t = false := by decide +kernel
theorem live_7 : ∀ t : Fin cfg1.N, isLast (grid1.coords t) → cfg1.idle 7 (grid1.coords t) = false := by decide +kernel
theorem idle_8 : ∀ t : Fin cfg1.N, ¬isLast (grid1.coords t) → cfg1.idle 8 (grid1.coords t) = true := by decide +kernel
theorem noFlush_8 : ∀ t : Fin cfg1.N, ¬isLast (grid1.coords t) → (cfg1.win 8).flush t = false := by decide +kernel
theorem live_8 : ∀ t : Fin cfg1.N, isLast (grid1.coords t) → cfg1.idle 8 (grid1.coords t) = false := by decide +kernel

/-! ## The memrefs the body is called with -/

abbrev ms_0 (t : Fin cfg1.N) : Memref sig .tc .vmem S8192x300 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x300 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x300 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x300 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x300 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S300x10 .bf16 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S8192x10 .f32 := win1_6.stage (cfg1.slots t 6)
abbrev hs_6 (t : Fin cfg1.N) : (ms_6 t).IsWhole := hstage1_6 ((cfg1.slots t 6).cast nbuf1_6)
abbrev ms_7 (t : Fin cfg1.N) : Memref sig .tc .vmem S1x10 .f32 := win1_7.stage (cfg1.slots t 7)
abbrev hs_7 (t : Fin cfg1.N) : (ms_7 t).IsWhole := hstage1_7 ((cfg1.slots t 7).cast nbuf1_7)
abbrev ms_8 (t : Fin cfg1.N) : Memref sig .tc .vmem S1x10 .f32 := win1_8.stage (cfg1.slots t 8)
abbrev hs_8 (t : Fin cfg1.N) : (ms_8 t).IsWhole := hstage1_8 ((cfg1.slots t 8).cast nbuf1_8)
/-- The two accumulators: the running column sums and the running column sums of squares. -/
abbrev accSum : Memref sig .tc .vmem S1x10 .f32 := Memref.whole cc1_scratch0
abbrev accSq : Memref sig .tc .vmem S1x10 .f32 := Memref.whole cc1_scratch1
abbrev VO_6 : View sig .tc .vmem S8192x10 .f32 := (Memref.whole cc1_stg6_0 : Memref sig .tc .vmem S8192x10 .f32).view
abbrev VO_7 : View sig .tc .vmem S1x10 .f32 := (Memref.whole cc1_stg7_0 : Memref sig .tc .vmem S1x10 .f32).view
abbrev VO_8 : View sig .tc .vmem S1x10 .f32 := (Memref.whole cc1_stg8_0 : Memref sig .tc .vmem S1x10 .f32).view
abbrev VS_0 : View sig .tc .vmem S1x10 .f32 := (accSum).view
abbrev VS_1 : View sig .tc .vmem S1x10 .f32 := (accSq).view

/-- The core's scoped buffers that this call does not stage: the two accumulators first, then the other calls'. -/
theorem scopedRest_split (c : Dev nD) : ∃ Rst : sProp 𝕄,
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f) ∗ Rst) :=
  ⟨_, Pipeline.scopedRest_eq_of_list spec1 c [cc1_scratch0, cc1_scratch1, cc0_stg0_0, cc0_stg0_1, cc0_stg1_0, cc0_stg2_0, cc0_stg2_1, cc0_stg3_0, cc0_stg4_0, cc0_scratch0, cc0_scratch1, cc2_stg0_0, cc2_stg0_1, cc2_stg1_0, cc2_stg2_0, cc2_stg3_0, cc2_stg4_0, cc2_stg5_0, cc2_stg5_1] (by decide) (by decide)⟩

def others (c : Dev nD) : sProp 𝕄 := Classical.choose (scopedRest_split (F := F) c)

theorem PhiA_eq (c : Dev nD) :
    (Pipeline.ΦA spec1 c : sProp 𝕄)
      = iprop(iprop((∃ d, owns (c : Thread nD τ) accSum fullShare d) ∗ (∃ d, owns (c : Thread nD τ) accSq fullShare d) ∗ others c) ∗ (∃ r, prngReg c r)) := by
  unfold Pipeline.ΦA; rw [Classical.choose_spec (scopedRest_split (F := F) c)]; simp only [accSum, accSq, owns_whole]; try rfl

end Cert.Kernel.Call1

end
-- ==== Proof.Kernel.Call1RunFirst.lean ====
/-
  The body at the FIRST grid point of the second matrix-product call: both accumulators are zeroed, then the product block is stored and its column sums (and those of its squares) are added to the accumulators; the two statistics outputs are not touched.
-/
import proofs.«117614_j79061757985000_1_alg».proof.Proof.Kernel.Call1Base

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runFirst (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i)
    (x0 : Vec F S8192x300 .f32) (x1 x2 x3 x4 : Vec F S1x300 .f32) (x5 : Vec F S300x10 .bf16) :
    Σ' (L6 : List (View.Piece (Elt F) S8192x10 .f32)) (LS0 : List (View.Piece (Elt F) S1x10 .f32)), { LS1 : List (View.Piece (Elt F) S1x10 .f32) //
      ∀ (xi7 xi8 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, HS0⟩, ⟨%d10, %f10, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Call1

end
-- ==== Proof.Kernel.Call1RunMid.lean ====
/-
  The body at a MIDDLE grid point (neither first nor last) of the second matrix-product call: the product block is stored and its column sums (and those of its squares) are added to the accumulators as the point before left them; the two statistics outputs are not touched.
-/
import proofs.«117614_j79061757985000_1_alg».proof.Proof.Kernel.Call1RunFirst

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runMid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i)
    (x0 : Vec F S8192x300 .f32) (x1 x2 x3 x4 : Vec F S1x300 .f32) (x5 : Vec F S300x10 .bf16) (xs0 xs1 : Vec F S1x10 .f32) :
    Σ' (L6 : List (View.Piece (Elt F) S8192x10 .f32)) (LS0 : List (View.Piece (Elt F) S1x10 .f32)), { LS1 : List (View.Piece (Elt F) S1x10 .f32) //
      ∀ (xi7 xi8 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, HS0⟩, ⟨%f10, %hf10, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Call1

end
-- ==== Proof.Kernel.Call1RunLast.lean ====
/-
  The body at the LAST grid point of the second matrix-product call: the product block is stored, the accumulators are brought up to date, and from them the column means (sum / 65536) and 1/sqrt(sumsq / 65536 - mean^2 + eps) are stored into the two statistics outputs.
-/
import proofs.«117614_j79061757985000_1_alg».proof.Proof.Kernel.Call1RunMid

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runLast (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i)
    (x0 : Vec F S8192x300 .f32) (x1 x2 x3 x4 : Vec F S1x300 .f32) (x5 : Vec F S300x10 .bf16) (xs0 xs1 : Vec F S1x10 .f32) :
    Σ' (L6 : List (View.Piece (Elt F) S8192x10 .f32)) (L7 : List (View.Piece (Elt F) S1x10 .f32)) (L8 : List (View.Piece (Elt F) S1x10 .f32)) (LS0 : List (View.Piece (Elt F) S1x10 .f32)), { LS1 : List (View.Piece (Elt F) S1x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, HS0⟩, ⟨%f10, %hf10, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Call1

end
-- ==== Proof.Kernel.Call1Points.lean ====
/-
  The second matrix-product call, point by point. After point n the product output's staging buffer holds the block of
  normalised rows [8192 n, 8192 (n+1)) times the second sign matrix, and the two accumulators hold the column sums (of
  the entries, of their squares) over the blocks 0..n: each point adds its block's column sums to what the point before
  left, the first point to zero. At the last point the two statistics buffers hold sum/65536 and
  1/sqrt(sumsq/65536 - mean^2 + eps). Between points the accumulators are carried by the call's invariant.
-/
import proofs.«117614_j79061757985000_1_alg».proof.Proof.Kernel.Call1RunLast

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves: the product block, the two statistics (meaningful at the last point only), the two accumulators. -/
structure Left (F : FTy → Type) where
  prod : Vec F S8192x10 .f32
  mean : Vec F S1x10 .f32
  istd : Vec F S1x10 .f32
  sum : Vec F S1x10 .f32
  sq : Vec F S1x10 .f32

abbrev rd6 (L : List (View.Piece (Elt F) S8192x10 .f32)) : Vec F S8192x10 .f32 := VO_6.read (Elt F) (VO_6.writes (Elt F) VO_6.junk L)
abbrev rd7 (L : List (View.Piece (Elt F) S1x10 .f32)) : Vec F S1x10 .f32 := VO_7.read (Elt F) (VO_7.writes (Elt F) VO_7.junk L)
abbrev rd8 (L : List (View.Piece (Elt F) S1x10 .f32)) : Vec F S1x10 .f32 := VO_8.read (Elt F) (VO_8.writes (Elt F) VO_8.junk L)
abbrev rdS0 (L : List (View.Piece (Elt F) S1x10 .f32)) : Vec F S1x10 .f32 := VS_0.read (Elt F) (VS_0.writes (Elt F) VS_0.junk L)
abbrev rdS1 (L : List (View.Piece (Elt F) S1x10 .f32)) : Vec F S1x10 .f32 := VS_1.read (Elt F) (VS_1.writes (Elt F) VS_1.junk L)

def leftFirst (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i)
    (x0 : Vec F S8192x300 .f32) (x1 x2 x3 x4 : Vec F S1x300 .f32) (x5 : Vec F S300x10 .bf16) : Left F :=
  let r := runFirst c i arg1 harg1 arg2 harg2 arg3 harg3 arg4 harg4 arg5 harg5 arg6 harg6 arg7 harg7 arg8 harg8 arg9 harg9 arg10 harg10 arg11 harg11 hc0 hc1 x0 x1 x2 x3 x4 x5
  ⟨rd6 r.1, rd7 [], rd8 [], rdS0 r.2.1, rdS1 r.2.2.1⟩
def leftMid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i)
    (x0 : Vec F S8192x300 .f32) (x1 x2 x3 x4 : Vec F S1x300 .f32) (x5 : Vec F S300x10 .bf16) (xs0 xs1 : Vec F S1x10 .f32) : Left F :=
  let r := runMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1
  ⟨rd6 r.1, rd7 [], rd8 [], rdS0 r.2.1, rdS1 r.2.2.1⟩
def leftLast (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i)
    (x0 : Vec F S8192x300 .f32) (x1 x2 x3 x4 : Vec F S1x300 .f32) (x5 : Vec F S300x10 .bf16) (xs0 xs1 : Vec F S1x10 .f32) : Left F :=
  let r := runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1
  ⟨rd6 r.1, rd7 r.2.1, rd8 r.2.2.1, rdS0 r.2.2.2.1, rdS1 r.2.2.2.2.1⟩

/-! ## Each written buffer is covered by its pieces -/

theorem cov6_first (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i) (x0 : Vec F S8192x300 .f32) (x1 x2 x3 x4 : Vec F S1x300 .f32) (x5 : Vec F S300x10 .bf16) (y : S8192x10.Idx) :
    ∃ pc ∈ (runFirst c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL _ S8192x10.size (by sl_kernel_rfl) y
theorem covS0_first (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i) (x0 : Vec F S8192x300 .f32) (x1 x2 x3 x4 : Vec F S1x300 .f32) (x5 : Vec F S300x10 .bf16) (y : S1x10.Idx) :
    ∃ pc ∈ (runFirst c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL _ S1x10.size (by sl_kernel_rfl) y
theorem covS1_first (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i) (x0 : Vec F S8192x300 .f32) (x1 x2 x3 x4 : Vec F S1x300 .f32) (x5 : Vec F S300x10 .bf16) (y : S1x10.Idx) :
    ∃ pc ∈ (runFirst c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL _ S1x10.size (by sl_kernel_rfl) y
theorem cov6_mid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i) (x0 : Vec F S8192x300 .f32) (x1 x2 x3 x4 : Vec F S1x300 .f32) (x5 : Vec F S300x10 .bf16) (xs0 xs1 : Vec F S1x10 .f32) (y : S8192x10.Idx) :
    ∃ pc ∈ (runMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL _ S8192x10.size (by sl_kernel_rfl) y
theorem covS0_mid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i) (x0 : Vec F S8192x300 .f32) (x1 x2 x3 x4 : Vec F S1x300 .f32) (x5 : Vec F S300x10 .bf16) (xs0 xs1 : Vec F S1x10 .f32) (y : S1x10.Idx) :
    ∃ pc ∈ (runMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL _ S1x10.size (by sl_kernel_rfl) y
theorem covS1_mid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i) (x0 : Vec F S8192x300 .f32) (x1 x2 x3 x4 : Vec F S1x300 .f32) (x5 : Vec F S300x10 .bf16) (xs0 xs1 : Vec F S1x10 .f32) (y : S1x10.Idx) :
    ∃ pc ∈ (runMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL _ S1x10.size (by sl_kernel_rfl) y
theorem cov6_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S8192x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL _ S8192x10.size (by sl_kernel_rfl) y
theorem cov7_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S1x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL _ S1x10.size (by sl_kernel_rfl) y
theorem cov8_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S1x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL _ S1x10.size (by sl_kernel_rfl) y
theorem covS0_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S1x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL _ S1x10.size (by sl_kernel_rfl) y
theorem covS1_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S1x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL _ S1x10.size (by sl_kernel_rfl) y

/-! ## The accumulation over the points -/

def leftAt (c : Dev nD) : (n : ℕ) → n < cfg1.N → Left F
  | 0, hn => leftFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) accSum (Memref.isWhole_whole _) accSq (Memref.isWhole_whole _) ((isFirst_iff ⟨0, hn⟩).mpr rfl) (fun h => absurd ((isLast_iff ⟨0, hn⟩).mp h) (show ¬(0 : ℕ) = 7 by decide)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)
  | n + 1, hn =>
    if h1 : n + 1 = 7 then
      leftLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) accSum (Memref.isWhole_whole _) accSq (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (leftAt c n (Nat.lt_of_succ_lt hn)).sum (leftAt c n (Nat.lt_of_succ_lt hn)).sq
    else
      leftMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) accSum (Memref.isWhole_whole _) accSq (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (leftAt c n (Nat.lt_of_succ_lt hn)).sum (leftAt c n (Nat.lt_of_succ_lt hn)).sq

theorem leftAt_first (c : Dev nD) (t : Fin cfg1.N) (h0 : t.val = 0) (h1 : ¬t.val = 7) :
    leftAt V c t.val t.isLt = leftFirst c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accSum (Memref.isWhole_whole _) accSq (Memref.isWhole_whole _) ((isFirst_iff t).mpr h0) (fun h => h1 ((isLast_iff t).mp h)) (iblk V c 0 t) (iblk V c 1 t) (iblk V c 2 t) (iblk V c 3 t) (iblk V c 4 t) (iblk V c 5 t) := by
  obtain ⟨n, hn⟩ := t
  cases n with
  | zero => rfl
  | succ n => exact absurd h0 (Nat.succ_ne_zero n)

theorem leftAt_mid (c : Dev nD) (t : Fin cfg1.N) (h0 : ¬t.val = 0) (h1 : ¬t.val = 7) :
    leftAt V c t.val t.isLt = leftMid c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accSum (Memref.isWhole_whole _) accSq (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t)
      (leftAt V c (t.val - 1) (Nat.lt_of_le_of_lt (Nat.sub_le _ _) t.isLt)).sum (leftAt V c (t.val - 1) (Nat.lt_of_le_of_lt (Nat.sub_le _ _) t.isLt)).sq := by
  obtain ⟨n, hn⟩ := t
  cases n with
  | zero => exact absurd rfl h0
  | succ n => exact (dif_neg h1).trans rfl

theorem leftAt_last (c : Dev nD) (t : Fin cfg1.N) (h0 : ¬t.val = 0) (h1 : t.val = 7) :
    leftAt V c t.val t.isLt = leftLast c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accSum (Memref.isWhole_whole _) accSq (Memref.isWhole_whole _) (fun h => h0 ((isFirst_iff t).mp h)) ((isLast_iff t).mpr h1) (iblk V c 0 t) (iblk V c 1 t) (iblk V c 2 t) (iblk V c 3 t) (iblk V c 4 t) (iblk V c 5 t)
      (leftAt V c (t.val - 1) (Nat.lt_of_le_of_lt (Nat.sub_le _ _) t.isLt)).sum (leftAt V c (t.val - 1) (Nat.lt_of_le_of_lt (Nat.sub_le _ _) t.isLt)).sq := by
  obtain ⟨n, hn⟩ := t
  cases n with
  | zero => exact absurd rfl h0
  | succ n => exact (dif_pos h1).trans rfl

/-! ## The invariant between points: the accumulators at what the point before left -/

def PhiS (c : Dev nD) : (n : ℕ) → n ≤ cfg1.N → sProp 𝕄
  | 0, _ => Pipeline.ΦA spec1 c
  | n + 1, hn => iprop(iprop(owns (c : Thread nD τ) accSum fullShare (leftAt V c n hn).sum ∗ owns (c : Thread nD τ) accSq fullShare (leftAt V c n hn).sq ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) accSum fullShare (leftAt V c n hn).sum ∗ owns (c : Thread nD τ) accSq fullShare (leftAt V c n hn).sq ∗ others c) ∗ (∃ r, prngReg c r)) := rfl
theorem PhiS_pos (c : Dev nD) (n : ℕ) (h : n ≤ cfg1.N) (hz : n ≠ 0) :
    PhiS V c n h = iprop(iprop(owns (c : Thread nD τ) accSum fullShare (leftAt V c (n - 1) (by omega)).sum ∗ owns (c : Thread nD τ) accSq fullShare (leftAt V c (n - 1) (by omega)).sq ∗ others c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (leftAt V c t.val t.isLt).prod
    | ⟨7, _⟩ => (leftAt V c t.val t.isLt).mean
    | ⟨8, _⟩ => (leftAt V c t.val t.isLt).istd
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = (leftAt V c t.val t.isLt).prod := by dsimp only [dat]
theorem after_7 (c : Dev nD) (t : Fin cfg1.N) : (dat V c).after 7 t = (leftAt V c t.val t.isLt).mean := by dsimp only [dat]
theorem after_8 (c : Dev nD) (t : Fin cfg1.N) : (dat V c).after 8 t = (leftAt V c t.val t.isLt).istd := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

end Cert.Kernel.Call1

end
-- ==== Proof.Kernel.Call1Body.lean ====
/-
  The second matrix-product call: the body meets its obligation at every grid point. The invariant hands the body the
  two accumulators (at anything before the first point, at what the point before left afterwards) and takes them back
  at this point's contents; the six inputs are where the pipeline staged them; the product buffer is written whole at
  every point; the two statistics buffers are written at the last point only and handed back untouched elsewhere.
-/
import proofs.«117614_j79061757985000_1_alg».proof.Proof.Kernel.Call1Points

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

theorem leaves_0 (c : Dev nD) (t : Fin cfg1.N) : (dat V c).leavesExact 0 t = owns (c : Thread nD τ) (ms_0 t) fullShare (iblk V c 0 t) := by
  unfold Dat.leavesExact; rw [live_0 t, after_0]
theorem leaves_1 (c : Dev nD) (t : Fin cfg1.N) : (dat V c).leavesExact 1 t = owns (c : Thread nD τ) (ms_1 t) fullShare (iblk V c 1 t) := by
  unfold Dat.leavesExact; rw [live_1 t, after_1]
theorem leaves_2 (c : Dev nD) (t : Fin cfg1.N) : (dat V c).leavesExact 2 t = owns (c : Thread nD τ) (ms_2 t) fullShare (iblk V c 2 t) := by
  unfold Dat.leavesExact; rw [live_2 t, after_2]
theorem leaves_3 (c : Dev nD) (t : Fin cfg1.N) : (dat V c).leavesExact 3 t = owns (c : Thread nD τ) (ms_3 t) fullShare (iblk V c 3 t) := by
  unfold Dat.leavesExact; rw [live_3 t, after_3]
theorem leaves_4 (c : Dev nD) (t : Fin cfg1.N) : (dat V c).leavesExact 4 t = owns (c : Thread nD τ) (ms_4 t) fullShare (iblk V c 4 t) := by
  unfold Dat.leavesExact; rw [live_4 t, after_4]
theorem leaves_5 (c : Dev nD) (t : Fin cfg1.N) : (dat V c).leavesExact 5 t = owns (c : Thread nD τ) (ms_5 t) fullShare (iblk V c 5 t) := by
  unfold Dat.leavesExact; rw [live_5 t, after_5]
theorem leaves_6 (c : Dev nD) (t : Fin cfg1.N) : (dat V c).leavesExact 6 t = owns (c : Thread nD τ) (ms_6 t) fullShare (leftAt V c t.val t.isLt).prod := by
  unfold Dat.leavesExact; rw [live_6 t, after_6]
theorem leaves_7 (c : Dev nD) (t : Fin cfg1.N) (h : isLast (grid1.coords t)) : (dat V c).leavesExact 7 t = owns (c : Thread nD τ) (ms_7 t) fullShare (leftAt V c t.val t.isLt).mean := by
  unfold Dat.leavesExact; rw [live_7 t h, after_7]
theorem leaves_8 (c : Dev nD) (t : Fin cfg1.N) (h : isLast (grid1.coords t)) : (dat V c).leavesExact 8 t = owns (c : Thread nD τ) (ms_8 t) fullShare (leftAt V c t.val t.isLt).istd := by
  unfold Dat.leavesExact; rw [live_8 t h, after_8]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6]
  have hN : t.val < 8 := lt_of_lt_of_eq t.isLt (show cfg1.N = 8 from N_1)
  by_cases h0 : t.val = 0
  · have h1 : ¬t.val = 7 := by omega
    rw [Dat.leavesExact_idle (dat V c) 7 t (idle_7 t (fun h => h1 ((isLast_iff t).mp h))) (noFlush_7 t (fun h => h1 ((isLast_iff t).mp h)))]
    rw [Dat.leavesExact_idle (dat V c) 8 t (idle_8 t (fun h => h1 ((isLast_iff t).mp h))) (noFlush_8 t (fun h => h1 ((isLast_iff t).mp h)))]
    rw [leftAt_first V c t h0 h1]
    unfold leftFirst; dsimp only
    rw [PhiS_castSucc V c t, PhiS_zero V c _ _ h0, PhiA_eq]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid1.coords t) _ _ _ _ _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hoth Hg]
    · isplitr [Hg]
      · isplitl [HS0]
        · unfold owns; iexists _; isplitr
          swap; · iexact HS0
          ipureintro; exact View.read_writes_of_cover _ _ _ _ _ (covS0_first c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (covS1_first c _ _ _ _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cov6_first c _ _ _ _ _ _ _ _ _ _ _ _ _ _ _ _ _ _ _ _ _ _ _ _ _ _ _ _ _ _ _)
    isplitl [H7]; · iexists _; iexact H7
    iexists _; iexact H8
  · by_cases h1 : t.val = 7
    · rw [leaves_7 V c t ((isLast_iff t).mpr h1), leaves_8 V c t ((isLast_iff t).mpr h1)]
      rw [leftAt_last V c t h0 h1]
      unfold leftLast; dsimp only
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid1.coords t) _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (covS0_last c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (covS1_last c _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cov6_last c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cov7_last c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cov8_last c _ _ _ _ _ _ _ _ _ _ _ _ _ _ _ _ _ _ _ _ _ _ _ _ _ _ _ _ _ _ _ _ _)
    · rw [Dat.leavesExact_idle (dat V c) 7 t (idle_7 t (fun h => h1 ((isLast_iff t).mp h))) (noFlush_7 t (fun h => h1 ((isLast_iff t).mp h)))]
      rw [Dat.leavesExact_idle (dat V c) 8 t (idle_8 t (fun h => h1 ((isLast_iff t).mp h))) (noFlush_8 t (fun h => h1 ((isLast_iff t).mp h)))]
      rw [leftAt_mid V c t h0 h1]
      unfold leftMid; dsimp only
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid c (grid1.coords t) _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (covS0_mid c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (covS1_mid c _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cov6_mid c _ _ _ _ _ _ _ _ _ _ _ _ _ _ _ _ _ _ _ _ _ _ _ _ _ _ _ _ _ _ _ _ _)
      isplitl [H7]; · iexists _; iexact H7
      iexists _; iexact H8

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  have ht : (Fin.last cfg1.N).val ≠ 0 := by rw [Fin.val_last]; have : cfg1.N = 8 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨HS0, HS1, Hoth⟩, Hg⟩
  isplitr [Hg]
  · isplitl [HS0]; · iexists _; iexact HS0
    isplitl [HS1]; · iexists _; iexact HS1
    iexact Hoth
  iexact Hg

end Cert.Kernel.Call1

end
-- ==== Proof.Kernel.Call2.lean ====
/-
  The last call: the final normalisation, 8 grid points of 8192 rows each. At every point the body reads its block of
  the second product and the four [1,10] rows (mean, inverse deviation, scale, shift) and stores, entry by entry,
  ((o - mean) * istd) * gamma + beta into the output block. No scratch, no condition: one control case.
-/
import proofs.«117614_j79061757985000_1_alg».proof.Proof.Gen.Kernel.Launch
import proofs.«117614_j79061757985000_1_alg».proof.Proof.Gen.Kernel.Skeleton
import proofs.«117614_j79061757985000_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Call2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rBig : Rect S8192x10 := Rect.unit (s := S8192x10) ![0, 0] S8192x10.size inb_S8192x10_S8192x10_0_0
abbrev rRow : Rect S1x10 := Rect.unit (s := S1x10) ![0, 0] S1x10.size inb_S1x10_S1x10_0_0

/-- The output block after the body, from the five input blocks: one store of the whole block. -/
def outBlk (x0 : Vec F S8192x10 .f32) (x1 x2 x3 x4 : Vec F S1x10 .f32) : Vec F S8192x10 .f32 :=
  View.canon [⟨rBig, k2_pay1 (View.ld x0 rBig) (View.ld x1 rRow) (View.ld x2 rRow) (View.ld x3 rRow) (View.ld x4 rRow)⟩]

theorem cover (p0 : Vec F S8192x10 .f32) (y : S8192x10.Idx) :
    ∃ pc ∈ ([⟨rBig, p0⟩] : List (View.Piece (Elt F) S8192x10 .f32)), y ∈ pc.1.set :=
  View.cover_of_tiled [⟨rBig, p0⟩] S8192x10.size (by rfl) y

set_option maxHeartbeats 2000000 in
theorem sound_kernel (c : Dev nD) (E : Set ℕ) (i : grid2.Coords) (arg1 : Memref sig .tc .vmem S8192x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S8192x10 .f32) (harg6 : arg6.IsWhole)
    (x0 : Vec F S8192x10 .f32) (x1 x2 x3 x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlk x0 x1 x2 x3 x4)) -∗ K ⟨⟩))
      ⊢ wp frame (wpE (defs₀ (F := F)) Variants.none c none) E (cc2__k3_kernel i arg1 harg1 arg2 harg2 arg3 harg3 arg4 harg4 arg5 harg5 arg6 harg6) K := by
  simp only [cc2__k3_kernel_eq_skeleton]; unfold cc2__k3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outBlk (iblk V c 0 t) (iblk V c 1 t) (iblk V c 2 t) (iblk V c 3 t) (iblk V c 4 t) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W2, bigSep_W2]
  exact sound_body V c t

end Cert.Kernel.Call2

end
-- ==== Proof.Kernel.Whole.lean ====
/-
  The whole program as one run. The buffer contents at each boundary of the program are a fold from the launch memory:
  after each stretch of host operations what those operations compute; after each of the three kernel calls, that call's
  arrays at what its write-backs leave (the first call: the product x · signs and its column statistics; the second:
  the product of the normalised rows with the second sign matrix and its column statistics; the third: the normalised
  result) and every other buffer as entered. Every weakly fair execution terminates, faulting nowhere, with every
  unscoped buffer at the last contents of that fold; the seven argument arrays are written by nothing, so they end
  as launched.
-/
import proofs.«117614_j79061757985000_1_alg».proof.Proof.Kernel.Call0Body
import proofs.«117614_j79061757985000_1_alg».proof.Proof.Kernel.Call1Body
import proofs.«117614_j79061757985000_1_alg».proof.Proof.Kernel.Call2
import proofs.«117614_j79061757985000_1_alg».proof.Proof.Gen.Kernel.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the five stretches of host operations (the first call's entry): the sign matrices, the reshaped scales and
    shifts. -/
abbrev W5 : Dev nD → Valuation τ sig (Elt F) := fun c => Gen.V5 m c
abbrev E5 : (c : Dev nD) → (b : Ref sig .tc) → Buf (Elt F) ((c : Thread nD τ).loc b) := fun c b => W5 m c b
/-- After call 0: its arrays at what the pipeline leaves (the inputs as entered, each output's write-backs folded), every
    other buffer as entered. -/
def W6 (c : Dev nD) : Valuation τ sig (Elt F) :=
  Pipeline.withArrays spec0 c (W5 m c) fun w => (Call0.dat (E5 m) c).arrAt w cfg0.N
theorem W6_arr (c : Dev nD) (w : Fin cfg0.W) :
    W6 m c (Proc.devRef .tc (Pipeline.arrRef spec0 w)) = (Call0.dat (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
/-- The same read at the TensorCore's references. -/
abbrev E6 : (c : Dev nD) → (b : Ref sig .tc) → Buf (Elt F) ((c : Thread nD τ).loc b) := fun c b => W6 m c b
theorem hF0 (c : Dev nD) (w : Fin cfg0.W) : (Call0.dat (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After call 1: its arrays at what the pipeline leaves (the inputs as entered, each output's write-backs folded), every
    other buffer as entered. -/
def W7 (c : Dev nD) : Valuation τ sig (Elt F) :=
  Pipeline.withArrays spec1 c (W6 m c) fun w => (Call1.dat (E6 m) c).arrAt w cfg1.N
theorem W7_arr (c : Dev nD) (w : Fin cfg1.W) :
    W7 m c (Proc.devRef .tc (Pipeline.arrRef spec1 w)) = (Call1.dat (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the TensorCore's references. -/
abbrev E7 : (c : Dev nD) → (b : Ref sig .tc) → Buf (Elt F) ((c : Thread nD τ).loc b) := fun c b => W7 m c b
theorem hF1 (c : Dev nD) (w : Fin cfg1.W) : (Call1.dat (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-- After call 2: its arrays at what the pipeline leaves (the inputs as entered, each output's write-backs folded), every
    other buffer as entered. -/
def W8 (c : Dev nD) : Valuation τ sig (Elt F) :=
  Pipeline.withArrays spec2 c (W7 m c) fun w => (Call2.dat (E7 m) c).arrAt w cfg2.N
theorem W8_arr (c : Dev nD) (w : Fin cfg2.W) :
    W8 m c (Proc.devRef .tc (Pipeline.arrRef spec2 w)) = (Call2.dat (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev E8 : (c : Dev nD) → (b : Ref sig .tc) → Buf (Elt F) ((c : Thread nD τ).loc b) := fun c b => W8 m c b
theorem hF2 (c : Dev nD) (w : Fin cfg2.W) : (Call2.dat (E7 m) c).arrAt w cfg2.N = E8 m c (Pipeline.arrRef spec2 w) :=
  (W8_arr m c w).symm
theorem hrest2 (c : Dev nD) : ∀ b, b ∉ Finset.univ.image (Pipeline.arrRef spec2) → E8 m c b = E7 m c b :=
  fun b hb => W8_of_ne m c b fun w e => hb (Finset.mem_image.mpr ⟨w, Finset.mem_univ _, e⟩)

/-! ## The proof data family and the thread state -/

abbrev admT : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admT p) c
  | ⟨0, _⟩ => fun c => Call0.dat (E5 m) c
  | ⟨1, _⟩ => fun c => Call1.dat (E6 m) c
  | ⟨2, _⟩ => fun c => Call2.dat (E7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The three calls as segments -/

set_option backward.isDefEq.respectTransparency.types false in
/-- Call 0 over the thread state: entered from every unscoped buffer at the boundary contents before it, left at the
    contents after it. Its arrays are split out of the unscoped buffers and put back at the exit contents; the generator
    register goes into the call's invariant and comes back; nothing is owed; the kernel has no semaphore of its own. -/
def reg0 : Pipeline.RegionSeg (pcfgs (F := F)) admT (pdats m) () defs₀ 𝒱₀ L lv 0 where
  win := launch0.win.to₀
  block_pos := launch0.block_pos
  stage_whole := launch0.stage_whole
  K := PEmpty
  osem k := k.elim
  ho := Pipeline.OwnSemFacts.none _
  hbody c := (Call0.body_obligation (E5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Call0.hin (E5 m) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Call0.hout (E5 m) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the boundary contents before it, left at the
    contents after it. Its arrays are split out of the unscoped buffers and put back at the exit contents; the generator
    register goes into the call's invariant and comes back; nothing is owed; the kernel has no semaphore of its own. -/
def reg1 : Pipeline.RegionSeg (pcfgs (F := F)) admT (pdats m) () defs₀ 𝒱₀ L lv 1 where
  win := launch1.win.to₀
  block_pos := launch1.block_pos
  stage_whole := launch1.stage_whole
  K := PEmpty
  osem k := k.elim
  ho := Pipeline.OwnSemFacts.none _
  hbody c := (Call1.body_obligation (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Call1.hin (E6 m) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Call1.hout (E6 m) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at the boundary contents before it, left at the
    contents after it. Its arrays are split out of the unscoped buffers and put back at the exit contents; the generator
    register goes into the call's invariant and comes back; nothing is owed; the kernel has no semaphore of its own. -/
def reg2 : Pipeline.RegionSeg (pcfgs (F := F)) admT (pdats m) () defs₀ 𝒱₀ L lv 2 where
  win := launch2.win.to₀
  block_pos := launch2.block_pos
  stage_whole := launch2.stage_whole
  K := PEmpty
  osem k := k.elim
  ho := Pipeline.OwnSemFacts.none _
  hbody c := (Call2.body_obligation (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) admT (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev allSegs : List (Pipeline.Seg (pcfgs (F := F)) admT (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .region (reg1 m),
    .region (reg2 m) ]

theorem main_run (c : Dev nD) : main (F := F) c = Pipeline.Seg.run (allSegs m) := (main_chain c).trans (by chain_rfl)

set_option backward.isDefEq.respectTransparency.types false in
/-- Every weakly fair execution of the program terminates, nothing faulting, and every final state has every unscoped
    buffer of every core at the last boundary's contents. -/
theorem run_all : θ_run defs (onTc (τ := τ) (main (F := F))) ⟨m, fun _ => 0, ρ⟩ (fun r => ∀ c : Dev nD, ∀ (b : Ref sig .tc),
      ¬ (Proc.devRef .tc b : DevRef τ sig).isScoped → r.2.mem ((c.tc : Thread nD τ).loc b) = W8 m c (Proc.devRef .tc b)) :=
  Pipeline.θ_run_regions_kit (pcfgs (F := F)) admT (pdats m) () cellOf_inj emb₁ defs₀ 𝒱₀ L lv m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb => h c _ (mem_uc b hb))

end Cert.Kernel.Whole

end
-- ==== Proof.Kernel.Args.lean ====
/-
  No host operation and no kernel call writes an argument array: the first call reads x through an input window, whose
  array the pipeline leaves as entered, and every other argument is read by host operations only. So each of the seven
  argument arrays is, at the last boundary of the program, what the launch memory held.
-/
import proofs.«117614_j79061757985000_1_alg».proof.Proof.Kernel.Whole

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W8_arg0 (c : Dev nD) : W8 m c (Proc.devRef .tc main_arg0) = m ((c : Thread nD τ).loc main_arg0) :=
  (W8_of_ne m c main_arg0 (by decide)).trans <| (W7_of_ne m c main_arg0 (by decide)).trans <| (W6_arr m c 0).trans <|
    ((Call0.dat (E5 m) c).arrAt_in 0 rfl _).trans <| (Call0.A_eq (E5 m) c 0).trans <|
    (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W8_arg1 (c : Dev nD) : W8 m c (Proc.devRef .tc main_arg1) = m ((c : Thread nD τ).loc main_arg1) :=
  (W8_of_ne m c main_arg1 (by decide)).trans <| (W7_of_ne m c main_arg1 (by decide)).trans <| (W6_of_ne m c main_arg1 (by decide)).trans <|
    (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W8_arg2 (c : Dev nD) : W8 m c (Proc.devRef .tc main_arg2) = m ((c : Thread nD τ).loc main_arg2) :=
  (W8_of_ne m c main_arg2 (by decide)).trans <| (W7_of_ne m c main_arg2 (by decide)).trans <| (W6_of_ne m c main_arg2 (by decide)).trans <|
    (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W8_arg3 (c : Dev nD) : W8 m c (Proc.devRef .tc main_arg3) = m ((c : Thread nD τ).loc main_arg3) :=
  (W8_of_ne m c main_arg3 (by decide)).trans <| (W7_of_ne m c main_arg3 (by decide)).trans <| (W6_of_ne m c main_arg3 (by decide)).trans <|
    (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W8_arg4 (c : Dev nD) : W8 m c (Proc.devRef .tc main_arg4) = m ((c : Thread nD τ).loc main_arg4) :=
  (W8_of_ne m c main_arg4 (by decide)).trans <| (W7_of_ne m c main_arg4 (by decide)).trans <| (W6_of_ne m c main_arg4 (by decide)).trans <|
    (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem W8_arg5 (c : Dev nD) : W8 m c (Proc.devRef .tc main_arg5) = m ((c : Thread nD τ).loc main_arg5) :=
  (W8_of_ne m c main_arg5 (by decide)).trans <| (W7_of_ne m c main_arg5 (by decide)).trans <| (W6_of_ne m c main_arg5 (by decide)).trans <|
    (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl
theorem W8_arg6 (c : Dev nD) : W8 m c (Proc.devRef .tc main_arg6) = m ((c : Thread nD τ).loc main_arg6) :=
  (W8_of_ne m c main_arg6 (by decide)).trans <| (W7_of_ne m c main_arg6 (by decide)).trans <| (W6_of_ne m c main_arg6 (by decide)).trans <|
    (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide)).trans rfl

/-- The run, with the argument arrays read back: every final state has each argument array as launched and every
    unscoped buffer at the last boundary's contents. -/
theorem run_args (ρ : Dev nD → PrngReg) : θ_run defs (onTc (τ := τ) (main (F := F))) ⟨m, fun _ => 0, ρ⟩ (fun r => ∀ c : Dev nD,
      r.2.mem ((c.tc : Thread nD τ).loc main_v16) = W8 m c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c main_v16 (by decide),
      (h c main_arg0 (by decide)).trans (W8_arg0 m c), (h c main_arg1 (by decide)).trans (W8_arg1 m c),
      (h c main_arg2 (by decide)).trans (W8_arg2 m c), (h c main_arg3 (by decide)).trans (W8_arg3 m c),
      (h c main_arg4 (by decide)).trans (W8_arg4 m c), (h c main_arg5 (by decide)).trans (W8_arg5 m c),
      (h c main_arg6 (by decide)).trans (W8_arg6 m c)⟩) (run_all m ρ)

end Cert.Kernel.Whole

end
-- ==== Proof.KernelIdeal.Call0Base.lean ====
/-
  The first matrix-product call (32 grid points of 2048 rows each): what its runs share.
  At point t the body multiplies rows [2048 t, 2048 (t+1)) of x by the sign matrix, stores the product block, and adds
  the block's column sums and the column sums of its squares to two running [1,300] accumulators kept in scratch
  memory. The accumulators are zeroed at the first point (t = 0) and, at the last point (t = 31), divided by 65536
  to give the column means and 1/sqrt(variance + eps), the only point at which the two [1,300] outputs are stored
  and written back. Hence three control cases: first, middle, last.
-/
import proofs.«117614_j79061757985000_1_alg».proof.Proof.Gen.KernelIdeal.Launch
import proofs.«117614_j79061757985000_1_alg».proof.Proof.Gen.KernelIdeal.Skeleton
import proofs.«117614_j79061757985000_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: a parameter
variable (V : (c : Dev nD) → (b : Ref sig .tc) → Buf (Elt F) ((c : Thread nD τ).loc b))

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The sign matrix (one block, fetched once) is in its staging buffer at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, over the grid -/

/-- "this is the first point": the accumulators are zeroed. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)
/-- "this is the last point": the mean and the inverse deviation are stored. -/
abbrev isLast (i : grid0.Coords) : Prop := k0_cond2 i = 1#1
theorem isLast_iff : ∀ t : Fin cfg0.N, isLast (grid0.coords t) ↔ t.val = 31 :=
  (by decide +kernel : ∀ t : Fin grid0.N, isLast (grid0.coords t) ↔ t.val = 31)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬isLast (grid0.coords t) → cfg0.idle 3 (grid0.coords t) = true := by decide +kernel
theorem idle_4 : ∀ t : Fin cfg0.N, ¬isLast (grid0.coords t) → cfg0.idle 4 (grid0.coords t) = true := by decide +kernel
theorem noFlush_3 : ∀ t : Fin cfg0.N, ¬isLast (grid0.coords t) → (cfg0.win 3).flush t = false := by decide +kernel
theorem noFlush_4 : ∀ t : Fin cfg0.N, ¬isLast (grid0.coords t) → (cfg0.win 4).flush t = false := by decide +kernel
theorem live_3 : ∀ t : Fin cfg0.N, isLast (grid0.coords t) → cfg0.idle 3 (grid0.coords t) = false := by decide +kernel
theorem live_4 : ∀ t : Fin cfg0.N, isLast (grid0.coords t) → cfg0.idle 4 (grid0.coords t) = false := by decide +kernel

/-! ## The memrefs the body is called with -/

abbrev ms_0 (t : Fin cfg0.N) : Memref sig .tc .vmem S2048x784 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S784x300 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x300 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x300 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x300 .f32 := win0_4.stage (cfg0.slots t 4)
abbrev hs_4 (t : Fin cfg0.N) : (ms_4 t).IsWhole := hstage0_4 ((cfg0.slots t 4).cast nbuf0_4)
/-- The two accumulators: the running column sums and the running column sums of squares. -/
abbrev accSum : Memref sig .tc .vmem S1x300 .f32 := Memref.whole cc0_scratch0
abbrev accSq : Memref sig .tc .vmem S1x300 .f32 := Memref.whole cc0_scratch1
/-- Views through which the contents of the product block, the two statistics and the two accumulators are stated. -/
abbrev VO_2 : View sig .tc .vmem S2048x300 .f32 := (Memref.whole cc0_stg2_0 : Memref sig .tc .vmem S2048x300 .f32).view
abbrev VO_3 : View sig .tc .vmem S1x300 .f32 := (Memref.whole cc0_stg3_0 : Memref sig .tc .vmem S1x300 .f32).view
abbrev VO_4 : View sig .tc .vmem S1x300 .f32 := (Memref.whole cc0_stg4_0 : Memref sig .tc .vmem S1x300 .f32).view
abbrev VS_0 : View sig .tc .vmem S1x300 .f32 := (accSum).view
abbrev VS_1 : View sig .tc .vmem S1x300 .f32 := (accSq).view

/-- The core's scoped buffers that this call does not stage: the two accumulators first, then the other calls'. -/
theorem scopedRest_split (c : Dev nD) : ∃ Rst : sProp 𝕄,
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f) ∗ Rst) :=
  ⟨_, scopedRest0_eq c⟩

/-- What is left of the scoped buffers beside the two accumulators (the other calls' staging and scratch buffers, each at
    some contents): never touched by this call. -/
def others (c : Dev nD) : sProp 𝕄 := Classical.choose (scopedRest_split (F := F) c)

/-- The invariant handed to the body at a point where nothing is known of the accumulators. -/
theorem PhiA_eq (c : Dev nD) :
    (Pipeline.ΦA spec0 c : sProp 𝕄)
      = iprop(iprop((∃ d, owns (c : Thread nD τ) accSum fullShare d) ∗ (∃ d, owns (c : Thread nD τ) accSq fullShare d) ∗ others c) ∗ (∃ r, prngReg c r)) := by
  unfold Pipeline.ΦA; rw [Classical.choose_spec (scopedRest_split (F := F) c)]; simp only [accSum, accSq, owns_whole]; try rfl

end Cert.KernelIdeal.Call0

end
-- ==== Proof.KernelIdeal.Call0RunFirst.lean ====
/-
  The body at the FIRST grid point of the first matrix-product call: both accumulators are zeroed, then the product block is stored and its column sums (and those of its squares) are added to the accumulators; the two statistics outputs are not touched.
-/
import proofs.«117614_j79061757985000_1_alg».proof.Proof.KernelIdeal.Call0Base

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runFirst (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i)
    (x0 : Vec F S2048x784 .f32) (x1 : Vec F S784x300 .bf16) :
    Σ' (L2 : List (View.Piece (Elt F) S2048x300 .f32)) (LS0 : List (View.Piece (Elt F) S1x300 .f32)), { LS1 : List (View.Piece (Elt F) S1x300 .f32) //
      ∀ (xi3 xi4 : Vec F S1x300 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7) K } := by
  refine ⟨?_, ?_, ?_, fun xi3 xi4 E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%f3, %hf3, H3⟩, ⟨%f4, %hf4, H4⟩, ⟨%d6, %f6, -, HS0⟩, ⟨%d7, %f7, -, HS1⟩, Hk⟩
    obtain rfl := harg1.eq_unread hf0; obtain rfl := harg2.eq_unread hf1; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Call0

end
-- ==== Proof.KernelIdeal.Call0RunMid.lean ====
/-
  The body at a MIDDLE grid point (neither first nor last) of the first matrix-product call: the product block is stored and its column sums (and those of its squares) are added to the accumulators as the point before left them; the two statistics outputs are not touched.
-/
import proofs.«117614_j79061757985000_1_alg».proof.Proof.KernelIdeal.Call0RunFirst

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runMid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i)
    (x0 : Vec F S2048x784 .f32) (x1 : Vec F S784x300 .bf16) (xs0 xs1 : Vec F S1x300 .f32) :
    Σ' (L2 : List (View.Piece (Elt F) S2048x300 .f32)) (LS0 : List (View.Piece (Elt F) S1x300 .f32)), { LS1 : List (View.Piece (Elt F) S1x300 .f32) //
      ∀ (xi3 xi4 : Vec F S1x300 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7) K } := by
  refine ⟨?_, ?_, ?_, fun xi3 xi4 E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%f3, %hf3, H3⟩, ⟨%f4, %hf4, H4⟩, ⟨%f6, %hf6, HS0⟩, ⟨%f7, %hf7, HS1⟩, Hk⟩
    obtain rfl := harg1.eq_unread hf0; obtain rfl := harg2.eq_unread hf1; obtain rfl := harg4.eq_unread hf3; obtain rfl := harg5.eq_unread hf4; obtain rfl := harg6.eq_unread hf6; obtain rfl := harg7.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Call0

end
-- ==== Proof.KernelIdeal.Call0RunLast.lean ====
/-
  The body at the LAST grid point of the first matrix-product call: the product block is stored, the accumulators are brought up to date, and from them the column means (sum / 65536) and 1/sqrt(sumsq / 65536 - mean^2 + eps) are stored into the two statistics outputs.
-/
import proofs.«117614_j79061757985000_1_alg».proof.Proof.KernelIdeal.Call0RunMid

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runLast (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i)
    (x0 : Vec F S2048x784 .f32) (x1 : Vec F S784x300 .bf16) (xs0 xs1 : Vec F S1x300 .f32) :
    Σ' (L2 : List (View.Piece (Elt F) S2048x300 .f32)) (L3 : List (View.Piece (Elt F) S1x300 .f32)) (L4 : List (View.Piece (Elt F) S1x300 .f32)) (LS0 : List (View.Piece (Elt F) S1x300 .f32)), { LS1 : List (View.Piece (Elt F) S1x300 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__k1_kernel i arg1 harg1 arg2 harg2 arg3 harg3 arg4 harg4 arg5 harg5 arg6 harg6 arg7 harg7) K } := by
  refine ⟨?_, ?_, ?_, ?_, ?_, fun E K => ?run⟩
  case run =>
    simp only [cc0__k1_kernel_eq_skeleton]; unfold cc0__k1_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%f6, %hf6, HS0⟩, ⟨%f7, %hf7, HS1⟩, Hk⟩
    obtain rfl := harg1.eq_unread hf0; obtain rfl := harg2.eq_unread hf1; obtain rfl := harg6.eq_unread hf6; obtain rfl := harg7.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Call0

end
-- ==== Proof.KernelIdeal.Call0Points.lean ====
/-
  The first matrix-product call, point by point. After point n the product output's staging buffer holds the block
  x[2048 n .. 2048 (n+1)) · signs, and the two accumulators hold the column sums (of the entries, of their squares)
  over the blocks 0..n: each point adds its block's column sums to what the point before left, the first point to zero.
  At the last point the two statistics buffers hold sum/65536 and 1/sqrt(sumsq/65536 - mean^2 + eps). Between points
  the accumulators are carried by the call's invariant; the other calls' scoped buffers ride along untouched.
-/
import proofs.«117614_j79061757985000_1_alg».proof.Proof.KernelIdeal.Call0RunLast

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves: the product block, the two statistics (meaningful at the last point only), the two accumulators. -/
structure Left (F : FTy → Type) where
  prod : Vec F S2048x300 .f32
  mean : Vec F S1x300 .f32
  istd : Vec F S1x300 .f32
  sum : Vec F S1x300 .f32
  sq : Vec F S1x300 .f32

/-- A buffer's pieces read back over arbitrary contents. -/
abbrev rd2 (L : List (View.Piece (Elt F) S2048x300 .f32)) : Vec F S2048x300 .f32 := VO_2.read (Elt F) (VO_2.writes (Elt F) VO_2.junk L)
abbrev rd3 (L : List (View.Piece (Elt F) S1x300 .f32)) : Vec F S1x300 .f32 := VO_3.read (Elt F) (VO_3.writes (Elt F) VO_3.junk L)
abbrev rd4 (L : List (View.Piece (Elt F) S1x300 .f32)) : Vec F S1x300 .f32 := VO_4.read (Elt F) (VO_4.writes (Elt F) VO_4.junk L)
abbrev rdS0 (L : List (View.Piece (Elt F) S1x300 .f32)) : Vec F S1x300 .f32 := VS_0.read (Elt F) (VS_0.writes (Elt F) VS_0.junk L)
abbrev rdS1 (L : List (View.Piece (Elt F) S1x300 .f32)) : Vec F S1x300 .f32 := VS_1.read (Elt F) (VS_1.writes (Elt F) VS_1.junk L)

/-- What the first point leaves, from its blocks. -/
def leftFirst (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i)
    (x0 : Vec F S2048x784 .f32) (x1 : Vec F S784x300 .bf16) : Left F :=
  let r := runFirst c i arg1 harg1 arg2 harg2 arg3 harg3 arg4 harg4 arg5 harg5 arg6 harg6 arg7 harg7 hc0 hc1 x0 x1
  ⟨rd2 r.1, rd3 [], rd4 [], rdS0 r.2.1, rdS1 r.2.2.1⟩
/-- What a middle point leaves, from its blocks and the accumulators before it. -/
def leftMid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i)
    (x0 : Vec F S2048x784 .f32) (x1 : Vec F S784x300 .bf16) (xs0 xs1 : Vec F S1x300 .f32) : Left F :=
  let r := runMid c i arg1 harg1 arg2 harg2 arg3 harg3 arg4 harg4 arg5 harg5 arg6 harg6 arg7 harg7 hc0 hc1 x0 x1 xs0 xs1
  ⟨rd2 r.1, rd3 [], rd4 [], rdS0 r.2.1, rdS1 r.2.2.1⟩
/-- What the last point leaves. -/
def leftLast (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i)
    (x0 : Vec F S2048x784 .f32) (x1 : Vec F S784x300 .bf16) (xs0 xs1 : Vec F S1x300 .f32) : Left F :=
  let r := runLast c i arg1 harg1 arg2 harg2 arg3 harg3 arg4 harg4 arg5 harg5 arg6 harg6 arg7 harg7 hc0 hc1 x0 x1 xs0 xs1
  ⟨rd2 r.1, rd3 r.2.1, rd4 r.2.2.1, rdS0 r.2.2.2.1, rdS1 r.2.2.2.2.1⟩

/-! ## Each written buffer is covered by its pieces -/

theorem cov2_first (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i) (x0 : Vec F S2048x784 .f32) (x1 : Vec F S784x300 .bf16) (y : S2048x300.Idx) :
    ∃ pc ∈ (runFirst c i arg1 harg1 arg2 harg2 arg3 harg3 arg4 harg4 arg5 harg5 arg6 harg6 arg7 harg7 hc0 hc1 x0 x1).1, y ∈ pc.1.set :=
  View.cover_of_tiledL _ S2048x300.size (by sl_kernel_rfl) y
theorem covS0_first (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i) (x0 : Vec F S2048x784 .f32) (x1 : Vec F S784x300 .bf16) (y : S1x300.Idx) :
    ∃ pc ∈ (runFirst c i arg1 harg1 arg2 harg2 arg3 harg3 arg4 harg4 arg5 harg5 arg6 harg6 arg7 harg7 hc0 hc1 x0 x1).2.1, y ∈ pc.1.set :=
  View.cover_of_tiledL _ S1x300.size (by sl_kernel_rfl) y
theorem covS1_first (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i) (x0 : Vec F S2048x784 .f32) (x1 : Vec F S784x300 .bf16) (y : S1x300.Idx) :
    ∃ pc ∈ (runFirst c i arg1 harg1 arg2 harg2 arg3 harg3 arg4 harg4 arg5 harg5 arg6 harg6 arg7 harg7 hc0 hc1 x0 x1).2.2.1, y ∈ pc.1.set :=
  View.cover_of_tiledL _ S1x300.size (by sl_kernel_rfl) y
theorem cov2_mid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i) (x0 : Vec F S2048x784 .f32) (x1 : Vec F S784x300 .bf16) (xs0 xs1 : Vec F S1x300 .f32) (y : S2048x300.Idx) :
    ∃ pc ∈ (runMid c i arg1 harg1 arg2 harg2 arg3 harg3 arg4 harg4 arg5 harg5 arg6 harg6 arg7 harg7 hc0 hc1 x0 x1 xs0 xs1).1, y ∈ pc.1.set :=
  View.cover_of_tiledL _ S2048x300.size (by sl_kernel_rfl) y
theorem covS0_mid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i) (x0 : Vec F S2048x784 .f32) (x1 : Vec F S784x300 .bf16) (xs0 xs1 : Vec F S1x300 .f32) (y : S1x300.Idx) :
    ∃ pc ∈ (runMid c i arg1 harg1 arg2 harg2 arg3 harg3 arg4 harg4 arg5 harg5 arg6 harg6 arg7 harg7 hc0 hc1 x0 x1 xs0 xs1).2.1, y ∈ pc.1.set :=
  View.cover_of_tiledL _ S1x300.size (by sl_kernel_rfl) y
theorem covS1_mid (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i) (x0 : Vec F S2048x784 .f32) (x1 : Vec F S784x300 .bf16) (xs0 xs1 : Vec F S1x300 .f32) (y : S1x300.Idx) :
    ∃ pc ∈ (runMid c i arg1 harg1 arg2 harg2 arg3 harg3 arg4 harg4 arg5 harg5 arg6 harg6 arg7 harg7 hc0 hc1 x0 x1 xs0 xs1).2.2.1, y ∈ pc.1.set :=
  View.cover_of_tiledL _ S1x300.size (by sl_kernel_rfl) y
theorem cov2_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S2048x300.Idx) :
    ∃ pc ∈ (runLast c i arg1 harg1 arg2 harg2 arg3 harg3 arg4 harg4 arg5 harg5 arg6 harg6 arg7 harg7 hc0 hc1 x0 x1 xs0 xs1).1, y ∈ pc.1.set :=
  View.cover_of_tiledL _ S2048x300.size (by sl_kernel_rfl) y
theorem cov3_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S1x300.Idx) :
    ∃ pc ∈ (runLast c i arg1 harg1 arg2 harg2 arg3 harg3 arg4 harg4 arg5 harg5 arg6 harg6 arg7 harg7 hc0 hc1 x0 x1 xs0 xs1).2.1, y ∈ pc.1.set :=
  View.cover_of_tiledL _ S1x300.size (by sl_kernel_rfl) y
theorem cov4_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S1x300.Idx) :
    ∃ pc ∈ (runLast c i arg1 harg1 arg2 harg2 arg3 harg3 arg4 harg4 arg5 harg5 arg6 harg6 arg7 harg7 hc0 hc1 x0 x1 xs0 xs1).2.2.1, y ∈ pc.1.set :=
  View.cover_of_tiledL _ S1x300.size (by sl_kernel_rfl) y
theorem covS0_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S1x300.Idx) :
    ∃ pc ∈ (runLast c i arg1 harg1 arg2 harg2 arg3 harg3 arg4 harg4 arg5 harg5 arg6 harg6 arg7 harg7 hc0 hc1 x0 x1 xs0 xs1).2.2.2.1, y ∈ pc.1.set :=
  View.cover_of_tiledL _ S1x300.size (by sl_kernel_rfl) y
theorem covS1_last (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i) (x0 : Vec F S2048x784 .f32) (x1 : Vec F S784x300 .bf16) (xs0 xs1 : Vec F S1x300 .f32) (y : S1x300.Idx) :
    ∃ pc ∈ (runLast c i arg1 harg1 arg2 harg2 arg3 harg3 arg4 harg4 arg5 harg5 arg6 harg6 arg7 harg7 hc0 hc1 x0 x1 xs0 xs1).2.2.2.2.1, y ∈ pc.1.set :=
  View.cover_of_tiledL _ S1x300.size (by sl_kernel_rfl) y

/-! ## The accumulation over the points -/

/-- What the buffers hold after the body at position n: the case of n, run at the point's memrefs and blocks, over the
    accumulators the point before left. -/
def leftAt (c : Dev nD) : (n : ℕ) → n < cfg0.N → Left F
  | 0, hn => leftFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) accSum (Memref.isWhole_whole _) accSq (Memref.isWhole_whole _) ((isFirst_iff ⟨0, hn⟩).mpr rfl) (fun h => absurd ((isLast_iff ⟨0, hn⟩).mp h) (show ¬(0 : ℕ) = 31 by decide)) (iblk V c 0 ⟨0, hn⟩) (iblk V c 1 ⟨0, hn⟩)
  | n + 1, hn =>
    if h1 : n + 1 = 31 then
      leftLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accSum (Memref.isWhole_whole _) accSq (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (leftAt c n (Nat.lt_of_succ_lt hn)).sum (leftAt c n (Nat.lt_of_succ_lt hn)).sq
    else
      leftMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accSum (Memref.isWhole_whole _) accSq (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (leftAt c n (Nat.lt_of_succ_lt hn)).sum (leftAt c n (Nat.lt_of_succ_lt hn)).sq

theorem leftAt_first (c : Dev nD) (t : Fin cfg0.N) (h0 : t.val = 0) (h1 : ¬t.val = 31) :
    leftAt V c t.val t.isLt = leftFirst c (grid0.coords t) (ms_0 t) (hs_0 t) (ms_1 t) (hs_1 t) (ms_2 t) (hs_2 t) (ms_3 t) (hs_3 t) (ms_4 t) (hs_4 t) accSum (Memref.isWhole_whole _) accSq (Memref.isWhole_whole _) ((isFirst_iff t).mpr h0) (fun h => h1 ((isLast_iff t).mp h)) (iblk V c 0 t) (iblk V c 1 t) := by
  obtain ⟨n, hn⟩ := t
  cases n with
  | zero => rfl
  | succ n => exact absurd h0 (Nat.succ_ne_zero n)

theorem leftAt_mid (c : Dev nD) (t : Fin cfg0.N) (h0 : ¬t.val = 0) (h1 : ¬t.val = 31) :
    leftAt V c t.val t.isLt = leftMid c (grid0.coords t) (ms_0 t) (hs_0 t) (ms_1 t) (hs_1 t) (ms_2 t) (hs_2 t) (ms_3 t) (hs_3 t) (ms_4 t) (hs_4 t) accSum (Memref.isWhole_whole _) accSq (Memref.isWhole_whole _) (fun h => h0 ((isFirst_iff t).mp h)) (fun h => h1 ((isLast_iff t).mp h)) (iblk V c 0 t) (iblk V c 1 t)
      (leftAt V c (t.val - 1) (Nat.lt_of_le_of_lt (Nat.sub_le _ _) t.isLt)).sum (leftAt V c (t.val - 1) (Nat.lt_of_le_of_lt (Nat.sub_le _ _) t.isLt)).sq := by
  obtain ⟨n, hn⟩ := t
  cases n with
  | zero => exact absurd rfl h0
  | succ n => exact (dif_neg h1).trans rfl

theorem leftAt_last (c : Dev nD) (t : Fin cfg0.N) (h0 : ¬t.val = 0) (h1 : t.val = 31) :
    leftAt V c t.val t.isLt = leftLast c (grid0.coords t) (ms_0 t) (hs_0 t) (ms_1 t) (hs_1 t) (ms_2 t) (hs_2 t) (ms_3 t) (hs_3 t) (ms_4 t) (hs_4 t) accSum (Memref.isWhole_whole _) accSq (Memref.isWhole_whole _) (fun h => h0 ((isFirst_iff t).mp h)) ((isLast_iff t).mpr h1) (iblk V c 0 t) (iblk V c 1 t)
      (leftAt V c (t.val - 1) (Nat.lt_of_le_of_lt (Nat.sub_le _ _) t.isLt)).sum (leftAt V c (t.val - 1) (Nat.lt_of_le_of_lt (Nat.sub_le _ _) t.isLt)).sq := by
  obtain ⟨n, hn⟩ := t
  cases n with
  | zero => exact absurd rfl h0
  | succ n => exact (dif_pos h1).trans rfl

/-! ## The invariant between points: the accumulators at what the point before left -/

def PhiS (c : Dev nD) : (n : ℕ) → n ≤ cfg0.N → sProp 𝕄
  | 0, _ => Pipeline.ΦA spec0 c
  | n + 1, hn => iprop(iprop(owns (c : Thread nD τ) accSum fullShare (leftAt V c n hn).sum ∗ owns (c : Thread nD τ) accSq fullShare (leftAt V c n hn).sq ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accSum fullShare (leftAt V c n hn).sum ∗ owns (c : Thread nD τ) accSq fullShare (leftAt V c n hn).sq ∗ others c) ∗ (∃ r, prngReg c r)) := rfl
theorem PhiS_pos (c : Dev nD) (n : ℕ) (h : n ≤ cfg0.N) (hz : n ≠ 0) :
    PhiS V c n h = iprop(iprop(owns (c : Thread nD τ) accSum fullShare (leftAt V c (n - 1) (by omega)).sum ∗ owns (c : Thread nD τ) accSq fullShare (leftAt V c (n - 1) (by omega)).sq ∗ others c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (leftAt V c t.val t.isLt).prod
    | ⟨3, _⟩ => (leftAt V c t.val t.isLt).mean
    | ⟨4, _⟩ => (leftAt V c t.val t.isLt).istd
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (leftAt V c t.val t.isLt).prod := by dsimp only [dat]
theorem after_3 (c : Dev nD) (t : Fin cfg0.N) : (dat V c).after 3 t = (leftAt V c t.val t.isLt).mean := by dsimp only [dat]
theorem after_4 (c : Dev nD) (t : Fin cfg0.N) : (dat V c).after 4 t = (leftAt V c t.val t.isLt).istd := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

end Cert.KernelIdeal.Call0

end
-- ==== Proof.KernelIdeal.Call0Body.lean ====
/-
  The first matrix-product call: the body meets its obligation at every grid point. The invariant hands the body the two
  accumulators (at anything before the first point, at what the point before left afterwards) and takes them back at
  this point's contents; the row block and the sign matrix are where the pipeline staged them; the product buffer is
  written whole at every point; the two statistics buffers are written at the last point only and handed back untouched
  elsewhere.
-/
import proofs.«117614_j79061757985000_1_alg».proof.Proof.KernelIdeal.Call0Points

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_0 (c : Dev nD) (t : Fin cfg0.N) : (dat V c).leavesExact 0 t = owns (c : Thread nD τ) (ms_0 t) fullShare (iblk V c 0 t) := by
  unfold Dat.leavesExact; rw [live_0 t, after_0]
theorem leaves_1 (c : Dev nD) (t : Fin cfg0.N) : (dat V c).leavesExact 1 t = owns (c : Thread nD τ) (ms_1 t) fullShare (iblk V c 1 t) := by
  unfold Dat.leavesExact; rw [live_1 t, after_1]
theorem leaves_2 (c : Dev nD) (t : Fin cfg0.N) : (dat V c).leavesExact 2 t = owns (c : Thread nD τ) (ms_2 t) fullShare (leftAt V c t.val t.isLt).prod := by
  unfold Dat.leavesExact; rw [live_2 t, after_2]
theorem leaves_3 (c : Dev nD) (t : Fin cfg0.N) (h : isLast (grid0.coords t)) : (dat V c).leavesExact 3 t = owns (c : Thread nD τ) (ms_3 t) fullShare (leftAt V c t.val t.isLt).mean := by
  unfold Dat.leavesExact; rw [live_3 t h, after_3]
theorem leaves_4 (c : Dev nD) (t : Fin cfg0.N) (h : isLast (grid0.coords t)) : (dat V c).leavesExact 4 t = owns (c : Thread nD τ) (ms_4 t) fullShare (leftAt V c t.val t.isLt).istd := by
  unfold Dat.leavesExact; rw [live_4 t h, after_4]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 32 := lt_of_lt_of_eq t.isLt (show cfg0.N = 32 from N_0)
  by_cases h0 : t.val = 0
  · have h1 : ¬t.val = 31 := by omega
    rw [Dat.leavesExact_idle (dat V c) 3 t (idle_3 t (fun h => h1 ((isLast_iff t).mp h))) (noFlush_3 t (fun h => h1 ((isLast_iff t).mp h)))]
    rw [Dat.leavesExact_idle (dat V c) 4 t (idle_4 t (fun h => h1 ((isLast_iff t).mp h))) (noFlush_4 t (fun h => h1 ((isLast_iff t).mp h)))]
    rw [leftAt_first V c t h0 h1]
    unfold leftFirst; dsimp only
    rw [PhiS_castSucc V c t, PhiS_zero V c _ _ h0, PhiA_eq]
    iintro ⟨⟨⟨HS0, HS1, Hoth⟩, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ _ _ ((isFirst_iff t).mpr h0) (fun h => h1 ((isLast_iff t).mp h)) (iblk V c 0 t) (iblk V c 1 t)).2.2.2 _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, ⟨%e2, H2⟩, H3, H4, ⟨%es0, HS0⟩, ⟨%es1, HS1⟩⟩
    isplitl [HS0 HS1 Hoth Hg]
    · isplitr [Hg]
      · isplitl [HS0]
        · unfold owns; iexists _; isplitr
          swap; · iexact HS0
          ipureintro; exact View.read_writes_of_cover _ _ _ _ _ (covS0_first c _ _ _ _ _ _ _ _ _ _ _ _ _ _ _ _ _ _ _)
        isplitl [HS1]
        · unfold owns; iexists _; isplitr
          swap; · iexact HS1
          ipureintro; exact View.read_writes_of_cover _ _ _ _ _ (covS1_first c _ _ _ _ _ _ _ _ _ _ _ _ _ _ _ _ _ _ _)
        iexact Hoth
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cov2_first c _ _ _ _ _ _ _ _ _ _ _ _ _ _ _ _ _ _ _)
    isplitl [H3]; · iexists _; iexact H3
    iexists _; iexact H4
  · by_cases h1 : t.val = 31
    · rw [leaves_3 V c t ((isLast_iff t).mpr h1), leaves_4 V c t ((isLast_iff t).mpr h1)]
      rw [leftAt_last V c t h0 h1]
      unfold leftLast; dsimp only
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ _ _ (fun h => h0 ((isFirst_iff t).mp h)) ((isLast_iff t).mpr h1) (iblk V c 0 t) (iblk V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (covS0_last c _ _ _ _ _ _ _ _ _ _ _ _ _ _ _ _ _ _ _ _ _)
          isplitl [HS1]
          · unfold owns; iexists _; isplitr
            swap; · iexact HS1
            ipureintro; exact View.read_writes_of_cover _ _ _ _ _ (covS1_last c _ _ _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cov2_last c _ _ _ _ _ _ _ _ _ _ _ _ _ _ _ _ _ _ _ _ _)
      isplitl [H3]
      · unfold owns; iexists _; isplitr
        swap; · iexact H3
        ipureintro; exact View.read_writes_of_cover _ _ _ _ _ (cov3_last c _ _ _ _ _ _ _ _ _ _ _ _ _ _ _ _ _ _ _ _ _)
      unfold owns; iexists _; isplitr
      swap; · iexact H4
      ipureintro; exact View.read_writes_of_cover _ _ _ _ _ (cov4_last c _ _ _ _ _ _ _ _ _ _ _ _ _ _ _ _ _ _ _ _ _)
    · rw [Dat.leavesExact_idle (dat V c) 3 t (idle_3 t (fun h => h1 ((isLast_iff t).mp h))) (noFlush_3 t (fun h => h1 ((isLast_iff t).mp h)))]
      rw [Dat.leavesExact_idle (dat V c) 4 t (idle_4 t (fun h => h1 ((isLast_iff t).mp h))) (noFlush_4 t (fun h => h1 ((isLast_iff t).mp h)))]
      rw [leftAt_mid V c t h0 h1]
      unfold leftMid; dsimp only
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ _ _ (fun h => h0 ((isFirst_iff t).mp h)) (fun h => h1 ((isLast_iff t).mp h)) (iblk V c 0 t) (iblk V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (covS0_mid c _ _ _ _ _ _ _ _ _ _ _ _ _ _ _ _ _ _ _ _ _)
          isplitl [HS1]
          · unfold owns; iexists _; isplitr
            swap; · iexact HS1
            ipureintro; exact View.read_writes_of_cover _ _ _ _ _ (covS1_mid c _ _ _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cov2_mid c _ _ _ _ _ _ _ _ _ _ _ _ _ _ _ _ _ _ _ _ _)
      isplitl [H3]; · iexists _; iexact H3
      iexists _; iexact H4

theorem body_obligation (c : Dev nD) : BodyObligation (dat (F := F) V c) (defs₀ (F := F)) Variants.none () Set.univ := fun t => by
  rw [bigSep_W0, bigSep_W0]
  exact sound_body V c t

/-- What the call is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant forgets what the accumulators hold. -/
theorem hout (c : Dev nD) : (dat V c).Φ (Fin.last cfg0.N) ⊢ Pipeline.ΦA spec0 c := by
  have ht : (Fin.last cfg0.N).val ≠ 0 := by rw [Fin.val_last]; have : cfg0.N = 32 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, HS1, Hoth⟩, Hg⟩
  isplitr [Hg]
  · isplitl [HS0]; · iexists _; iexact HS0
    isplitl [HS1]; · iexists _; iexact HS1
    iexact Hoth
  iexact Hg

end Cert.KernelIdeal.Call0

end
-- ==== Proof.KernelIdeal.Call1Base.lean ====
/-
  The second matrix-product call (8 grid points of 8192 rows each): what its runs share.
  At point t the body normalises rows [8192 t, 8192 (t+1)) of the first product with the first call's column means and
  inverse deviations, scales and shifts them, multiplies by the second sign matrix, stores the product block, and adds
  the block's column sums and the column sums of its squares to two running [1,10] accumulators kept in scratch memory:
  zeroed at the first point (t = 0) and, at the last (t = 7), turned into the second column means and inverse
  deviations, the only point at which the two [1,10] outputs are stored and written back. Three control cases.
-/
import proofs.«117614_j79061757985000_1_alg».proof.Proof.Gen.KernelIdeal.Launch
import proofs.«117614_j79061757985000_1_alg».proof.Proof.Gen.KernelIdeal.Skeleton
import proofs.«117614_j79061757985000_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 is in its staging buffer at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 is in its staging buffer at every point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is in its staging buffer at every point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 is in its staging buffer at every point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 is in its staging buffer at every point, fetched there or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 is in its staging buffer at every point, fetched there or not. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, over the grid -/

abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)
abbrev isLast (i : grid1.Coords) : Prop := k1_cond2 i = 1#1
theorem isLast_iff : ∀ t : Fin cfg1.N, isLast (grid1.coords t) ↔ t.val = 7 :=
  (by decide +kernel : ∀ t : Fin grid1.N, isLast (grid1.coords t) ↔ t.val = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
theorem live_5 : ∀ t : Fin cfg1.N, cfg1.idle 5 (grid1.coords t) = false := by decide +kernel
theorem live_6 : ∀ t : Fin cfg1.N, cfg1.idle 6 (grid1.coords t) = false := by decide +kernel
theorem idle_7 : ∀ t : Fin cfg1.N, ¬isLast (grid1.coords t) → cfg1.idle 7 (grid1.coords t) = true := by decide +kernel
theorem noFlush_7 : ∀ t : Fin cfg1.N, ¬isLast (grid1.coords t) → (cfg1.win 7).flush t = false := by decide +kernel
theorem live_7 : ∀ t : Fin cfg1.N, isLast (grid1.coords t) → cfg1.idle 7 (grid1.coords t) = false := by decide +kernel
theorem idle_8 : ∀ t : Fin cfg1.N, ¬isLast (grid1.coords t) → cfg1.idle 8 (grid1.coords t) = true := by decide +kernel
theorem noFlush_8 : ∀ t : Fin cfg1.N, ¬isLast (grid1.coords t) → (cfg1.win 8).flush t = false := by decide +kernel
theorem live_8 : ∀ t : Fin cfg1.N, isLast (grid1.coords t) → cfg1.idle 8 (grid1.coords t) = false := by decide +kernel

/-! ## The memrefs the body is called with -/

abbrev ms_0 (t : Fin cfg1.N) : Memref sig .tc .vmem S8192x300 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x300 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x300 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x300 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x300 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S300x10 .bf16 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S8192x10 .f32 := win1_6.stage (cfg1.slots t 6)
abbrev hs_6 (t : Fin cfg1.N) : (ms_6 t).IsWhole := hstage1_6 ((cfg1.slots t 6).cast nbuf1_6)
abbrev ms_7 (t : Fin cfg1.N) : Memref sig .tc .vmem S1x10 .f32 := win1_7.stage (cfg1.slots t 7)
abbrev hs_7 (t : Fin cfg1.N) : (ms_7 t).IsWhole := hstage1_7 ((cfg1.slots t 7).cast nbuf1_7)
abbrev ms_8 (t : Fin cfg1.N) : Memref sig .tc .vmem S1x10 .f32 := win1_8.stage (cfg1.slots t 8)
abbrev hs_8 (t : Fin cfg1.N) : (ms_8 t).IsWhole := hstage1_8 ((cfg1.slots t 8).cast nbuf1_8)
/-- The two accumulators: the running column sums and the running column sums of squares. -/
abbrev accSum : Memref sig .tc .vmem S1x10 .f32 := Memref.whole cc1_scratch0
abbrev accSq : Memref sig .tc .vmem S1x10 .f32 := Memref.whole cc1_scratch1
abbrev VO_6 : View sig .tc .vmem S8192x10 .f32 := (Memref.whole cc1_stg6_0 : Memref sig .tc .vmem S8192x10 .f32).view
abbrev VO_7 : View sig .tc .vmem S1x10 .f32 := (Memref.whole cc1_stg7_0 : Memref sig .tc .vmem S1x10 .f32).view
abbrev VO_8 : View sig .tc .vmem S1x10 .f32 := (Memref.whole cc1_stg8_0 : Memref sig .tc .vmem S1x10 .f32).view
abbrev VS_0 : View sig .tc .vmem S1x10 .f32 := (accSum).view
abbrev VS_1 : View sig .tc .vmem S1x10 .f32 := (accSq).view

/-- The core's scoped buffers that this call does not stage: the two accumulators first, then the other calls'. -/
theorem scopedRest_split (c : Dev nD) : ∃ Rst : sProp 𝕄,
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f) ∗ Rst) :=
  ⟨_, Pipeline.scopedRest_eq_of_list spec1 c [cc1_scratch0, cc1_scratch1, cc0_stg0_0, cc0_stg0_1, cc0_stg1_0, cc0_stg2_0, cc0_stg2_1, cc0_stg3_0, cc0_stg4_0, cc0_scratch0, cc0_scratch1, cc2_stg0_0, cc2_stg0_1, cc2_stg1_0, cc2_stg2_0, cc2_stg3_0, cc2_stg4_0, cc2_stg5_0, cc2_stg5_1] (by decide) (by decide)⟩

def others (c : Dev nD) : sProp 𝕄 := Classical.choose (scopedRest_split (F := F) c)

theorem PhiA_eq (c : Dev nD) :
    (Pipeline.ΦA spec1 c : sProp 𝕄)
      = iprop(iprop((∃ d, owns (c : Thread nD τ) accSum fullShare d) ∗ (∃ d, owns (c : Thread nD τ) accSq fullShare d) ∗ others c) ∗ (∃ r, prngReg c r)) := by
  unfold Pipeline.ΦA; rw [Classical.choose_spec (scopedRest_split (F := F) c)]; simp only [accSum, accSq, owns_whole]; try rfl

end Cert.KernelIdeal.Call1

end
-- ==== Proof.KernelIdeal.Call1RunFirst.lean ====
/-
  The body at the FIRST grid point of the second matrix-product call: both accumulators are zeroed, then the product block is stored and its column sums (and those of its squares) are added to the accumulators; the two statistics outputs are not touched.
-/
import proofs.«117614_j79061757985000_1_alg».proof.Proof.KernelIdeal.Call1Base

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runFirst (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i)
    (x0 : Vec F S8192x300 .f32) (x1 x2 x3 x4 : Vec F S1x300 .f32) (x5 : Vec F S300x10 .bf16) :
    Σ' (L6 : List (View.Piece (Elt F) S8192x10 .f32)) (LS0 : List (View.Piece (Elt F) S1x10 .f32)), { LS1 : List (View.Piece (Elt F) S1x10 .f32) //
      ∀ (xi7 xi8 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, HS0⟩, ⟨%d10, %f10, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Call1

end
-- ==== Proof.KernelIdeal.Call1RunMid.lean ====
/-
  The body at a MIDDLE grid point (neither first nor last) of the second matrix-product call: the product block is stored and its column sums (and those of its squares) are added to the accumulators as the point before left them; the two statistics outputs are not touched.
-/
import proofs.«117614_j79061757985000_1_alg».proof.Proof.KernelIdeal.Call1RunFirst

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runMid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i)
    (x0 : Vec F S8192x300 .f32) (x1 x2 x3 x4 : Vec F S1x300 .f32) (x5 : Vec F S300x10 .bf16) (xs0 xs1 : Vec F S1x10 .f32) :
    Σ' (L6 : List (View.Piece (Elt F) S8192x10 .f32)) (LS0 : List (View.Piece (Elt F) S1x10 .f32)), { LS1 : List (View.Piece (Elt F) S1x10 .f32) //
      ∀ (xi7 xi8 : Vec F S1x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, HS0⟩, ⟨%f10, %hf10, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Call1

end
-- ==== Proof.KernelIdeal.Call1RunLast.lean ====
/-
  The body at the LAST grid point of the second matrix-product call: the product block is stored, the accumulators are brought up to date, and from them the column means (sum / 65536) and 1/sqrt(sumsq / 65536 - mean^2 + eps) are stored into the two statistics outputs.
-/
import proofs.«117614_j79061757985000_1_alg».proof.Proof.KernelIdeal.Call1RunMid

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each buffer it writes (last first), with the proof that from whole staging
    memrefs at the stated contents the body runs to its return holding the inputs as they were and each written buffer
    with its pieces written. -/
noncomputable def runLast (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i)
    (x0 : Vec F S8192x300 .f32) (x1 x2 x3 x4 : Vec F S1x300 .f32) (x5 : Vec F S300x10 .bf16) (xs0 xs1 : Vec F S1x10 .f32) :
    Σ' (L6 : List (View.Piece (Elt F) S8192x10 .f32)) (L7 : List (View.Piece (Elt F) S1x10 .f32)) (L8 : List (View.Piece (Elt F) S1x10 .f32)) (LS0 : List (View.Piece (Elt F) S1x10 .f32)), { LS1 : List (View.Piece (Elt F) S1x10 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__k2_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__k2_kernel_eq_skeleton]; unfold cc1__k2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, HS0⟩, ⟨%f10, %hf10, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Call1

end
-- ==== Proof.KernelIdeal.Call1Points.lean ====
/-
  The second matrix-product call, point by point. After point n the product output's staging buffer holds the block of
  normalised rows [8192 n, 8192 (n+1)) times the second sign matrix, and the two accumulators hold the column sums (of
  the entries, of their squares) over the blocks 0..n: each point adds its block's column sums to what the point before
  left, the first point to zero. At the last point the two statistics buffers hold sum/65536 and
  1/sqrt(sumsq/65536 - mean^2 + eps). Between points the accumulators are carried by the call's invariant.
-/
import proofs.«117614_j79061757985000_1_alg».proof.Proof.KernelIdeal.Call1RunLast

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a point leaves: the product block, the two statistics (meaningful at the last point only), the two accumulators. -/
structure Left (F : FTy → Type) where
  prod : Vec F S8192x10 .f32
  mean : Vec F S1x10 .f32
  istd : Vec F S1x10 .f32
  sum : Vec F S1x10 .f32
  sq : Vec F S1x10 .f32

abbrev rd6 (L : List (View.Piece (Elt F) S8192x10 .f32)) : Vec F S8192x10 .f32 := VO_6.read (Elt F) (VO_6.writes (Elt F) VO_6.junk L)
abbrev rd7 (L : List (View.Piece (Elt F) S1x10 .f32)) : Vec F S1x10 .f32 := VO_7.read (Elt F) (VO_7.writes (Elt F) VO_7.junk L)
abbrev rd8 (L : List (View.Piece (Elt F) S1x10 .f32)) : Vec F S1x10 .f32 := VO_8.read (Elt F) (VO_8.writes (Elt F) VO_8.junk L)
abbrev rdS0 (L : List (View.Piece (Elt F) S1x10 .f32)) : Vec F S1x10 .f32 := VS_0.read (Elt F) (VS_0.writes (Elt F) VS_0.junk L)
abbrev rdS1 (L : List (View.Piece (Elt F) S1x10 .f32)) : Vec F S1x10 .f32 := VS_1.read (Elt F) (VS_1.writes (Elt F) VS_1.junk L)

def leftFirst (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i)
    (x0 : Vec F S8192x300 .f32) (x1 x2 x3 x4 : Vec F S1x300 .f32) (x5 : Vec F S300x10 .bf16) : Left F :=
  let r := runFirst c i arg1 harg1 arg2 harg2 arg3 harg3 arg4 harg4 arg5 harg5 arg6 harg6 arg7 harg7 arg8 harg8 arg9 harg9 arg10 harg10 arg11 harg11 hc0 hc1 x0 x1 x2 x3 x4 x5
  ⟨rd6 r.1, rd7 [], rd8 [], rdS0 r.2.1, rdS1 r.2.2.1⟩
def leftMid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i)
    (x0 : Vec F S8192x300 .f32) (x1 x2 x3 x4 : Vec F S1x300 .f32) (x5 : Vec F S300x10 .bf16) (xs0 xs1 : Vec F S1x10 .f32) : Left F :=
  let r := runMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1
  ⟨rd6 r.1, rd7 [], rd8 [], rdS0 r.2.1, rdS1 r.2.2.1⟩
def leftLast (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i)
    (x0 : Vec F S8192x300 .f32) (x1 x2 x3 x4 : Vec F S1x300 .f32) (x5 : Vec F S300x10 .bf16) (xs0 xs1 : Vec F S1x10 .f32) : Left F :=
  let r := runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1
  ⟨rd6 r.1, rd7 r.2.1, rd8 r.2.2.1, rdS0 r.2.2.2.1, rdS1 r.2.2.2.2.1⟩

/-! ## Each written buffer is covered by its pieces -/

theorem cov6_first (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i) (x0 : Vec F S8192x300 .f32) (x1 x2 x3 x4 : Vec F S1x300 .f32) (x5 : Vec F S300x10 .bf16) (y : S8192x10.Idx) :
    ∃ pc ∈ (runFirst c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL _ S8192x10.size (by sl_kernel_rfl) y
theorem covS0_first (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i) (x0 : Vec F S8192x300 .f32) (x1 x2 x3 x4 : Vec F S1x300 .f32) (x5 : Vec F S300x10 .bf16) (y : S1x10.Idx) :
    ∃ pc ∈ (runFirst c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL _ S1x10.size (by sl_kernel_rfl) y
theorem covS1_first (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i) (x0 : Vec F S8192x300 .f32) (x1 x2 x3 x4 : Vec F S1x300 .f32) (x5 : Vec F S300x10 .bf16) (y : S1x10.Idx) :
    ∃ pc ∈ (runFirst c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL _ S1x10.size (by sl_kernel_rfl) y
theorem cov6_mid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i) (x0 : Vec F S8192x300 .f32) (x1 x2 x3 x4 : Vec F S1x300 .f32) (x5 : Vec F S300x10 .bf16) (xs0 xs1 : Vec F S1x10 .f32) (y : S8192x10.Idx) :
    ∃ pc ∈ (runMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL _ S8192x10.size (by sl_kernel_rfl) y
theorem covS0_mid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i) (x0 : Vec F S8192x300 .f32) (x1 x2 x3 x4 : Vec F S1x300 .f32) (x5 : Vec F S300x10 .bf16) (xs0 xs1 : Vec F S1x10 .f32) (y : S1x10.Idx) :
    ∃ pc ∈ (runMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL _ S1x10.size (by sl_kernel_rfl) y
theorem covS1_mid (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i) (x0 : Vec F S8192x300 .f32) (x1 x2 x3 x4 : Vec F S1x300 .f32) (x5 : Vec F S300x10 .bf16) (xs0 xs1 : Vec F S1x10 .f32) (y : S1x10.Idx) :
    ∃ pc ∈ (runMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL _ S1x10.size (by sl_kernel_rfl) y
theorem cov6_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S8192x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL _ S8192x10.size (by sl_kernel_rfl) y
theorem cov7_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S1x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL _ S1x10.size (by sl_kernel_rfl) y
theorem cov8_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S1x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL _ S1x10.size (by sl_kernel_rfl) y
theorem covS0_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S1x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL _ S1x10.size (by sl_kernel_rfl) y
theorem covS1_last (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i) (x0 : Vec F S8192x300 .f32) (x1 x2 x3 x4 : Vec F S1x300 .f32) (x5 : Vec F S300x10 .bf16) (xs0 xs1 : Vec F S1x10 .f32) (y : S1x10.Idx) :
    ∃ pc ∈ (runLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL _ S1x10.size (by sl_kernel_rfl) y

/-! ## The accumulation over the points -/

def leftAt (c : Dev nD) : (n : ℕ) → n < cfg1.N → Left F
  | 0, hn => leftFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) accSum (Memref.isWhole_whole _) accSq (Memref.isWhole_whole _) ((isFirst_iff ⟨0, hn⟩).mpr rfl) (fun h => absurd ((isLast_iff ⟨0, hn⟩).mp h) (show ¬(0 : ℕ) = 7 by decide)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)
  | n + 1, hn =>
    if h1 : n + 1 = 7 then
      leftLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) accSum (Memref.isWhole_whole _) accSq (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (leftAt c n (Nat.lt_of_succ_lt hn)).sum (leftAt c n (Nat.lt_of_succ_lt hn)).sq
    else
      leftMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) accSum (Memref.isWhole_whole _) accSq (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (leftAt c n (Nat.lt_of_succ_lt hn)).sum (leftAt c n (Nat.lt_of_succ_lt hn)).sq

theorem leftAt_first (c : Dev nD) (t : Fin cfg1.N) (h0 : t.val = 0) (h1 : ¬t.val = 7) :
    leftAt V c t.val t.isLt = leftFirst c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accSum (Memref.isWhole_whole _) accSq (Memref.isWhole_whole _) ((isFirst_iff t).mpr h0) (fun h => h1 ((isLast_iff t).mp h)) (iblk V c 0 t) (iblk V c 1 t) (iblk V c 2 t) (iblk V c 3 t) (iblk V c 4 t) (iblk V c 5 t) := by
  obtain ⟨n, hn⟩ := t
  cases n with
  | zero => rfl
  | succ n => exact absurd h0 (Nat.succ_ne_zero n)

theorem leftAt_mid (c : Dev nD) (t : Fin cfg1.N) (h0 : ¬t.val = 0) (h1 : ¬t.val = 7) :
    leftAt V c t.val t.isLt = leftMid c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accSum (Memref.isWhole_whole _) accSq (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t)
      (leftAt V c (t.val - 1) (Nat.lt_of_le_of_lt (Nat.sub_le _ _) t.isLt)).sum (leftAt V c (t.val - 1) (Nat.lt_of_le_of_lt (Nat.sub_le _ _) t.isLt)).sq := by
  obtain ⟨n, hn⟩ := t
  cases n with
  | zero => exact absurd rfl h0
  | succ n => exact (dif_neg h1).trans rfl

theorem leftAt_last (c : Dev nD) (t : Fin cfg1.N) (h0 : ¬t.val = 0) (h1 : t.val = 7) :
    leftAt V c t.val t.isLt = leftLast c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) accSum (Memref.isWhole_whole _) accSq (Memref.isWhole_whole _) (fun h => h0 ((isFirst_iff t).mp h)) ((isLast_iff t).mpr h1) (iblk V c 0 t) (iblk V c 1 t) (iblk V c 2 t) (iblk V c 3 t) (iblk V c 4 t) (iblk V c 5 t)
      (leftAt V c (t.val - 1) (Nat.lt_of_le_of_lt (Nat.sub_le _ _) t.isLt)).sum (leftAt V c (t.val - 1) (Nat.lt_of_le_of_lt (Nat.sub_le _ _) t.isLt)).sq := by
  obtain ⟨n, hn⟩ := t
  cases n with
  | zero => exact absurd rfl h0
  | succ n => exact (dif_pos h1).trans rfl

/-! ## The invariant between points: the accumulators at what the point before left -/

def PhiS (c : Dev nD) : (n : ℕ) → n ≤ cfg1.N → sProp 𝕄
  | 0, _ => Pipeline.ΦA spec1 c
  | n + 1, hn => iprop(iprop(owns (c : Thread nD τ) accSum fullShare (leftAt V c n hn).sum ∗ owns (c : Thread nD τ) accSq fullShare (leftAt V c n hn).sq ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) accSum fullShare (leftAt V c n hn).sum ∗ owns (c : Thread nD τ) accSq fullShare (leftAt V c n hn).sq ∗ others c) ∗ (∃ r, prngReg c r)) := rfl
theorem PhiS_pos (c : Dev nD) (n : ℕ) (h : n ≤ cfg1.N) (hz : n ≠ 0) :
    PhiS V c n h = iprop(iprop(owns (c : Thread nD τ) accSum fullShare (leftAt V c (n - 1) (by omega)).sum ∗ owns (c : Thread nD τ) accSq fullShare (leftAt V c (n - 1) (by omega)).sq ∗ others c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (leftAt V c t.val t.isLt).prod
    | ⟨7, _⟩ => (leftAt V c t.val t.isLt).mean
    | ⟨8, _⟩ => (leftAt V c t.val t.isLt).istd
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = (leftAt V c t.val t.isLt).prod := by dsimp only [dat]
theorem after_7 (c : Dev nD) (t : Fin cfg1.N) : (dat V c).after 7 t = (leftAt V c t.val t.isLt).mean := by dsimp only [dat]
theorem after_8 (c : Dev nD) (t : Fin cfg1.N) : (dat V c).after 8 t = (leftAt V c t.val t.isLt).istd := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

end Cert.KernelIdeal.Call1

end
-- ==== Proof.KernelIdeal.Call1Body.lean ====
/-
  The second matrix-product call: the body meets its obligation at every grid point. The invariant hands the body the
  two accumulators (at anything before the first point, at what the point before left afterwards) and takes them back
  at this point's contents; the six inputs are where the pipeline staged them; the product buffer is written whole at
  every point; the two statistics buffers are written at the last point only and handed back untouched elsewhere.
-/
import proofs.«117614_j79061757985000_1_alg».proof.Proof.KernelIdeal.Call1Points

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

theorem leaves_0 (c : Dev nD) (t : Fin cfg1.N) : (dat V c).leavesExact 0 t = owns (c : Thread nD τ) (ms_0 t) fullShare (iblk V c 0 t) := by
  unfold Dat.leavesExact; rw [live_0 t, after_0]
theorem leaves_1 (c : Dev nD) (t : Fin cfg1.N) : (dat V c).leavesExact 1 t = owns (c : Thread nD τ) (ms_1 t) fullShare (iblk V c 1 t) := by
  unfold Dat.leavesExact; rw [live_1 t, after_1]
theorem leaves_2 (c : Dev nD) (t : Fin cfg1.N) : (dat V c).leavesExact 2 t = owns (c : Thread nD τ) (ms_2 t) fullShare (iblk V c 2 t) := by
  unfold Dat.leavesExact; rw [live_2 t, after_2]
theorem leaves_3 (c : Dev nD) (t : Fin cfg1.N) : (dat V c).leavesExact 3 t = owns (c : Thread nD τ) (ms_3 t) fullShare (iblk V c 3 t) := by
  unfold Dat.leavesExact; rw [live_3 t, after_3]
theorem leaves_4 (c : Dev nD) (t : Fin cfg1.N) : (dat V c).leavesExact 4 t = owns (c : Thread nD τ) (ms_4 t) fullShare (iblk V c 4 t) := by
  unfold Dat.leavesExact; rw [live_4 t, after_4]
theorem leaves_5 (c : Dev nD) (t : Fin cfg1.N) : (dat V c).leavesExact 5 t = owns (c : Thread nD τ) (ms_5 t) fullShare (iblk V c 5 t) := by
  unfold Dat.leavesExact; rw [live_5 t, after_5]
theorem leaves_6 (c : Dev nD) (t : Fin cfg1.N) : (dat V c).leavesExact 6 t = owns (c : Thread nD τ) (ms_6 t) fullShare (leftAt V c t.val t.isLt).prod := by
  unfold Dat.leavesExact; rw [live_6 t, after_6]
theorem leaves_7 (c : Dev nD) (t : Fin cfg1.N) (h : isLast (grid1.coords t)) : (dat V c).leavesExact 7 t = owns (c : Thread nD τ) (ms_7 t) fullShare (leftAt V c t.val t.isLt).mean := by
  unfold Dat.leavesExact; rw [live_7 t h, after_7]
theorem leaves_8 (c : Dev nD) (t : Fin cfg1.N) (h : isLast (grid1.coords t)) : (dat V c).leavesExact 8 t = owns (c : Thread nD τ) (ms_8 t) fullShare (leftAt V c t.val t.isLt).istd := by
  unfold Dat.leavesExact; rw [live_8 t h, after_8]

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4, leaves_5, leaves_6]
  have hN : t.val < 8 := lt_of_lt_of_eq t.isLt (show cfg1.N = 8 from N_1)
  by_cases h0 : t.val = 0
  · have h1 : ¬t.val = 7 := by omega
    rw [Dat.leavesExact_idle (dat V c) 7 t (idle_7 t (fun h => h1 ((isLast_iff t).mp h))) (noFlush_7 t (fun h => h1 ((isLast_iff t).mp h)))]
    rw [Dat.leavesExact_idle (dat V c) 8 t (idle_8 t (fun h => h1 ((isLast_iff t).mp h))) (noFlush_8 t (fun h => h1 ((isLast_iff t).mp h)))]
    rw [leftAt_first V c t h0 h1]
    unfold leftFirst; dsimp only
    rw [PhiS_castSucc V c t, PhiS_zero V c _ _ h0, PhiA_eq]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst c (grid1.coords t) _ _ _ _ _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hoth Hg]
    · isplitr [Hg]
      · isplitl [HS0]
        · unfold owns; iexists _; isplitr
          swap; · iexact HS0
          ipureintro; exact View.read_writes_of_cover _ _ _ _ _ (covS0_first c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (covS1_first c _ _ _ _ _ _ _ _ _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cov6_first c _ _ _ _ _ _ _ _ _ _ _ _ _ _ _ _ _ _ _ _ _ _ _ _ _ _ _ _ _ _ _)
    isplitl [H7]; · iexists _; iexact H7
    iexists _; iexact H8
  · by_cases h1 : t.val = 7
    · rw [leaves_7 V c t ((isLast_iff t).mpr h1), leaves_8 V c t ((isLast_iff t).mpr h1)]
      rw [leftAt_last V c t h0 h1]
      unfold leftLast; dsimp only
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid1.coords t) _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (covS0_last c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (covS1_last c _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cov6_last c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cov7_last c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cov8_last c _ _ _ _ _ _ _ _ _ _ _ _ _ _ _ _ _ _ _ _ _ _ _ _ _ _ _ _ _ _ _ _ _)
    · rw [Dat.leavesExact_idle (dat V c) 7 t (idle_7 t (fun h => h1 ((isLast_iff t).mp h))) (noFlush_7 t (fun h => h1 ((isLast_iff t).mp h)))]
      rw [Dat.leavesExact_idle (dat V c) 8 t (idle_8 t (fun h => h1 ((isLast_iff t).mp h))) (noFlush_8 t (fun h => h1 ((isLast_iff t).mp h)))]
      rw [leftAt_mid V c t h0 h1]
      unfold leftMid; dsimp only
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMid c (grid1.coords t) _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (covS0_mid c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (covS1_mid c _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cov6_mid c _ _ _ _ _ _ _ _ _ _ _ _ _ _ _ _ _ _ _ _ _ _ _ _ _ _ _ _ _ _ _ _ _)
      isplitl [H7]; · iexists _; iexact H7
      iexists _; iexact H8

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  have ht : (Fin.last cfg1.N).val ≠ 0 := by rw [Fin.val_last]; have : cfg1.N = 8 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨HS0, HS1, Hoth⟩, Hg⟩
  isplitr [Hg]
  · isplitl [HS0]; · iexists _; iexact HS0
    isplitl [HS1]; · iexists _; iexact HS1
    iexact Hoth
  iexact Hg

end Cert.KernelIdeal.Call1

end
-- ==== Proof.KernelIdeal.Call2.lean ====
/-
  The last call: the final normalisation, 8 grid points of 8192 rows each. At every point the body reads its block of
  the second product and the four [1,10] rows (mean, inverse deviation, scale, shift) and stores, entry by entry,
  ((o - mean) * istd) * gamma + beta into the output block. No scratch, no condition: one control case.
-/
import proofs.«117614_j79061757985000_1_alg».proof.Proof.Gen.KernelIdeal.Launch
import proofs.«117614_j79061757985000_1_alg».proof.Proof.Gen.KernelIdeal.Skeleton
import proofs.«117614_j79061757985000_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Call2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rBig : Rect S8192x10 := Rect.unit (s := S8192x10) ![0, 0] S8192x10.size inb_S8192x10_S8192x10_0_0
abbrev rRow : Rect S1x10 := Rect.unit (s := S1x10) ![0, 0] S1x10.size inb_S1x10_S1x10_0_0

/-- The output block after the body, from the five input blocks: one store of the whole block. -/
def outBlk (x0 : Vec F S8192x10 .f32) (x1 x2 x3 x4 : Vec F S1x10 .f32) : Vec F S8192x10 .f32 :=
  View.canon [⟨rBig, k2_pay1 (View.ld x0 rBig) (View.ld x1 rRow) (View.ld x2 rRow) (View.ld x3 rRow) (View.ld x4 rRow)⟩]

theorem cover (p0 : Vec F S8192x10 .f32) (y : S8192x10.Idx) :
    ∃ pc ∈ ([⟨rBig, p0⟩] : List (View.Piece (Elt F) S8192x10 .f32)), y ∈ pc.1.set :=
  View.cover_of_tiled [⟨rBig, p0⟩] S8192x10.size (by rfl) y

set_option maxHeartbeats 2000000 in
theorem sound_kernel (c : Dev nD) (E : Set ℕ) (i : grid2.Coords) (arg1 : Memref sig .tc .vmem S8192x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S8192x10 .f32) (harg6 : arg6.IsWhole)
    (x0 : Vec F S8192x10 .f32) (x1 x2 x3 x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outBlk x0 x1 x2 x3 x4)) -∗ K ⟨⟩))
      ⊢ wp frame (wpE (defs₀ (F := F)) Variants.none c none) E (cc2__k3_kernel i arg1 harg1 arg2 harg2 arg3 harg3 arg4 harg4 arg5 harg5 arg6 harg6) K := by
  simp only [cc2__k3_kernel_eq_skeleton]; unfold cc2__k3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlk (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outBlk (iblk V c 0 t) (iblk V c 1 t) (iblk V c 2 t) (iblk V c 3 t) (iblk V c 4 t) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W2, bigSep_W2]
  exact sound_body V c t

end Cert.KernelIdeal.Call2

end
-- ==== Proof.KernelIdeal.Whole.lean ====
/-
  The whole program as one run. The buffer contents at each boundary of the program are a fold from the launch memory:
  after each stretch of host operations what those operations compute; after each of the three kernel calls, that call's
  arrays at what its write-backs leave (the first call: the product x · signs and its column statistics; the second:
  the product of the normalised rows with the second sign matrix and its column statistics; the third: the normalised
  result) and every other buffer as entered. Every weakly fair execution terminates, faulting nowhere, with every
  unscoped buffer at the last contents of that fold; the seven argument arrays are written by nothing, so they end
  as launched.
-/
import proofs.«117614_j79061757985000_1_alg».proof.Proof.KernelIdeal.Call0Body
import proofs.«117614_j79061757985000_1_alg».proof.Proof.KernelIdeal.Call1Body
import proofs.«117614_j79061757985000_1_alg».proof.Proof.KernelIdeal.Call2
import proofs.«117614_j79061757985000_1_alg».proof.Proof.Gen.KernelIdeal.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the five stretches of host operations (the first call's entry): the sign matrices, the reshaped scales and
    shifts. -/
abbrev W5 : Dev nD → Valuation τ sig (Elt F) := fun c => Gen.V5 m c
abbrev E5 : (c : Dev nD) → (b : Ref sig .tc) → Buf (Elt F) ((c : Thread nD τ).loc b) := fun c b => W5 m c b
/-- After call 0: its arrays at what the pipeline leaves (the inputs as entered, each output's write-backs folded), every
    other buffer as entered. -/
def W6 (c : Dev nD) : Valuation τ sig (Elt F) :=
  Pipeline.withArrays spec0 c (W5 m c) fun w => (Call0.dat (E5 m) c).arrAt w cfg0.N
theorem W6_arr (c : Dev nD) (w : Fin cfg0.W) :
    W6 m c (Proc.devRef .tc (Pipeline.arrRef spec0 w)) = (Call0.dat (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
/-- The same read at the TensorCore's references. -/
abbrev E6 : (c : Dev nD) → (b : Ref sig .tc) → Buf (Elt F) ((c : Thread nD τ).loc b) := fun c b => W6 m c b
theorem hF0 (c : Dev nD) (w : Fin cfg0.W) : (Call0.dat (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)

/-- After call 1: its arrays at what the pipeline leaves (the inputs as entered, each output's write-backs folded), every
    other buffer as entered. -/
def W7 (c : Dev nD) : Valuation τ sig (Elt F) :=
  Pipeline.withArrays spec1 c (W6 m c) fun w => (Call1.dat (E6 m) c).arrAt w cfg1.N
theorem W7_arr (c : Dev nD) (w : Fin cfg1.W) :
    W7 m c (Proc.devRef .tc (Pipeline.arrRef spec1 w)) = (Call1.dat (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the TensorCore's references. -/
abbrev E7 : (c : Dev nD) → (b : Ref sig .tc) → Buf (Elt F) ((c : Thread nD τ).loc b) := fun c b => W7 m c b
theorem hF1 (c : Dev nD) (w : Fin cfg1.W) : (Call1.dat (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-- After call 2: its arrays at what the pipeline leaves (the inputs as entered, each output's write-backs folded), every
    other buffer as entered. -/
def W8 (c : Dev nD) : Valuation τ sig (Elt F) :=
  Pipeline.withArrays spec2 c (W7 m c) fun w => (Call2.dat (E7 m) c).arrAt w cfg2.N
theorem W8_arr (c : Dev nD) (w : Fin cfg2.W) :
    W8 m c (Proc.devRef .tc (Pipeline.arrRef spec2 w)) = (Call2.dat (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev E8 : (c : Dev nD) → (b : Ref sig .tc) → Buf (Elt F) ((c : Thread nD τ).loc b) := fun c b => W8 m c b
theorem hF2 (c : Dev nD) (w : Fin cfg2.W) : (Call2.dat (E7 m) c).arrAt w cfg2.N = E8 m c (Pipeline.arrRef spec2 w) :=
  (W8_arr m c w).symm
theorem hrest2 (c : Dev nD) : ∀ b, b ∉ Finset.univ.image (Pipeline.arrRef spec2) → E8 m c b = E7 m c b :=
  fun b hb => W8_of_ne m c b fun w e => hb (Finset.mem_image.mpr ⟨w, Finset.mem_univ _, e⟩)

/-! ## The proof data family and the thread state -/

abbrev admT : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admT p) c
  | ⟨0, _⟩ => fun c => Call0.dat (E5 m) c
  | ⟨1, _⟩ => fun c => Call1.dat (E6 m) c
  | ⟨2, _⟩ => fun c => Call2.dat (E7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The three calls as segments -/

set_option backward.isDefEq.respectTransparency.types false in
/-- Call 0 over the thread state: entered from every unscoped buffer at the boundary contents before it, left at the
    contents after it. Its arrays are split out of the unscoped buffers and put back at the exit contents; the generator
    register goes into the call's invariant and comes back; nothing is owed; the kernel has no semaphore of its own. -/
def reg0 : Pipeline.RegionSeg (pcfgs (F := F)) admT (pdats m) () defs₀ 𝒱₀ L lv 0 where
  win := launch0.win.to₀
  block_pos := launch0.block_pos
  stage_whole := launch0.stage_whole
  K := PEmpty
  osem k := k.elim
  ho := Pipeline.OwnSemFacts.none _
  hbody c := (Call0.body_obligation (E5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Call0.hin (E5 m) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Call0.hout (E5 m) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the boundary contents before it, left at the
    contents after it. Its arrays are split out of the unscoped buffers and put back at the exit contents; the generator
    register goes into the call's invariant and comes back; nothing is owed; the kernel has no semaphore of its own. -/
def reg1 : Pipeline.RegionSeg (pcfgs (F := F)) admT (pdats m) () defs₀ 𝒱₀ L lv 1 where
  win := launch1.win.to₀
  block_pos := launch1.block_pos
  stage_whole := launch1.stage_whole
  K := PEmpty
  osem k := k.elim
  ho := Pipeline.OwnSemFacts.none _
  hbody c := (Call1.body_obligation (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Call1.hin (E6 m) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Call1.hout (E6 m) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at the boundary contents before it, left at the
    contents after it. Its arrays are split out of the unscoped buffers and put back at the exit contents; the generator
    register goes into the call's invariant and comes back; nothing is owed; the kernel has no semaphore of its own. -/
def reg2 : Pipeline.RegionSeg (pcfgs (F := F)) admT (pdats m) () defs₀ 𝒱₀ L lv 2 where
  win := launch2.win.to₀
  block_pos := launch2.block_pos
  stage_whole := launch2.stage_whole
  K := PEmpty
  osem k := k.elim
  ho := Pipeline.OwnSemFacts.none _
  hbody c := (Call2.body_obligation (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) admT (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev allSegs : List (Pipeline.Seg (pcfgs (F := F)) admT (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .host (hseg hostOps0_4 hostOps0_4_sub Gen.hostOps0_4_fresh (Gen.V4 m)),
    .region (reg0 m),
    .region (reg1 m),
    .region (reg2 m) ]

theorem main_run (c : Dev nD) : main (F := F) c = Pipeline.Seg.run (allSegs m) := (main_chain c).trans (by chain_rfl)

set_option backward.isDefEq.respectTransparency.types false in
/-- Every weakly fair execution of the program terminates, nothing faulting, and every final state has every unscoped
    buffer of every core at the last boundary's contents. -/
theorem run_all : θ_run defs (onTc (τ := τ) (main (F := F))) ⟨m, fun _ => 0, ρ⟩ (fun r => ∀ c : Dev nD, ∀ (b : Ref sig .tc),
      ¬ (Proc.devRef .tc b : DevRef τ sig).isScoped → r.2.mem ((c.tc : Thread nD τ).loc b) = W8 m c (Proc.devRef .tc b)) :=
  Pipeline.θ_run_regions_kit (pcfgs (F := F)) admT (pdats m) () cellOf_inj emb₁ defs₀ 𝒱₀ L lv m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb => h c _ (mem_uc b hb))

end Cert.KernelIdeal.Whole

end
-- ==== Proof.KernelIdeal.Args.lean ====
/-
  No host operation and no kernel call writes an argument array: the first call reads x through an input window, whose
  array the pipeline leaves as entered, and every other argument is read by host operations only. So each of the seven
  argument arrays is, at the last boundary of the program, what the launch memory held.
-/
import proofs.«117614_j79061757985000_1_alg».proof.Proof.KernelIdeal.Whole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W8_arg0 (c : Dev nD) : W8 m c (Proc.devRef .tc main_arg0) = m ((c : Thread nD τ).loc main_arg0) :=
  (W8_of_ne m c main_arg0 (by decide)).trans <| (W7_of_ne m c main_arg0 (by decide)).trans <| (W6_arr m c 0).trans <|
    ((Call0.dat (E5 m) c).arrAt_in 0 rfl _).trans <| (Call0.A_eq (E5 m) c 0).trans <|
    (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W8_arg1 (c : Dev nD) : W8 m c (Proc.devRef .tc main_arg1) = m ((c : Thread nD τ).loc main_arg1) :=
  (W8_of_ne m c main_arg1 (by decide)).trans <| (W7_of_ne m c main_arg1 (by decide)).trans <| (W6_of_ne m c main_arg1 (by decide)).trans <|
    (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W8_arg2 (c : Dev nD) : W8 m c (Proc.devRef .tc main_arg2) = m ((c : Thread nD τ).loc main_arg2) :=
  (W8_of_ne m c main_arg2 (by decide)).trans <| (W7_of_ne m c main_arg2 (by decide)).trans <| (W6_of_ne m c main_arg2 (by decide)).trans <|
    (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W8_arg3 (c : Dev nD) : W8 m c (Proc.devRef .tc main_arg3) = m ((c : Thread nD τ).loc main_arg3) :=
  (W8_of_ne m c main_arg3 (by decide)).trans <| (W7_of_ne m c main_arg3 (by decide)).trans <| (W6_of_ne m c main_arg3 (by decide)).trans <|
    (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W8_arg4 (c : Dev nD) : W8 m c (Proc.devRef .tc main_arg4) = m ((c : Thread nD τ).loc main_arg4) :=
  (W8_of_ne m c main_arg4 (by decide)).trans <| (W7_of_ne m c main_arg4 (by decide)).trans <| (W6_of_ne m c main_arg4 (by decide)).trans <|
    (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem W8_arg5 (c : Dev nD) : W8 m c (Proc.devRef .tc main_arg5) = m ((c : Thread nD τ).loc main_arg5) :=
  (W8_of_ne m c main_arg5 (by decide)).trans <| (W7_of_ne m c main_arg5 (by decide)).trans <| (W6_of_ne m c main_arg5 (by decide)).trans <|
    (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl
theorem W8_arg6 (c : Dev nD) : W8 m c (Proc.devRef .tc main_arg6) = m ((c : Thread nD τ).loc main_arg6) :=
  (W8_of_ne m c main_arg6 (by decide)).trans <| (W7_of_ne m c main_arg6 (by decide)).trans <| (W6_of_ne m c main_arg6 (by decide)).trans <|
    (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide)).trans rfl

/-- The run, with the argument arrays read back: every final state has each argument array as launched and every
    unscoped buffer at the last boundary's contents. -/
theorem run_args (ρ : Dev nD → PrngReg) : θ_run defs (onTc (τ := τ) (main (F := F))) ⟨m, fun _ => 0, ρ⟩ (fun r => ∀ c : Dev nD,
      r.2.mem ((c.tc : Thread nD τ).loc main_v16) = W8 m c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c main_v16 (by decide),
      (h c main_arg0 (by decide)).trans (W8_arg0 m c), (h c main_arg1 (by decide)).trans (W8_arg1 m c),
      (h c main_arg2 (by decide)).trans (W8_arg2 m c), (h c main_arg3 (by decide)).trans (W8_arg3 m c),
      (h c main_arg4 (by decide)).trans (W8_arg4 m c), (h c main_arg5 (by decide)).trans (W8_arg5 m c),
      (h c main_arg6 (by decide)).trans (W8_arg6 m c)⟩) (run_all m ρ)

end Cert.KernelIdeal.Whole

end
-- ==== Proof.KernelIdeal.Call0Values.lean ====
/-
  The first matrix-product call: what each point leaves, as the body's arithmetic of what it read. The product block is
  the block of x times the sign matrix; each accumulator is its previous contents plus the block's column sums (of the
  entries; of their squares) - at the first point the previous contents are the zeros just stored; at the last point the
  mean is the sum accumulator / 65536 and the inverse deviation 1/sqrt(sumsq / 65536 - mean^2 + eps), both of the
  accumulators as this point leaves them.
-/
import proofs.«117614_j79061757985000_1_alg».proof.Proof.KernelIdeal.Call0Points
import Idealize.ShloMosaic.Lib.Pipeline.Value

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem first_prod (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i)
    (x0 : Vec F S2048x784 .f32) (x1 : Vec F S784x300 .bf16) :
    (leftFirst c i arg1 harg1 arg2 harg2 arg3 harg3 arg4 harg4 arg5 harg5 arg6 harg6 arg7 harg7 hc0 hc1 x0 x1).prod = k0_pay3 x0 x1 := by
  unfold leftFirst; dsimp only [rd2]
  rw [View.read_writes_eq_canon _ _ _ (cov2_first c i arg1 harg1 arg2 harg2 arg3 harg3 arg4 harg4 arg5 harg5 arg6 harg6 arg7 harg7 hc0 hc1 x0 x1)]
  unfold runFirst
  dsimp only
  rw [View.canon_unit_zero hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem first_sum (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i)
    (x0 : Vec F S2048x784 .f32) (x1 : Vec F S784x300 .bf16) :
    (leftFirst c i arg1 harg1 arg2 harg2 arg3 harg3 arg4 harg4 arg5 harg5 arg6 harg6 arg7 harg7 hc0 hc1 x0 x1).sum = k0_pay4 x0 x1 (k0_pay1 (F := F)) := by
  unfold leftFirst; dsimp only [rdS0]
  rw [View.read_writes_eq_canon _ _ _ (covS0_first c i arg1 harg1 arg2 harg2 arg3 harg3 arg4 harg4 arg5 harg5 arg6 harg6 arg7 harg7 hc0 hc1 x0 x1)]
  unfold runFirst
  dsimp only
  sl_unfold_words
  rw [View.canon_cons_unit_zero (S := S1x300) hz, View.readCov_unit_zero (S := S1x300) _ hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem first_sq (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : isFirst i) (hc1 : ¬isLast i)
    (x0 : Vec F S2048x784 .f32) (x1 : Vec F S784x300 .bf16) :
    (leftFirst c i arg1 harg1 arg2 harg2 arg3 harg3 arg4 harg4 arg5 harg5 arg6 harg6 arg7 harg7 hc0 hc1 x0 x1).sq = k0_pay5 x0 x1 (k0_pay2 (F := F)) := by
  unfold leftFirst; dsimp only [rdS1]
  rw [View.read_writes_eq_canon _ _ _ (covS1_first c i arg1 harg1 arg2 harg2 arg3 harg3 arg4 harg4 arg5 harg5 arg6 harg6 arg7 harg7 hc0 hc1 x0 x1)]
  unfold runFirst
  dsimp only
  sl_unfold_words
  rw [View.canon_cons_unit_zero (S := S1x300) hz, View.readCov_unit_zero (S := S1x300) _ hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem mid_prod (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i)
    (x0 : Vec F S2048x784 .f32) (x1 : Vec F S784x300 .bf16) (xs0 xs1 : Vec F S1x300 .f32) :
    (leftMid c i arg1 harg1 arg2 harg2 arg3 harg3 arg4 harg4 arg5 harg5 arg6 harg6 arg7 harg7 hc0 hc1 x0 x1 xs0 xs1).prod = k0_pay3 x0 x1 := by
  unfold leftMid; dsimp only [rd2]
  rw [View.read_writes_eq_canon _ _ _ (cov2_mid c i arg1 harg1 arg2 harg2 arg3 harg3 arg4 harg4 arg5 harg5 arg6 harg6 arg7 harg7 hc0 hc1 x0 x1 xs0 xs1)]
  unfold runMid
  dsimp only
  rw [View.canon_unit_zero hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem mid_sum (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i)
    (x0 : Vec F S2048x784 .f32) (x1 : Vec F S784x300 .bf16) (xs0 xs1 : Vec F S1x300 .f32) :
    (leftMid c i arg1 harg1 arg2 harg2 arg3 harg3 arg4 harg4 arg5 harg5 arg6 harg6 arg7 harg7 hc0 hc1 x0 x1 xs0 xs1).sum = k0_pay4 x0 x1 xs0 := by
  unfold leftMid; dsimp only [rdS0]
  rw [View.read_writes_eq_canon _ _ _ (covS0_mid c i arg1 harg1 arg2 harg2 arg3 harg3 arg4 harg4 arg5 harg5 arg6 harg6 arg7 harg7 hc0 hc1 x0 x1 xs0 xs1)]
  unfold runMid
  dsimp only
  rw [View.canon_unit_zero hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem mid_sq (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : ¬isLast i)
    (x0 : Vec F S2048x784 .f32) (x1 : Vec F S784x300 .bf16) (xs0 xs1 : Vec F S1x300 .f32) :
    (leftMid c i arg1 harg1 arg2 harg2 arg3 harg3 arg4 harg4 arg5 harg5 arg6 harg6 arg7 harg7 hc0 hc1 x0 x1 xs0 xs1).sq = k0_pay5 x0 x1 xs1 := by
  unfold leftMid; dsimp only [rdS1]
  rw [View.read_writes_eq_canon _ _ _ (covS1_mid c i arg1 harg1 arg2 harg2 arg3 harg3 arg4 harg4 arg5 harg5 arg6 harg6 arg7 harg7 hc0 hc1 x0 x1 xs0 xs1)]
  unfold runMid
  dsimp only
  rw [View.canon_unit_zero hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem last_prod (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i)
    (x0 : Vec F S2048x784 .f32) (x1 : Vec F S784x300 .bf16) (xs0 xs1 : Vec F S1x300 .f32) :
    (leftLast c i arg1 harg1 arg2 harg2 arg3 harg3 arg4 harg4 arg5 harg5 arg6 harg6 arg7 harg7 hc0 hc1 x0 x1 xs0 xs1).prod = k0_pay3 x0 x1 := by
  unfold leftLast; dsimp only [rd2]
  rw [View.read_writes_eq_canon _ _ _ (cov2_last c i arg1 harg1 arg2 harg2 arg3 harg3 arg4 harg4 arg5 harg5 arg6 harg6 arg7 harg7 hc0 hc1 x0 x1 xs0 xs1)]
  unfold runLast
  dsimp only
  rw [View.canon_unit_zero hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem last_sum (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i)
    (x0 : Vec F S2048x784 .f32) (x1 : Vec F S784x300 .bf16) (xs0 xs1 : Vec F S1x300 .f32) :
    (leftLast c i arg1 harg1 arg2 harg2 arg3 harg3 arg4 harg4 arg5 harg5 arg6 harg6 arg7 harg7 hc0 hc1 x0 x1 xs0 xs1).sum = k0_pay4 x0 x1 xs0 := by
  unfold leftLast; dsimp only [rdS0]
  rw [View.read_writes_eq_canon _ _ _ (covS0_last c i arg1 harg1 arg2 harg2 arg3 harg3 arg4 harg4 arg5 harg5 arg6 harg6 arg7 harg7 hc0 hc1 x0 x1 xs0 xs1)]
  unfold runLast
  dsimp only
  sl_unfold_words
  rw [View.canon_unit_zero hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem last_sq (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i)
    (x0 : Vec F S2048x784 .f32) (x1 : Vec F S784x300 .bf16) (xs0 xs1 : Vec F S1x300 .f32) :
    (leftLast c i arg1 harg1 arg2 harg2 arg3 harg3 arg4 harg4 arg5 harg5 arg6 harg6 arg7 harg7 hc0 hc1 x0 x1 xs0 xs1).sq = k0_pay5 x0 x1 xs1 := by
  unfold leftLast; dsimp only [rdS1]
  rw [View.read_writes_eq_canon _ _ _ (covS1_last c i arg1 harg1 arg2 harg2 arg3 harg3 arg4 harg4 arg5 harg5 arg6 harg6 arg7 harg7 hc0 hc1 x0 x1 xs0 xs1)]
  unfold runLast
  dsimp only
  sl_unfold_words
  rw [View.canon_unit_zero hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem last_mean (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i)
    (x0 : Vec F S2048x784 .f32) (x1 : Vec F S784x300 .bf16) (xs0 xs1 : Vec F S1x300 .f32) :
    (leftLast c i arg1 harg1 arg2 harg2 arg3 harg3 arg4 harg4 arg5 harg5 arg6 harg6 arg7 harg7 hc0 hc1 x0 x1 xs0 xs1).mean = k0_pay6 (k0_pay4 x0 x1 xs0) := by
  unfold leftLast; dsimp only [rd3]
  rw [View.read_writes_eq_canon _ _ _ (cov3_last c i arg1 harg1 arg2 harg2 arg3 harg3 arg4 harg4 arg5 harg5 arg6 harg6 arg7 harg7 hc0 hc1 x0 x1 xs0 xs1)]
  unfold runLast
  dsimp only
  sl_unfold_words
  rw [View.canon_unit_zero hz]
  simp only [View.readCov_unit_zero (S := S1x300) _ hz]
  simp only [View.readAt_eq_ld, harg1.read_unread, harg2.read_unread, harg6.read_unread, harg7.read_unread, View.ld_unit_zero (S := S2048x784) hz, View.ld_unit_zero (S := S784x300) hz, View.ld_unit_zero (S := S1x300) hz]

theorem last_istd (c : Dev nD) (i : grid0.Coords) (arg1 : Memref sig .tc .vmem S2048x784 .f32) (harg1 : arg1.IsWhole) (arg2 : Memref sig .tc .vmem S784x300 .bf16) (harg2 : arg2.IsWhole) (arg3 : Memref sig .tc .vmem S2048x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S1x300 .f32) (harg6 : arg6.IsWhole) (arg7 : Memref sig .tc .vmem S1x300 .f32) (harg7 : arg7.IsWhole) (hc0 : ¬isFirst i) (hc1 : isLast i)
    (x0 : Vec F S2048x784 .f32) (x1 : Vec F S784x300 .bf16) (xs0 xs1 : Vec F S1x300 .f32) :
    (leftLast c i arg1 harg1 arg2 harg2 arg3 harg3 arg4 harg4 arg5 harg5 arg6 harg6 arg7 harg7 hc0 hc1 x0 x1 xs0 xs1).istd = k0_pay7 (k0_pay4 x0 x1 xs0) (k0_pay5 x0 x1 xs1) := by
  unfold leftLast; dsimp only [rd4]
  rw [View.read_writes_eq_canon _ _ _ (cov4_last c i arg1 harg1 arg2 harg2 arg3 harg3 arg4 harg4 arg5 harg5 arg6 harg6 arg7 harg7 hc0 hc1 x0 x1 xs0 xs1)]
  unfold runLast
  dsimp only
  sl_unfold_words
  rw [View.canon_unit_zero hz]
  simp only [View.readCov_unit_zero (S := S1x300) _ hz]
  simp only [View.readAt_eq_ld, harg1.read_unread, harg2.read_unread, harg6.read_unread, harg7.read_unread, View.ld_unit_zero (S := S2048x784) hz, View.ld_unit_zero (S := S784x300) hz, View.ld_unit_zero (S := S1x300) hz]

end Cert.KernelIdeal.Call0

end
-- ==== Proof.KernelIdeal.Call0Chain.lean ====
/-
  The first matrix-product call: the recurrence of what the points leave. The product block of
  point t is the body's matrix product of the blocks read at t; the sum accumulator after point 0 is the zeros plus the
  block's column sums, and after point t > 0 what point t-1 left plus the block's column sums (likewise the squares);
  at the last point the mean and the inverse deviation are computed from the accumulators as that point leaves them.
-/
import proofs.«117614_j79061757985000_1_alg».proof.Proof.KernelIdeal.Call0Values

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem prod_at (c : Dev nD) (t : Fin cfg0.N) : (leftAt V c t.val t.isLt).prod = k0_pay3 (iblk V c 0 t) (iblk V c 1 t) := by
  have hN : t.val < 32 := lt_of_lt_of_eq t.isLt (show cfg0.N = 32 from N_0)
  by_cases h0 : t.val = 0
  · rw [leftAt_first V c t h0 (by omega), first_prod]
  · by_cases h1 : t.val = 31
    · rw [leftAt_last V c t h0 h1, last_prod]
    · rw [leftAt_mid V c t h0 h1, mid_prod]

theorem sum_first (c : Dev nD) (t : Fin cfg0.N) (h0 : t.val = 0) : (leftAt V c t.val t.isLt).sum = k0_pay4 (iblk V c 0 t) (iblk V c 1 t) (k0_pay1 (F := F)) := by
  rw [leftAt_first V c t h0 (by omega), first_sum]
theorem sq_first (c : Dev nD) (t : Fin cfg0.N) (h0 : t.val = 0) : (leftAt V c t.val t.isLt).sq = k0_pay5 (iblk V c 0 t) (iblk V c 1 t) (k0_pay2 (F := F)) := by
  rw [leftAt_first V c t h0 (by omega), first_sq]

theorem sum_next (c : Dev nD) (t : Fin cfg0.N) (h0 : ¬t.val = 0) :
    (leftAt V c t.val t.isLt).sum = k0_pay4 (iblk V c 0 t) (iblk V c 1 t) (leftAt V c (t.val - 1) (Nat.lt_of_le_of_lt (Nat.sub_le _ _) t.isLt)).sum := by
  by_cases h1 : t.val = 31
  · rw [leftAt_last V c t h0 h1, last_sum]
  · rw [leftAt_mid V c t h0 h1, mid_sum]
theorem sq_next (c : Dev nD) (t : Fin cfg0.N) (h0 : ¬t.val = 0) :
    (leftAt V c t.val t.isLt).sq = k0_pay5 (iblk V c 0 t) (iblk V c 1 t) (leftAt V c (t.val - 1) (Nat.lt_of_le_of_lt (Nat.sub_le _ _) t.isLt)).sq := by
  by_cases h1 : t.val = 31
  · rw [leftAt_last V c t h0 h1, last_sq]
  · rw [leftAt_mid V c t h0 h1, mid_sq]

theorem mean_last (c : Dev nD) (t : Fin cfg0.N) (h1 : t.val = 31) :
    (leftAt V c t.val t.isLt).mean = k0_pay6 (leftAt V c t.val t.isLt).sum := by
  have h0 : ¬t.val = 0 := by omega
  rw [leftAt_last V c t h0 h1, last_mean, last_sum]
theorem istd_last (c : Dev nD) (t : Fin cfg0.N) (h1 : t.val = 31) :
    (leftAt V c t.val t.isLt).istd = k0_pay7 (leftAt V c t.val t.isLt).sum (leftAt V c t.val t.isLt).sq := by
  have h0 : ¬t.val = 0 := by omega
  rw [leftAt_last V c t h0 h1, last_istd, last_sum, last_sq]

end Cert.KernelIdeal.Call0

end
-- ==== Proof.KernelIdeal.PayloadsAt.lean ====
/-
  The kernel bodies' arithmetic read at one index, at the ideal values.

  Each payload of the three kernel bodies is read at an index given by literal coordinates, as a closed
  extended-real expression in the loaded blocks at explicit indices: a product of matrices at (p, j) is the
  sum over the contracted coordinate of the products of the operands' entries; a sum over the rows of a tile at
  column j is the sum over the row coordinate; a row vector broadcast over the rows of a tile reads its one
  row; a change of float format is the identity on the extended reals; a shape cast to the same shape is the identity.
-/
import proofs.«117614_j79061757985000_1_alg».proof.Proof.Gen.KernelIdeal.Skeleton
import Idealize.ShloMosaic.PureOps.Ideal.Laws
import Idealize.ShloMosaic.Lib.ValueIdx
import Idealize.ShloMosaic.Lib.ValueLayout

noncomputable section

open scoped BigOperators

namespace Cert.KernelIdeal.PayAt

open Cert.KernelIdeal Cert.KernelIdeal.Gen Idealize.ShloMosaic Idealize.ShloMosaic.ValueIdx

/-! ## The final normalisation -/

/-- The last body at row `p` of the tile, column `i`: centre, scale by the reciprocal deviation, by gamma, add beta. -/
theorem k2_pay1_at (v0 : Vec Ideal S8192x10 .f32) (v2 v6 v10 v14 : Vec Ideal S1x10 .f32) (p : Fin 8192) (i : Fin 10) :
    k2_pay1 (F := Ideal) v0 v2 v6 v10 v14 (ix2 p i)
      = (((v0 (ix2 p i) - v2 (ix2 0 i)) * v6 (ix2 0 i)) * v10 (ix2 0 i)) + v14 (ix2 0 i) := by
  unfold k2_pay1
  simp only [shapeCast_self]
  rw [addf_apply, mulf_apply, mulf_apply, subf_apply, broadcastTo_1b_ab_apply, broadcastTo_1b_ab_apply,
    broadcastTo_1b_ab_apply, broadcastTo_1b_ab_apply]

/-! ## The two products of matrices -/

/-- The left operand's row coordinate is the output's row … -/
theorem dot1_lhs0 (i : S2048x300.Idx) (q : dot_S2048x784_S784x300_S2048x300_1_0_0_1_n_n.contr.Idx) :
    (dot_S2048x784_S784x300_S2048x300_1_0_0_1_n_n.lhsIdx i q 0).val = (i 0).val := by
  unfold DotDims.lhsIdx
  rw [dif_neg (show ¬(0 : Fin S2048x784.rank) ∈ dot_S2048x784_S784x300_S2048x300_1_0_0_1_n_n.lhsBatch by decide),
    dif_pos (show (0 : Fin S2048x784.rank) ∈ dot_S2048x784_S784x300_S2048x300_1_0_0_1_n_n.lhsNonContracting by decide)]
  rfl
/-- … and the right operand's column coordinate is the output's column. -/
theorem dot1_rhs1 (i : S2048x300.Idx) (q : dot_S2048x784_S784x300_S2048x300_1_0_0_1_n_n.contr.Idx) :
    (dot_S2048x784_S784x300_S2048x300_1_0_0_1_n_n.rhsIdx i q 1).val = (i 1).val := by
  unfold DotDims.rhsIdx
  rw [dif_neg (show ¬(1 : Fin S784x300.rank) ∈ dot_S2048x784_S784x300_S2048x300_1_0_0_1_n_n.rhsBatch by decide),
    dif_pos (show (1 : Fin S784x300.rank) ∈ dot_S2048x784_S784x300_S2048x300_1_0_0_1_n_n.rhsNonContracting by decide)]
  rfl

/-- The first product's left index at output (p, j), contraction coordinate k, is (p, k) … -/
theorem dot1_lhs (p : Fin 2048) (j : Fin 300) (k : Fin 784) :
    dot_S2048x784_S784x300_S2048x300_1_0_0_1_n_n.lhsIdx (ix2 p j)
      ((contrEquiv1 dot_S2048x784_S784x300_S2048x300_1_0_0_1_n_n 784 rfl rfl).symm k) = ix2 p k := by
  have hk := contrEquiv1_symm_val dot_S2048x784_S784x300_S2048x300_1_0_0_1_n_n 784 rfl rfl k
  refine funext fun a => Fin.ext ?_
  match a with
  | ⟨0, _⟩ => exact dot1_lhs0 _ _
  | ⟨1, _⟩ => exact (dot_S2048x784_S784x300_S2048x300_1_0_0_1_n_n.lhsIdx_val_of_single rfl _ _).trans hk

/-- … and its right index is (k, j). -/
theorem dot1_rhs (p : Fin 2048) (j : Fin 300) (k : Fin 784) :
    dot_S2048x784_S784x300_S2048x300_1_0_0_1_n_n.rhsIdx (ix2 p j)
      ((contrEquiv1 dot_S2048x784_S784x300_S2048x300_1_0_0_1_n_n 784 rfl rfl).symm k) = ix2 k j := by
  have hk := contrEquiv1_symm_val dot_S2048x784_S784x300_S2048x300_1_0_0_1_n_n 784 rfl rfl k
  refine funext fun a => Fin.ext ?_
  match a with
  | ⟨0, _⟩ => exact (dot_S2048x784_S784x300_S2048x300_1_0_0_1_n_n.rhsIdx_val_of_single rfl _ _).trans hk
  | ⟨1, _⟩ => exact dot1_rhs1 _ _

/-- The first product at row `p` of the tile, column `j`: the sum over the 784 inputs. -/
theorem k0_pay3_at (v3 : Vec Ideal S2048x784 .f32) (v5 : Vec Ideal S784x300 .bf16) (p : Fin 2048) (j : Fin 300) :
    k0_pay3 (F := Ideal) v3 v5 (ix2 p j) = ∑ k : Fin 784, v3 (ix2 p k) * v5 (ix2 k j) := by
  unfold k0_pay3
  simp only [shapeCast_self, matmul]
  rw [Ideal.matmul_constant_zero_apply,
    ← Equiv.sum_comp (contrEquiv1 dot_S2048x784_S784x300_S2048x300_1_0_0_1_n_n 784 rfl rfl).symm]
  refine Finset.sum_congr rfl fun k _ => ?_
  rw [dot1_lhs, dot1_rhs]
  rfl

/-- The left operand's row coordinate is the output's row … -/
theorem dot2_lhs0 (i : S8192x10.Idx) (q : dot_S8192x300_S300x10_S8192x10_1_0_0_1_n_n.contr.Idx) :
    (dot_S8192x300_S300x10_S8192x10_1_0_0_1_n_n.lhsIdx i q 0).val = (i 0).val := by
  unfold DotDims.lhsIdx
  rw [dif_neg (show ¬(0 : Fin S8192x300.rank) ∈ dot_S8192x300_S300x10_S8192x10_1_0_0_1_n_n.lhsBatch by decide),
    dif_pos (show (0 : Fin S8192x300.rank) ∈ dot_S8192x300_S300x10_S8192x10_1_0_0_1_n_n.lhsNonContracting by decide)]
  rfl
/-- … and the right operand's column coordinate is the output's column. -/
theorem dot2_rhs1 (i : S8192x10.Idx) (q : dot_S8192x300_S300x10_S8192x10_1_0_0_1_n_n.contr.Idx) :
    (dot_S8192x300_S300x10_S8192x10_1_0_0_1_n_n.rhsIdx i q 1).val = (i 1).val := by
  unfold DotDims.rhsIdx
  rw [dif_neg (show ¬(1 : Fin S300x10.rank) ∈ dot_S8192x300_S300x10_S8192x10_1_0_0_1_n_n.rhsBatch by decide),
    dif_pos (show (1 : Fin S300x10.rank) ∈ dot_S8192x300_S300x10_S8192x10_1_0_0_1_n_n.rhsNonContracting by decide)]
  rfl

/-- The second product's left index at output (p, i), contraction coordinate k, is (p, k) … -/
theorem dot2_lhs (p : Fin 8192) (i : Fin 10) (k : Fin 300) :
    dot_S8192x300_S300x10_S8192x10_1_0_0_1_n_n.lhsIdx (ix2 p i)
      ((contrEquiv1 dot_S8192x300_S300x10_S8192x10_1_0_0_1_n_n 300 rfl rfl).symm k) = ix2 p k := by
  have hk := contrEquiv1_symm_val dot_S8192x300_S300x10_S8192x10_1_0_0_1_n_n 300 rfl rfl k
  refine funext fun a => Fin.ext ?_
  match a with
  | ⟨0, _⟩ => exact dot2_lhs0 _ _
  | ⟨1, _⟩ => exact (dot_S8192x300_S300x10_S8192x10_1_0_0_1_n_n.lhsIdx_val_of_single rfl _ _).trans hk

/-- … and its right index is (k, i). -/
theorem dot2_rhs (p : Fin 8192) (i : Fin 10) (k : Fin 300) :
    dot_S8192x300_S300x10_S8192x10_1_0_0_1_n_n.rhsIdx (ix2 p i)
      ((contrEquiv1 dot_S8192x300_S300x10_S8192x10_1_0_0_1_n_n 300 rfl rfl).symm k) = ix2 k i := by
  have hk := contrEquiv1_symm_val dot_S8192x300_S300x10_S8192x10_1_0_0_1_n_n 300 rfl rfl k
  refine funext fun a => Fin.ext ?_
  match a with
  | ⟨0, _⟩ => exact (dot_S8192x300_S300x10_S8192x10_1_0_0_1_n_n.rhsIdx_val_of_single rfl _ _).trans hk
  | ⟨1, _⟩ => exact dot2_rhs1 _ _

/-- The second product at row `p` of the tile, column `i`: the normalised first layer against the second weights. -/
theorem k1_pay6_at (v3 : Vec Ideal S8192x300 .f32) (v5 v9 v13 v17 : Vec Ideal S1x300 .f32) (v22 : Vec Ideal S300x10 .bf16)
    (p : Fin 8192) (i : Fin 10) :
    k1_pay6 (F := Ideal) v3 v5 v9 v13 v17 v22 (ix2 p i)
      = ∑ j : Fin 300, ((((v3 (ix2 p j) - v5 (ix2 0 j)) * v9 (ix2 0 j)) * v13 (ix2 0 j)) + v17 (ix2 0 j)) * v22 (ix2 j i) := by
  unfold k1_pay6
  simp only [shapeCast_self, matmul]
  rw [Ideal.matmul_constant_zero_apply,
    ← Equiv.sum_comp (contrEquiv1 dot_S8192x300_S300x10_S8192x10_1_0_0_1_n_n 300 rfl rfl).symm]
  refine Finset.sum_congr rfl fun j _ => ?_
  rw [dot2_lhs, dot2_rhs, truncf_apply, addf_apply, mulf_apply, mulf_apply, subf_apply, broadcastTo_1b_ab_apply,
    broadcastTo_1b_ab_apply, broadcastTo_1b_ab_apply, broadcastTo_1b_ab_apply]

/-! ## The zero the running totals start from -/

/-- The first body's two running totals are reset to the zero word … -/
theorem k0_pay1_at (i : S1x300.Idx) : k0_pay1 (F := Ideal) i = Ideal.ofBits .f32 0x00000000#32 := by
  unfold k0_pay1; simp only [shapeCast_self]; rfl
theorem k0_pay2_at (i : S1x300.Idx) : k0_pay2 (F := Ideal) i = Ideal.ofBits .f32 0x00000000#32 := by
  unfold k0_pay2; simp only [shapeCast_self]; rfl
/-- … and so are the second body's. -/
theorem k1_pay4_at (i : S1x10.Idx) : k1_pay4 (F := Ideal) i = Ideal.ofBits .f32 0x00000000#32 := by
  unfold k1_pay4; simp only [shapeCast_self]; rfl
theorem k1_pay5_at (i : S1x10.Idx) : k1_pay5 (F := Ideal) i = Ideal.ofBits .f32 0x00000000#32 := by
  unfold k1_pay5; simp only [shapeCast_self]; rfl

/-! ## The sums over a tile's rows -/

/-- A sum over the 2048 rows of a tile, at column `j`. -/
theorem rowsum_2048x300 (src : FVec Ideal S2048x300 .f32) (j : Fin 300) :
    multiReduction (F := Ideal) .add [0] S300 src 0x00000000#32 reduces_S2048x300_S300 (.inl rfl) rfl (ix1 j)
      = ∑ p : Fin 2048, src (ix2 p j) := by
  refine (Ideal.multiReduction_add_single src 0x00000000#32 reduces_S2048x300_S300 (.inl rfl) rfl (ix1 j)).trans ?_
  show ∑ p : Fin 2048, src (reduces_S2048x300_S300.lift (ix1 j) p) = ∑ p : Fin 2048, src (ix2 p j)
  refine Finset.sum_congr rfl fun p _ => congrArg src (funext fun a => Fin.ext ?_)
  match a with
  | ⟨0, _⟩ => rfl
  | ⟨1, _⟩ => rfl

/-- A sum over the 8192 rows of a tile, at column `i`. -/
theorem rowsum_8192x10 (src : FVec Ideal S8192x10 .f32) (i : Fin 10) :
    multiReduction (F := Ideal) .add [0] S10 src 0x00000000#32 reduces_S8192x10_S10 (.inl rfl) rfl (ix1 i)
      = ∑ p : Fin 8192, src (ix2 p i) := by
  refine (Ideal.multiReduction_add_single src 0x00000000#32 reduces_S8192x10_S10 (.inl rfl) rfl (ix1 i)).trans ?_
  show ∑ p : Fin 8192, src (reduces_S8192x10_S10.lift (ix1 i) p) = ∑ p : Fin 8192, src (ix2 p i)
  refine Finset.sum_congr rfl fun p _ => congrArg src (funext fun a => Fin.ext ?_)
  match a with
  | ⟨0, _⟩ => rfl
  | ⟨1, _⟩ => rfl

/-- The first body's running total of `h`: what it was plus this tile's column sum. -/
theorem k0_pay4_at (v3 : Vec Ideal S2048x784 .f32) (v5 : Vec Ideal S784x300 .bf16) (v9 : Vec Ideal S1x300 .f32) (j : Fin 300) :
    k0_pay4 (F := Ideal) v3 v5 v9 (ix2 0 j) = v9 (ix2 0 j) + ∑ p : Fin 2048, k0_pay3 (F := Ideal) v3 v5 (ix2 p j) := by
  unfold k0_pay4
  simp only [shapeCast_self]
  rw [addf_apply, shapeCast_a_1a_apply, rowsum_2048x300]

/-- The first body's running total of `h²`: what it was plus this tile's column sum of squares. -/
theorem k0_pay5_at (v3 : Vec Ideal S2048x784 .f32) (v5 : Vec Ideal S784x300 .bf16) (v16 : Vec Ideal S1x300 .f32) (j : Fin 300) :
    k0_pay5 (F := Ideal) v3 v5 v16 (ix2 0 j)
      = v16 (ix2 0 j) + ∑ p : Fin 2048, k0_pay3 (F := Ideal) v3 v5 (ix2 p j) * k0_pay3 (F := Ideal) v3 v5 (ix2 p j) := by
  unfold k0_pay5
  simp only [shapeCast_self]
  rw [addf_apply, shapeCast_a_1a_apply, rowsum_2048x300]
  rfl

/-- The second body's running total of `o`: what it was plus this tile's column sum. -/
theorem k1_pay7_at (v3 : Vec Ideal S8192x300 .f32) (v5 v9 v13 v17 : Vec Ideal S1x300 .f32) (v22 : Vec Ideal S300x10 .bf16)
    (v26 : Vec Ideal S1x10 .f32) (i : Fin 10) :
    k1_pay7 (F := Ideal) v3 v5 v9 v13 v17 v22 v26 (ix2 0 i)
      = v26 (ix2 0 i) + ∑ p : Fin 8192, k1_pay6 (F := Ideal) v3 v5 v9 v13 v17 v22 (ix2 p i) := by
  unfold k1_pay7
  simp only [shapeCast_self]
  rw [addf_apply, shapeCast_a_1a_apply, rowsum_8192x10]

/-- The second body's running total of `o²`: what it was plus this tile's column sum of squares. -/
theorem k1_pay1_at (v24 : FVec Ideal S8192x10 .f32) (v33 : Vec Ideal S1x10 .f32) (i : Fin 10) :
    k1_pay1 (F := Ideal) v24 v33 (ix2 0 i) = v33 (ix2 0 i) + ∑ p : Fin 8192, v24 (ix2 p i) * v24 (ix2 p i) := by
  unfold k1_pay1
  simp only [shapeCast_self]
  rw [addf_apply, shapeCast_a_1a_apply, rowsum_8192x10]
  rfl

/-! ## The statistics written at the last tile -/

/-- The mean: the total over the row count. -/
theorem k0_pay6_at (v27 : Vec Ideal S1x300 .f32) (i : S1x300.Idx) :
    k0_pay6 (F := Ideal) v27 i = Ideal.div (v27 i) (Ideal.ofBits .f32 0x47800000#32) := rfl

/-- The reciprocal deviation: of the mean of squares minus the squared mean, plus eps. -/
theorem k0_pay7_at (v27 v30 : Vec Ideal S1x300 .f32) (i : S1x300.Idx) :
    k0_pay7 (F := Ideal) v27 v30 i
      = Ideal.rsqrt (Ideal.div (v30 i) (Ideal.ofBits .f32 0x47800000#32) - k0_pay6 (F := Ideal) v27 i * k0_pay6 (F := Ideal) v27 i
          + Ideal.ofBits .f32 0x3727C5AC#32) := rfl

/-- The second mean. -/
theorem k1_pay2_at (v44 : Vec Ideal S1x10 .f32) (i : S1x10.Idx) :
    k1_pay2 (F := Ideal) v44 i = Ideal.div (v44 i) (Ideal.ofBits .f32 0x47800000#32) := rfl

/-- The second reciprocal deviation. -/
theorem k1_pay3_at (v44 v47 : Vec Ideal S1x10 .f32) (i : S1x10.Idx) :
    k1_pay3 (F := Ideal) v44 v47 i
      = Ideal.rsqrt (Ideal.div (v47 i) (Ideal.ofBits .f32 0x47800000#32) - k1_pay2 (F := Ideal) v44 i * k1_pay2 (F := Ideal) v44 i
          + Ideal.ofBits .f32 0x3727C5AC#32) := rfl

end Cert.KernelIdeal.PayAt

end
-- ==== Proof.KernelIdeal.Call0Prod.lean ====
/-
  The first matrix-product call at the exact reals: its product output as one array. Point t's block is rows
  [2048 t, 2048 (t+1)) of the array; the block the body stores is, entry (p, j), the sum over k of the row block of x at
  (p, k) times the sign matrix at (k, j); x's block at point t is rows [2048 t, 2048 (t+1)) of x and the sign matrix's
  only block is the whole matrix. The 32 blocks tile the 65536 rows, so the array ends at x · signs.
-/
import proofs.«117614_j79061757985000_1_alg».proof.Proof.KernelIdeal.Call0Chain
import proofs.«117614_j79061757985000_1_alg».proof.Proof.KernelIdeal.PayloadsAt
import Idealize.ShloMosaic.Lib.Pipeline.Value
import Idealize.ShloMosaic.Lib.ValueIdx

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayAt

variable (V : (c : Dev nD) → (b : Ref sig .tc) → Buf (Elt Ideal) ((c : Thread nD τ).loc b))

/-- Where each window's block sits at point t: the row blocks move with t, everything else is block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The arrays the call reads, as functions of an index. -/
abbrev xArr (c : Dev nD) : S65536x784.Idx → EReal := V c main_arg0
abbrev wArr (c : Dev nD) : S784x300.Idx → EReal := V c main_v4

/-- Entry (r, j) of x · signs. -/
def prodAt (c : Dev nD) (r : Fin 65536) (j : Fin 300) : EReal := ∑ k : Fin 784, xArr V c (ix2 r k) * wArr V c (ix2 k j)

theorem row_lt (t : Fin cfg0.N) (p : Fin 2048) : 2048 * t.val + p.val < 65536 := by
  have h1 := t.isLt; have h2 : cfg0.N = 32 := N_0; have h3 := p.isLt; omega

/-- The row block of x at point t is rows 2048 t + p of x. -/
theorem xblk_at (c : Dev nD) (t : Fin cfg0.N) (p : Fin 2048) (k : Fin 784) :
    iblk V c 0 t (ix2 p k) = xArr V c (ix2 ⟨2048 * t.val + p.val, row_lt t p⟩ k) := by
  obtain ⟨e0, e1, -⟩ := index_facts t
  show V c main_arg0 (((cfg0.win 0).blk t).view.emb (ix2 p k)) = V c main_arg0 (ix2 ⟨2048 * t.val + p.val, row_lt t p⟩ k)
  congr 1
  funext a; apply Fin.ext
  match a with
  | ⟨0, _⟩ => show win0_0.index t (0 : Fin 2) * 2048 + 1 * p.val = 2048 * t.val + p.val; omega
  | ⟨1, _⟩ => show win0_0.index t (1 : Fin 2) * 784 + 1 * k.val = k.val; omega

/-- The sign matrix's one block is the matrix. -/
theorem wblk_at (c : Dev nD) (t : Fin cfg0.N) (k : Fin 784) (j : Fin 300) :
    iblk V c 1 t (ix2 k j) = wArr V c (ix2 k j) := by
  obtain ⟨-, -, e2, e3, -⟩ := index_facts t
  show V c main_v4 (((cfg0.win 1).blk t).view.emb (ix2 k j)) = V c main_v4 (ix2 k j)
  congr 1
  funext a; apply Fin.ext
  match a with
  | ⟨0, _⟩ => show win0_1.index t (0 : Fin 2) * 784 + 1 * k.val = k.val; omega
  | ⟨1, _⟩ => show win0_1.index t (1 : Fin 2) * 300 + 1 * j.val = j.val; omega

/-- The body's product of the blocks at point t is the block of x · signs. -/
theorem blockprod_at (c : Dev nD) (t : Fin cfg0.N) (p : Fin 2048) (j : Fin 300) :
    k0_pay3 (F := Ideal) (iblk V c 0 t) (iblk V c 1 t) (ix2 p j) = prodAt V c ⟨2048 * t.val + p.val, row_lt t p⟩ j := by
  rw [k0_pay3_at]
  unfold prodAt
  exact Finset.sum_congr rfl fun k _ => by rw [xblk_at, wblk_at]

/-- What point t writes back is block t of x · signs. -/
theorem flushed_prod (c : Dev nD) (t : Fin cfg0.N) :
    (dat V c).flushed 2 t = ((cfg0.win 2).blk t).view.read (Elt Ideal) (fun i => prodAt V c (i 0) (i 1)) := by
  obtain ⟨-, -, -, -, e4, e5, -⟩ := index_facts t
  show (cfg0.win 2).cut (grid0.coords t) ((dat V c).after 2 t) = _
  rw [after_2, prod_at]
  funext y
  obtain ⟨p, j, rfl⟩ : ∃ (p : Fin 2048) (j : Fin 300), y = ix2 p j := ⟨y 0, y 1, eq_ix2 y⟩
  refine (blockprod_at V c t p j).trans ?_
  show prodAt V c _ j = prodAt V c ((((cfg0.win 2).blk t).view.emb (ix2 p j)) 0) ((((cfg0.win 2).blk t).view.emb (ix2 p j)) 1)
  congr 1
  · apply Fin.ext
    show 2048 * t.val + p.val = win0_2.index t (0 : Fin 2) * 2048 + 1 * p.val; omega
  · apply Fin.ext
    show j.val = win0_2.index t (1 : Fin 2) * 300 + 1 * j.val; omega

theorem mem_blk (t : Fin cfg0.N) (i : S65536x300.Idx) :
    i ∈ ((cfg0.win 2).blk t).view.set ↔ ∀ a : Fin 2, win0_2.index t a * S2048x300.size a ≤ (i a).val ∧ (i a).val < win0_2.index t a * S2048x300.size a + S2048x300.size a := by
  show i ∈ ((View.whole main_v14_0).slice (win0_2.rect t)).set ↔ _
  rw [View.set_slice_whole, Rect.mem_set_unit]
  exact Iff.rfl

/-- The product array after the call: x · signs, entry by entry. -/
theorem final_prod (c : Dev nD) : (dat V c).arrAt 2 cfg0.N = fun i => prodAt V c (i 0) (i 1) :=
  (dat V c).arrAt_eq_of_cover 2 _ (fun t _ => flushed_prod V c t) fun i => by
    have hi0 : (i 0).val < 65536 := (i 0).isLt
    have hi1 : (i 1).val < 300 := (i 1).isLt
    have hN : cfg0.N = 32 := N_0
    have hq : (i 0).val / 2048 < cfg0.N := by rw [hN]; omega
    obtain ⟨-, -, -, -, e4, e5, -⟩ := index_facts ⟨(i 0).val / 2048, hq⟩
    refine ⟨⟨(i 0).val / 2048, hq⟩, flush0_2 _, ?_⟩
    rw [mem_blk]
    intro a
    match a with
    | ⟨0, _⟩ =>
      show win0_2.index ⟨(i 0).val / 2048, hq⟩ (0 : Fin 2) * 2048 ≤ (i 0).val ∧ (i 0).val < win0_2.index ⟨(i 0).val / 2048, hq⟩ (0 : Fin 2) * 2048 + 2048
      rw [e4]; dsimp only; omega
    | ⟨1, _⟩ =>
      show win0_2.index ⟨(i 0).val / 2048, hq⟩ (1 : Fin 2) * 300 ≤ (i 1).val ∧ (i 1).val < win0_2.index ⟨(i 0).val / 2048, hq⟩ (1 : Fin 2) * 300 + 300
      rw [e5]; omega

end Cert.KernelIdeal.Call0

end
-- ==== Proof.BnnTiles.lean ====
/-
  A sum over the 65536 rows taken tile by tile, as a running total does it.

  The rows split into T consecutive tiles of P rows (row r = P · t + p). A running total that starts from the
  zero word, adds tile 0's sum, then tile 1's, … is after step n the zero word plus the sum of the first n + 1
  tile sums; the sum over all tiles of the tile sums is the sum over all rows. Addition on the extended reals is
  a commutative monoid, so no finiteness is needed. Stated for 32 tiles of 2048 rows and 8 tiles of 8192 rows.
-/
import Idealize.ShloMosaic.PureOps.Ideal.Laws
import Mathlib.Algebra.BigOperators.Fin
import Mathlib.Logic.Equiv.Fin.Basic

noncomputable section

open scoped BigOperators

namespace Cert.Bnn

open Idealize.ShloMosaic

/-- The running total over tile sums `s 0, s 1, …`: it starts from the zero word plus `s 0` and adds `s (n + 1)` at step `n + 1`. -/
def acc (s : ℕ → EReal) : ℕ → EReal
  | 0 => Ideal.ofBits .f32 0x00000000#32 + s 0
  | n + 1 => acc s n + s (n + 1)

theorem acc_zero (s : ℕ → EReal) : acc s 0 = Ideal.ofBits .f32 0x00000000#32 + s 0 := rfl
theorem acc_succ (s : ℕ → EReal) (n : ℕ) : acc s (n + 1) = acc s n + s (n + 1) := rfl

/-- After step `n` the running total is the zero word plus the first `n + 1` tile sums. -/
theorem acc_eq_sum (s : ℕ → EReal) (n : ℕ) :
    acc s n = Ideal.ofBits .f32 0x00000000#32 + ∑ t ∈ Finset.range (n + 1), s t := by
  induction n with
  | zero => rw [acc_zero, Finset.sum_range_one]
  | succ n ih => rw [acc_succ, ih, Finset.sum_range_succ _ (n + 1), add_assoc]

/-- A sum over `T · P` rows is the sum over the `T` tiles of the sums over each tile's `P` rows (row `P · t + p`). -/
theorem sum_tiles {M : Type*} [AddCommMonoid M] (T P : ℕ) (f : Fin (T * P) → M) :
    ∑ r, f r = ∑ t : Fin T, ∑ p : Fin P, f (finProdFinEquiv (t, p)) := by
  rw [← Equiv.sum_comp finProdFinEquiv f, Fintype.sum_prod_type]

/-- 32 tiles of 2048 rows. -/
theorem sum_rows_32x2048 {M : Type*} [AddCommMonoid M] (f : Fin 65536 → M) :
    ∑ t : Fin 32, ∑ p : Fin 2048, f ⟨2048 * t.val + p.val, by omega⟩ = ∑ r, f r := by
  rw [sum_tiles 32 2048 f]
  refine Finset.sum_congr rfl fun t _ => Finset.sum_congr rfl fun p _ => congrArg f (Fin.ext ?_)
  show 2048 * t.val + p.val = p.val + 2048 * t.val
  omega

/-- 8 tiles of 8192 rows. -/
theorem sum_rows_8x8192 {M : Type*} [AddCommMonoid M] (f : Fin 65536 → M) :
    ∑ t : Fin 8, ∑ p : Fin 8192, f ⟨8192 * t.val + p.val, by omega⟩ = ∑ r, f r := by
  rw [sum_tiles 8 8192 f]
  refine Finset.sum_congr rfl fun t _ => Finset.sum_congr rfl fun p _ => congrArg f (Fin.ext ?_)
  show 8192 * t.val + p.val = p.val + 8192 * t.val
  omega

/-- The same over `range`: tile sums given as a function on the naturals that agrees with the tiles below 32. -/
theorem sum_range_32x2048 (f : Fin 65536 → EReal) (s : ℕ → EReal)
    (hs : ∀ t : Fin 32, s t.val = ∑ p : Fin 2048, f ⟨2048 * t.val + p.val, by omega⟩) :
    ∑ t ∈ Finset.range 32, s t = ∑ r, f r := by
  rw [← Fin.sum_univ_eq_sum_range s 32, ← sum_rows_32x2048 f]
  exact Finset.sum_congr rfl fun t _ => hs t

theorem sum_range_8x8192 (f : Fin 65536 → EReal) (s : ℕ → EReal)
    (hs : ∀ t : Fin 8, s t.val = ∑ p : Fin 8192, f ⟨8192 * t.val + p.val, by omega⟩) :
    ∑ t ∈ Finset.range 8, s t = ∑ r, f r := by
  rw [← Fin.sum_univ_eq_sum_range s 8, ← sum_rows_8x8192 f]
  exact Finset.sum_congr rfl fun t _ => hs t

/-- THE RUNNING TOTAL OVER 32 TILES OF 2048 ROWS is the sum over all 65536 rows. -/
theorem acc_31 (f : Fin 65536 → EReal) (s : ℕ → EReal)
    (hs : ∀ t : Fin 32, s t.val = ∑ p : Fin 2048, f ⟨2048 * t.val + p.val, by omega⟩) :
    acc s 31 = ∑ r, f r := by
  rw [acc_eq_sum, Ideal.ofBits_zero_f32, zero_add, sum_range_32x2048 f s hs]

/-- THE RUNNING TOTAL OVER 8 TILES OF 8192 ROWS is the sum over all 65536 rows. -/
theorem acc_7 (f : Fin 65536 → EReal) (s : ℕ → EReal)
    (hs : ∀ t : Fin 8, s t.val = ∑ p : Fin 8192, f ⟨8192 * t.val + p.val, by omega⟩) :
    acc s 7 = ∑ r, f r := by
  rw [acc_eq_sum, Ideal.ofBits_zero_f32, zero_add, sum_range_8x8192 f s hs]

end Cert.Bnn

end
-- ==== Proof.KernelIdeal.Call0Stats.lean ====
/-
  The first matrix-product call at the exact reals: its two statistics outputs as arrays. The sum
  accumulator after point n is zero plus the column sums of blocks 0..n of the product (each point adds its block's to
  what the point before left); the 32 blocks tile the 65536 rows, so after the last point it is the column sum of
  the whole product, and likewise for the squares. The last point stores mean = sum / 65536 and
  1/sqrt(sumsq / 65536 - mean^2 + eps), and only that point's write-back reaches the two [1,300] arrays.
-/
import proofs.«117614_j79061757985000_1_alg».proof.Proof.KernelIdeal.Call0Prod
import proofs.«117614_j79061757985000_1_alg».proof.Proof.BnnTiles

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayAt

variable (V : (c : Dev nD) → (b : Ref sig .tc) → Buf (Elt Ideal) ((c : Thread nD τ).loc b))

/-- The column sums of block n of the product (of its entries; of their squares), for n below the number of points. -/
def tileSum (c : Dev nD) (j : Fin 300) (n : ℕ) : EReal :=
  if h : n < cfg0.N then ∑ p : Fin 2048, k0_pay3 (F := Ideal) (iblk V c 0 ⟨n, h⟩) (iblk V c 1 ⟨n, h⟩) (ix2 p j) else 0
def tileSq (c : Dev nD) (j : Fin 300) (n : ℕ) : EReal :=
  if h : n < cfg0.N then ∑ p : Fin 2048, k0_pay3 (F := Ideal) (iblk V c 0 ⟨n, h⟩) (iblk V c 1 ⟨n, h⟩) (ix2 p j) * k0_pay3 (F := Ideal) (iblk V c 0 ⟨n, h⟩) (iblk V c 1 ⟨n, h⟩) (ix2 p j) else 0

/-- The sum accumulator after point n is the running total of the blocks' column sums, from zero. -/
theorem sum_eq_acc (c : Dev nD) (j : Fin 300) : ∀ (n : ℕ) (h : n < cfg0.N), (leftAt V c n h).sum (ix2 0 j) = Cert.Bnn.acc (tileSum V c j) n
  | 0, h => by
    refine (congrFun (sum_first V c ⟨0, h⟩ rfl) (ix2 0 j)).trans ?_
    rw [k0_pay4_at, k0_pay1_at, Cert.Bnn.acc_zero]
    unfold tileSum; rw [dif_pos h]
  | n + 1, h => by
    refine (congrFun (sum_next V c ⟨n + 1, h⟩ (Nat.succ_ne_zero n)) (ix2 0 j)).trans ?_
    rw [k0_pay4_at, Cert.Bnn.acc_succ]
    congr 1
    · exact sum_eq_acc c j n _
    · unfold tileSum; rw [dif_pos h]

theorem sq_eq_acc (c : Dev nD) (j : Fin 300) : ∀ (n : ℕ) (h : n < cfg0.N), (leftAt V c n h).sq (ix2 0 j) = Cert.Bnn.acc (tileSq V c j) n
  | 0, h => by
    refine (congrFun (sq_first V c ⟨0, h⟩ rfl) (ix2 0 j)).trans ?_
    rw [k0_pay5_at, k0_pay2_at, Cert.Bnn.acc_zero]
    unfold tileSq; rw [dif_pos h]
  | n + 1, h => by
    refine (congrFun (sq_next V c ⟨n + 1, h⟩ (Nat.succ_ne_zero n)) (ix2 0 j)).trans ?_
    rw [k0_pay5_at, Cert.Bnn.acc_succ]
    congr 1
    · exact sq_eq_acc c j n _
    · unfold tileSq; rw [dif_pos h]

theorem tile_lt (t : Fin 32) : t.val < cfg0.N := lt_of_lt_of_eq t.isLt (show 32 = cfg0.N from N_0.symm)

/-- After the last point: the column sums of the whole product. -/
theorem sum_last (c : Dev nD) (j : Fin 300) (t : Fin cfg0.N) (hl : t.val = 31) :
    (leftAt V c t.val t.isLt).sum (ix2 0 j) = ∑ r : Fin 65536, prodAt V c r j := by
  rw [sum_eq_acc V c j t.val t.isLt, hl]
  exact Cert.Bnn.acc_31 (fun r => prodAt V c r j) (tileSum V c j) fun s => by
    unfold tileSum; rw [dif_pos (tile_lt s)]
    exact Finset.sum_congr rfl fun p _ => blockprod_at V c ⟨s.val, tile_lt s⟩ p j
theorem sq_last (c : Dev nD) (j : Fin 300) (t : Fin cfg0.N) (hl : t.val = 31) :
    (leftAt V c t.val t.isLt).sq (ix2 0 j) = ∑ r : Fin 65536, prodAt V c r j * prodAt V c r j := by
  rw [sq_eq_acc V c j t.val t.isLt, hl]
  exact Cert.Bnn.acc_31 (fun r => prodAt V c r j * prodAt V c r j) (tileSq V c j) fun s => by
    unfold tileSq; rw [dif_pos (tile_lt s)]
    exact Finset.sum_congr rfl fun p _ => by rw [blockprod_at V c ⟨s.val, tile_lt s⟩ p j]

/-- The column mean and the inverse deviation of the product, column j. -/
def meanAt (c : Dev nD) (j : Fin 300) : EReal := Ideal.div (∑ r : Fin 65536, prodAt V c r j) (Ideal.ofBits .f32 0x47800000#32)
def istdAt (c : Dev nD) (j : Fin 300) : EReal :=
  Ideal.rsqrt (Ideal.div (∑ r : Fin 65536, prodAt V c r j * prodAt V c r j) (Ideal.ofBits .f32 0x47800000#32) - meanAt V c j * meanAt V c j
    + Ideal.ofBits .f32 0x3727C5AC#32)

theorem last_of_flush (t : Fin cfg0.N) (hf : (cfg0.win 3).flush t = true) : t.val = 31 := by
  have h1 := (flush0_3 t).mp hf; have h2 := t.isLt; have h3 : cfg0.N = 32 := N_0; omega
theorem last_of_flush' (t : Fin cfg0.N) (hf : (cfg0.win 4).flush t = true) : t.val = 31 := by
  have h1 := (flush0_4 t).mp hf; have h2 := t.isLt; have h3 : cfg0.N = 32 := N_0; omega

/-- What the last point writes back into the mean array. -/
theorem flushed_mean (c : Dev nD) (t : Fin cfg0.N) (hf : (cfg0.win 3).flush t = true) :
    (dat V c).flushed 3 t = ((cfg0.win 3).blk t).view.read (Elt Ideal) (fun i => meanAt V c (i 1)) := by
  have hl := last_of_flush t hf
  obtain ⟨-, -, -, -, -, -, e6, e7, e8, e9⟩ := index_facts t
  show (cfg0.win 3).cut (grid0.coords t) ((dat V c).after 3 t) = _
  rw [after_3, mean_last V c t hl]
  funext y
  obtain ⟨z, j, rfl⟩ : ∃ (z : Fin 1) (j : Fin 300), y = ix2 z j := ⟨y 0, y 1, eq_ix2 y⟩
  obtain rfl : z = 0 := Subsingleton.elim _ _
  show k0_pay6 (F := Ideal) (leftAt V c t.val t.isLt).sum (ix2 0 j) = meanAt V c ((((cfg0.win 3).blk t).view.emb (ix2 0 j)) 1)
  rw [k0_pay6_at, sum_last V c j t hl]
  show meanAt V c j = meanAt V c ((((cfg0.win 3).blk t).view.emb (ix2 0 j)) 1)
  congr 1
  apply Fin.ext
  show j.val = win0_3.index t (1 : Fin 2) * 300 + 1 * j.val; omega

/-- What the last point writes back into the inverse-deviation array. -/
theorem flushed_istd (c : Dev nD) (t : Fin cfg0.N) (hf : (cfg0.win 4).flush t = true) :
    (dat V c).flushed 4 t = ((cfg0.win 4).blk t).view.read (Elt Ideal) (fun i => istdAt V c (i 1)) := by
  have hl := last_of_flush' t hf
  obtain ⟨-, -, -, -, -, -, e6, e7, e8, e9⟩ := index_facts t
  show (cfg0.win 4).cut (grid0.coords t) ((dat V c).after 4 t) = _
  rw [after_4, istd_last V c t hl]
  funext y
  obtain ⟨z, j, rfl⟩ : ∃ (z : Fin 1) (j : Fin 300), y = ix2 z j := ⟨y 0, y 1, eq_ix2 y⟩
  obtain rfl : z = 0 := Subsingleton.elim _ _
  show k0_pay7 (F := Ideal) (leftAt V c t.val t.isLt).sum (leftAt V c t.val t.isLt).sq (ix2 0 j) = istdAt V c ((((cfg0.win 4).blk t).view.emb (ix2 0 j)) 1)
  rw [k0_pay7_at, k0_pay6_at, sum_last V c j t hl, sq_last V c j t hl]
  show istdAt V c j = istdAt V c ((((cfg0.win 4).blk t).view.emb (ix2 0 j)) 1)
  congr 1
  apply Fin.ext
  show j.val = win0_4.index t (1 : Fin 2) * 300 + 1 * j.val; omega

theorem lastPt_lt : 31 < cfg0.N := by rw [show cfg0.N = 32 from N_0]; decide

theorem mem_blk_mean (t : Fin cfg0.N) (i : S1x300.Idx) :
    i ∈ ((cfg0.win 3).blk t).view.set ↔ ∀ a : Fin 2, win0_3.index t a * S1x300.size a ≤ (i a).val ∧ (i a).val < win0_3.index t a * S1x300.size a + S1x300.size a := by
  show i ∈ ((View.whole main_v14_1).slice (win0_3.rect t)).set ↔ _
  rw [View.set_slice_whole, Rect.mem_set_unit]
  exact Iff.rfl
theorem mem_blk_istd (t : Fin cfg0.N) (i : S1x300.Idx) :
    i ∈ ((cfg0.win 4).blk t).view.set ↔ ∀ a : Fin 2, win0_4.index t a * S1x300.size a ≤ (i a).val ∧ (i a).val < win0_4.index t a * S1x300.size a + S1x300.size a := by
  show i ∈ ((View.whole main_v14_2).slice (win0_4.rect t)).set ↔ _
  rw [View.set_slice_whole, Rect.mem_set_unit]
  exact Iff.rfl

/-- The mean array after the call. -/
theorem final_mean (c : Dev nD) : (dat V c).arrAt 3 cfg0.N = fun i => meanAt V c (i 1) :=
  (dat V c).arrAt_eq_of_cover 3 _ (flushed_mean V c) fun i => by
    have hi0 : (i 0).val < 1 := (i 0).isLt
    have hi1 : (i 1).val < 300 := (i 1).isLt
    obtain ⟨-, -, -, -, -, -, e6, e7, e8, e9⟩ := index_facts ⟨31, lastPt_lt⟩
    refine ⟨⟨31, lastPt_lt⟩, (flush0_3 _).mpr rfl, ?_⟩
    rw [mem_blk_mean]
    intro a
    match a with
    | ⟨0, _⟩ =>
      show win0_3.index ⟨31, lastPt_lt⟩ (0 : Fin 2) * 1 ≤ (i 0).val ∧ (i 0).val < win0_3.index ⟨31, lastPt_lt⟩ (0 : Fin 2) * 1 + 1
      rw [e6]; omega
    | ⟨1, _⟩ =>
      show win0_3.index ⟨31, lastPt_lt⟩ (1 : Fin 2) * 300 ≤ (i 1).val ∧ (i 1).val < win0_3.index ⟨31, lastPt_lt⟩ (1 : Fin 2) * 300 + 300
      rw [e7]; omega

/-- The inverse-deviation array after the call. -/
theorem final_istd (c : Dev nD) : (dat V c).arrAt 4 cfg0.N = fun i => istdAt V c (i 1) :=
  (dat V c).arrAt_eq_of_cover 4 _ (flushed_istd V c) fun i => by
    have hi0 : (i 0).val < 1 := (i 0).isLt
    have hi1 : (i 1).val < 300 := (i 1).isLt
    obtain ⟨-, -, -, -, -, -, e6, e7, e8, e9⟩ := index_facts ⟨31, lastPt_lt⟩
    refine ⟨⟨31, lastPt_lt⟩, (flush0_4 _).mpr rfl, ?_⟩
    rw [mem_blk_istd]
    intro a
    match a with
    | ⟨0, _⟩ =>
      show win0_4.index ⟨31, lastPt_lt⟩ (0 : Fin 2) * 1 ≤ (i 0).val ∧ (i 0).val < win0_4.index ⟨31, lastPt_lt⟩ (0 : Fin 2) * 1 + 1
      rw [e8]; omega
    | ⟨1, _⟩ =>
      show win0_4.index ⟨31, lastPt_lt⟩ (1 : Fin 2) * 300 ≤ (i 1).val ∧ (i 1).val < win0_4.index ⟨31, lastPt_lt⟩ (1 : Fin 2) * 300 + 300
      rw [e9]; omega

end Cert.KernelIdeal.Call0

end
-- ==== Proof.KernelIdeal.Call1Values.lean ====
/-
  The second matrix-product call: what each point leaves, as the body's arithmetic of what it read. The product block
  is the block of normalised rows times the second sign matrix; each accumulator is its previous contents plus the
  block's column sums (of the entries; of their squares) - at the first point the previous contents are the zeros just
  stored; at the last point the mean is the sum accumulator / 65536 and the inverse deviation
  1/sqrt(sumsq / 65536 - mean^2 + eps), both of the accumulators as this point leaves them.
-/
import proofs.«117614_j79061757985000_1_alg».proof.Proof.KernelIdeal.Call1Points
import Idealize.ShloMosaic.Lib.Pipeline.Value

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem first_prod (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i)
    (x0 : Vec F S8192x300 .f32) (x1 x2 x3 x4 : Vec F S1x300 .f32) (x5 : Vec F S300x10 .bf16) :
    (leftFirst c i arg1 harg1 arg2 harg2 arg3 harg3 arg4 harg4 arg5 harg5 arg6 harg6 arg7 harg7 arg8 harg8 arg9 harg9 arg10 harg10 arg11 harg11 hc0 hc1 x0 x1 x2 x3 x4 x5).prod = k1_pay6 x0 x1 x2 x3 x4 x5 := by
  unfold leftFirst; dsimp only [rd6]
  rw [View.read_writes_eq_canon _ _ _ (cov6_first c i arg1 harg1 arg2 harg2 arg3 harg3 arg4 harg4 arg5 harg5 arg6 harg6 arg7 harg7 arg8 harg8 arg9 harg9 arg10 harg10 arg11 harg11 hc0 hc1 x0 x1 x2 x3 x4 x5)]
  unfold runFirst
  dsimp only
  sl_unfold_words
  first | rw [View.canon_unit_zero hz] | rw [View.canon_cons_unit_zero (S := S8192x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem first_sum (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i)
    (x0 : Vec F S8192x300 .f32) (x1 x2 x3 x4 : Vec F S1x300 .f32) (x5 : Vec F S300x10 .bf16) :
    (leftFirst c i arg1 harg1 arg2 harg2 arg3 harg3 arg4 harg4 arg5 harg5 arg6 harg6 arg7 harg7 arg8 harg8 arg9 harg9 arg10 harg10 arg11 harg11 hc0 hc1 x0 x1 x2 x3 x4 x5).sum = k1_pay7 x0 x1 x2 x3 x4 x5 (k1_pay4 (F := F)) := by
  unfold leftFirst; dsimp only [rdS0]
  rw [View.read_writes_eq_canon _ _ _ (covS0_first c i arg1 harg1 arg2 harg2 arg3 harg3 arg4 harg4 arg5 harg5 arg6 harg6 arg7 harg7 arg8 harg8 arg9 harg9 arg10 harg10 arg11 harg11 hc0 hc1 x0 x1 x2 x3 x4 x5)]
  unfold runFirst
  dsimp only
  sl_unfold_words
  first | rw [View.canon_unit_zero hz] | rw [View.canon_cons_unit_zero (S := S1x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem first_sq (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : isFirst i) (hc1 : ¬isLast i)
    (x0 : Vec F S8192x300 .f32) (x1 x2 x3 x4 : Vec F S1x300 .f32) (x5 : Vec F S300x10 .bf16) :
    (leftFirst c i arg1 harg1 arg2 harg2 arg3 harg3 arg4 harg4 arg5 harg5 arg6 harg6 arg7 harg7 arg8 harg8 arg9 harg9 arg10 harg10 arg11 harg11 hc0 hc1 x0 x1 x2 x3 x4 x5).sq = k1_pay1 (k1_pay6 x0 x1 x2 x3 x4 x5) (k1_pay5 (F := F)) := by
  unfold leftFirst; dsimp only [rdS1]
  rw [View.read_writes_eq_canon _ _ _ (covS1_first c i arg1 harg1 arg2 harg2 arg3 harg3 arg4 harg4 arg5 harg5 arg6 harg6 arg7 harg7 arg8 harg8 arg9 harg9 arg10 harg10 arg11 harg11 hc0 hc1 x0 x1 x2 x3 x4 x5)]
  unfold runFirst
  dsimp only
  sl_unfold_words
  first | rw [View.canon_unit_zero hz] | rw [View.canon_cons_unit_zero (S := S1x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem mid_prod (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i)
    (x0 : Vec F S8192x300 .f32) (x1 x2 x3 x4 : Vec F S1x300 .f32) (x5 : Vec F S300x10 .bf16) (xs0 xs1 : Vec F S1x10 .f32) :
    (leftMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1).prod = k1_pay6 x0 x1 x2 x3 x4 x5 := by
  unfold leftMid; dsimp only [rd6]
  rw [View.read_writes_eq_canon _ _ _ (cov6_mid c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold runMid
  dsimp only
  sl_unfold_words
  first | rw [View.canon_unit_zero hz] | rw [View.canon_cons_unit_zero (S := S8192x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem mid_sum (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i)
    (x0 : Vec F S8192x300 .f32) (x1 x2 x3 x4 : Vec F S1x300 .f32) (x5 : Vec F S300x10 .bf16) (xs0 xs1 : Vec F S1x10 .f32) :
    (leftMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sum = k1_pay7 x0 x1 x2 x3 x4 x5 xs0 := by
  unfold leftMid; dsimp only [rdS0]
  rw [View.read_writes_eq_canon _ _ _ (covS0_mid c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold runMid
  dsimp only
  sl_unfold_words
  first | rw [View.canon_unit_zero hz] | rw [View.canon_cons_unit_zero (S := S1x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem mid_sq (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : ¬isLast i)
    (x0 : Vec F S8192x300 .f32) (x1 x2 x3 x4 : Vec F S1x300 .f32) (x5 : Vec F S300x10 .bf16) (xs0 xs1 : Vec F S1x10 .f32) :
    (leftMid c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sq = k1_pay1 (k1_pay6 x0 x1 x2 x3 x4 x5) xs1 := by
  unfold leftMid; dsimp only [rdS1]
  rw [View.read_writes_eq_canon _ _ _ (covS1_mid c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold runMid
  dsimp only
  sl_unfold_words
  first | rw [View.canon_unit_zero hz] | rw [View.canon_cons_unit_zero (S := S1x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem last_prod (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i)
    (x0 : Vec F S8192x300 .f32) (x1 x2 x3 x4 : Vec F S1x300 .f32) (x5 : Vec F S300x10 .bf16) (xs0 xs1 : Vec F S1x10 .f32) :
    (leftLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).prod = k1_pay6 x0 x1 x2 x3 x4 x5 := by
  unfold leftLast; dsimp only [rd6]
  rw [View.read_writes_eq_canon _ _ _ (cov6_last c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold runLast
  dsimp only
  sl_unfold_words
  first | rw [View.canon_unit_zero hz] | rw [View.canon_cons_unit_zero (S := S8192x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem last_sum (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i)
    (x0 : Vec F S8192x300 .f32) (x1 x2 x3 x4 : Vec F S1x300 .f32) (x5 : Vec F S300x10 .bf16) (xs0 xs1 : Vec F S1x10 .f32) :
    (leftLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sum = k1_pay7 x0 x1 x2 x3 x4 x5 xs0 := by
  unfold leftLast; dsimp only [rdS0]
  rw [View.read_writes_eq_canon _ _ _ (covS0_last c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold runLast
  dsimp only
  sl_unfold_words
  first | rw [View.canon_unit_zero hz] | rw [View.canon_cons_unit_zero (S := S1x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem last_sq (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i)
    (x0 : Vec F S8192x300 .f32) (x1 x2 x3 x4 : Vec F S1x300 .f32) (x5 : Vec F S300x10 .bf16) (xs0 xs1 : Vec F S1x10 .f32) :
    (leftLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).sq = k1_pay1 (k1_pay6 x0 x1 x2 x3 x4 x5) xs1 := by
  unfold leftLast; dsimp only [rdS1]
  rw [View.read_writes_eq_canon _ _ _ (covS1_last c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold runLast
  dsimp only
  sl_unfold_words
  first | rw [View.canon_unit_zero hz] | rw [View.canon_cons_unit_zero (S := S1x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem last_mean (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i)
    (x0 : Vec F S8192x300 .f32) (x1 x2 x3 x4 : Vec F S1x300 .f32) (x5 : Vec F S300x10 .bf16) (xs0 xs1 : Vec F S1x10 .f32) :
    (leftLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).mean = k1_pay2 (k1_pay7 x0 x1 x2 x3 x4 x5 xs0) := by
  unfold leftLast; dsimp only [rd7]
  rw [View.read_writes_eq_canon _ _ _ (cov7_last c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold runLast
  dsimp only
  sl_unfold_words
  first | rw [View.canon_unit_zero hz] | rw [View.canon_cons_unit_zero (S := S1x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

theorem last_istd (c : Dev nD) (i : grid1.Coords) (arg1 : Memref sig .tc .vmem S8192x300 .f32) (harg1 : arg1.IsWhole) (arg2 : Memref sig .tc .vmem S1x300 .f32) (harg2 : arg2.IsWhole) (arg3 : Memref sig .tc .vmem S1x300 .f32) (harg3 : arg3.IsWhole) (arg4 : Memref sig .tc .vmem S1x300 .f32) (harg4 : arg4.IsWhole) (arg5 : Memref sig .tc .vmem S1x300 .f32) (harg5 : arg5.IsWhole) (arg6 : Memref sig .tc .vmem S300x10 .bf16) (harg6 : arg6.IsWhole) (arg7 : Memref sig .tc .vmem S8192x10 .f32) (harg7 : arg7.IsWhole) (arg8 : Memref sig .tc .vmem S1x10 .f32) (harg8 : arg8.IsWhole) (arg9 : Memref sig .tc .vmem S1x10 .f32) (harg9 : arg9.IsWhole) (arg10 : Memref sig .tc .vmem S1x10 .f32) (harg10 : arg10.IsWhole) (arg11 : Memref sig .tc .vmem S1x10 .f32) (harg11 : arg11.IsWhole) (hc0 : ¬isFirst i) (hc1 : isLast i)
    (x0 : Vec F S8192x300 .f32) (x1 x2 x3 x4 : Vec F S1x300 .f32) (x5 : Vec F S300x10 .bf16) (xs0 xs1 : Vec F S1x10 .f32) :
    (leftLast c i arg1 harg1 arg2 harg2 arg3 harg3 arg4 harg4 arg5 harg5 arg6 harg6 arg7 harg7 arg8 harg8 arg9 harg9 arg10 harg10 arg11 harg11 hc0 hc1 x0 x1 x2 x3 x4 x5 xs0 xs1).istd = k1_pay3 (k1_pay7 x0 x1 x2 x3 x4 x5 xs0) (k1_pay1 (k1_pay6 x0 x1 x2 x3 x4 x5) xs1) := by
  unfold leftLast; dsimp only [rd8]
  rw [View.read_writes_eq_canon _ _ _ (cov8_last c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold runLast
  dsimp only
  sl_unfold_words
  first | rw [View.canon_unit_zero hz] | rw [View.canon_cons_unit_zero (S := S1x10) hz]
  try simp only [View.readCov_unit_zero (S := S1x10) _ hz]
  simp only [View.readAt_eq_ld, harg1.read_unread, harg2.read_unread, harg3.read_unread, harg4.read_unread, harg5.read_unread, harg6.read_unread, harg10.read_unread, harg11.read_unread, View.ld_unit_zero (S := S8192x300) hz, View.ld_unit_zero (S := S1x300) hz, View.ld_unit_zero (S := S300x10) hz, View.ld_unit_zero (S := S1x10) hz]

end Cert.KernelIdeal.Call1

end
-- ==== Proof.KernelIdeal.Call1Chain.lean ====
/-
  The second matrix-product call: the recurrence of what the points leave. The product block of
  point t is the body's matrix product of the blocks read at t; the sum accumulator after point 0 is the zeros plus the
  block's column sums, and after point t > 0 what point t-1 left plus the block's column sums (likewise the squares);
  at the last point the mean and the inverse deviation are computed from the accumulators as that point leaves them.
-/
import proofs.«117614_j79061757985000_1_alg».proof.Proof.KernelIdeal.Call1Values

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem prod_at (c : Dev nD) (t : Fin cfg1.N) : (leftAt V c t.val t.isLt).prod = k1_pay6 (iblk V c 0 t) (iblk V c 1 t) (iblk V c 2 t) (iblk V c 3 t) (iblk V c 4 t) (iblk V c 5 t) := by
  have hN : t.val < 8 := lt_of_lt_of_eq t.isLt (show cfg1.N = 8 from N_1)
  by_cases h0 : t.val = 0
  · rw [leftAt_first V c t h0 (by omega), first_prod]
  · by_cases h1 : t.val = 7
    · rw [leftAt_last V c t h0 h1, last_prod]
    · rw [leftAt_mid V c t h0 h1, mid_prod]

theorem sum_first (c : Dev nD) (t : Fin cfg1.N) (h0 : t.val = 0) : (leftAt V c t.val t.isLt).sum = k1_pay7 (iblk V c 0 t) (iblk V c 1 t) (iblk V c 2 t) (iblk V c 3 t) (iblk V c 4 t) (iblk V c 5 t) (k1_pay4 (F := F)) := by
  rw [leftAt_first V c t h0 (by omega), first_sum]
theorem sq_first (c : Dev nD) (t : Fin cfg1.N) (h0 : t.val = 0) : (leftAt V c t.val t.isLt).sq = k1_pay1 (k1_pay6 (iblk V c 0 t) (iblk V c 1 t) (iblk V c 2 t) (iblk V c 3 t) (iblk V c 4 t) (iblk V c 5 t)) (k1_pay5 (F := F)) := by
  rw [leftAt_first V c t h0 (by omega), first_sq]

theorem sum_next (c : Dev nD) (t : Fin cfg1.N) (h0 : ¬t.val = 0) :
    (leftAt V c t.val t.isLt).sum = k1_pay7 (iblk V c 0 t) (iblk V c 1 t) (iblk V c 2 t) (iblk V c 3 t) (iblk V c 4 t) (iblk V c 5 t) (leftAt V c (t.val - 1) (Nat.lt_of_le_of_lt (Nat.sub_le _ _) t.isLt)).sum := by
  by_cases h1 : t.val = 7
  · rw [leftAt_last V c t h0 h1, last_sum]
  · rw [leftAt_mid V c t h0 h1, mid_sum]
theorem sq_next (c : Dev nD) (t : Fin cfg1.N) (h0 : ¬t.val = 0) :
    (leftAt V c t.val t.isLt).sq = k1_pay1 (k1_pay6 (iblk V c 0 t) (iblk V c 1 t) (iblk V c 2 t) (iblk V c 3 t) (iblk V c 4 t) (iblk V c 5 t)) (leftAt V c (t.val - 1) (Nat.lt_of_le_of_lt (Nat.sub_le _ _) t.isLt)).sq := by
  by_cases h1 : t.val = 7
  · rw [leftAt_last V c t h0 h1, last_sq]
  · rw [leftAt_mid V c t h0 h1, mid_sq]

theorem mean_last (c : Dev nD) (t : Fin cfg1.N) (h1 : t.val = 7) :
    (leftAt V c t.val t.isLt).mean = k1_pay2 (leftAt V c t.val t.isLt).sum := by
  have h0 : ¬t.val = 0 := by omega
  rw [leftAt_last V c t h0 h1, last_mean, last_sum]
theorem istd_last (c : Dev nD) (t : Fin cfg1.N) (h1 : t.val = 7) :
    (leftAt V c t.val t.isLt).istd = k1_pay3 (leftAt V c t.val t.isLt).sum (leftAt V c t.val t.isLt).sq := by
  have h0 : ¬t.val = 0 := by omega
  rw [leftAt_last V c t h0 h1, last_istd, last_sum, last_sq]

end Cert.KernelIdeal.Call1

end
-- ==== Proof.KernelIdeal.Call1Prod.lean ====
/-
  The second matrix-product call at the exact reals: its product output as one array. Point t's block is rows
  [8192 t, 8192 (t+1)); the block the body stores is, entry (p, i), the sum over j of the normalised entry
  ((h(p, j) - mean(j)) * istd(j)) * gamma(j) + beta(j) times the second sign matrix at (j, i); the block of h at point
  t is rows [8192 t, 8192 (t+1)) of h and the other five windows' only block is their whole array. The 8 blocks tile the
  65536 rows.
-/
import proofs.«117614_j79061757985000_1_alg».proof.Proof.KernelIdeal.Call1Chain
import proofs.«117614_j79061757985000_1_alg».proof.Proof.KernelIdeal.PayloadsAt
import Idealize.ShloMosaic.Lib.Pipeline.Value
import Idealize.ShloMosaic.Lib.ValueIdx

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayAt

variable (V : (c : Dev nD) → (b : Ref sig .tc) → Buf (Elt Ideal) ((c : Thread nD τ).loc b))

/-- Where each window's block sits at point t: the two row-blocked windows move with t, everything else is block (0, 0). -/
theorem index_facts : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

abbrev hArr (c : Dev nD) : S65536x300.Idx → EReal := V c main_v14_0
abbrev m1Arr (c : Dev nD) : S1x300.Idx → EReal := V c main_v14_1
abbrev i1Arr (c : Dev nD) : S1x300.Idx → EReal := V c main_v14_2
abbrev g1Arr (c : Dev nD) : S1x300.Idx → EReal := V c main_v10
abbrev b1Arr (c : Dev nD) : S1x300.Idx → EReal := V c main_v11
abbrev w2Arr (c : Dev nD) : S300x10.Idx → EReal := V c main_v9

/-- The normalised, scaled and shifted entry (r, j) of the first product. -/
def normAt (c : Dev nD) (r : Fin 65536) (j : Fin 300) : EReal :=
  (((hArr V c (ix2 r j) - m1Arr V c (ix2 0 j)) * i1Arr V c (ix2 0 j)) * g1Arr V c (ix2 0 j)) + b1Arr V c (ix2 0 j)
/-- Entry (r, i) of the normalised rows times the second sign matrix. -/
def prodAt (c : Dev nD) (r : Fin 65536) (i : Fin 10) : EReal := ∑ j : Fin 300, normAt V c r j * w2Arr V c (ix2 j i)

theorem row_lt (t : Fin cfg1.N) (p : Fin 8192) : 8192 * t.val + p.val < 65536 := by
  have h1 := t.isLt; have h2 : cfg1.N = 8 := N_1; have h3 := p.isLt; omega

/-- The block of h at point t is rows 8192 t + p of h. -/
theorem hblk_at (c : Dev nD) (t : Fin cfg1.N) (p : Fin 8192) (j : Fin 300) :
    iblk V c 0 t (ix2 p j) = hArr V c (ix2 ⟨8192 * t.val + p.val, row_lt t p⟩ j) := by
  have hf := index_facts t
  show V c main_v14_0 (((cfg1.win 0).blk t).view.emb (ix2 p j)) = V c main_v14_0 (ix2 ⟨8192 * t.val + p.val, row_lt t p⟩ j)
  congr 1
  funext a; apply Fin.ext
  match a with
  | ⟨0, _⟩ => show win1_0.index t (0 : Fin 2) * 8192 + 1 * p.val = 8192 * t.val + p.val; omega
  | ⟨1, _⟩ => show win1_0.index t (1 : Fin 2) * 300 + 1 * j.val = j.val; omega

theorem m1blk_at (c : Dev nD) (t : Fin cfg1.N) (z : Fin 1) (j : Fin 300) :
    iblk V c 1 t (ix2 z j) = (V c main_v14_1 : S1x300.Idx → EReal) (ix2 z j) := by
  have hf := index_facts t
  show V c main_v14_1 (((cfg1.win 1).blk t).view.emb (ix2 z j)) = V c main_v14_1 (ix2 z j)
  congr 1
  funext a; apply Fin.ext
  match a with
  | ⟨0, _⟩ => show win1_1.index t (0 : Fin 2) * 1 + 1 * z.val = z.val; omega
  | ⟨1, _⟩ => show win1_1.index t (1 : Fin 2) * 300 + 1 * j.val = j.val; omega
theorem i1blk_at (c : Dev nD) (t : Fin cfg1.N) (z : Fin 1) (j : Fin 300) :
    iblk V c 2 t (ix2 z j) = (V c main_v14_2 : S1x300.Idx → EReal) (ix2 z j) := by
  have hf := index_facts t
  show V c main_v14_2 (((cfg1.win 2).blk t).view.emb (ix2 z j)) = V c main_v14_2 (ix2 z j)
  congr 1
  funext a; apply Fin.ext
  match a with
  | ⟨0, _⟩ => show win1_2.index t (0 : Fin 2) * 1 + 1 * z.val = z.val; omega
  | ⟨1, _⟩ => show win1_2.index t (1 : Fin 2) * 300 + 1 * j.val = j.val; omega
theorem g1blk_at (c : Dev nD) (t : Fin cfg1.N) (z : Fin 1) (j : Fin 300) :
    iblk V c 3 t (ix2 z j) = (V c main_v10 : S1x300.Idx → EReal) (ix2 z j) := by
  have hf := index_facts t
  show V c main_v10 (((cfg1.win 3).blk t).view.emb (ix2 z j)) = V c main_v10 (ix2 z j)
  congr 1
  funext a; apply Fin.ext
  match a with
  | ⟨0, _⟩ => show win1_3.index t (0 : Fin 2) * 1 + 1 * z.val = z.val; omega
  | ⟨1, _⟩ => show win1_3.index t (1 : Fin 2) * 300 + 1 * j.val = j.val; omega
theorem b1blk_at (c : Dev nD) (t : Fin cfg1.N) (z : Fin 1) (j : Fin 300) :
    iblk V c 4 t (ix2 z j) = (V c main_v11 : S1x300.Idx → EReal) (ix2 z j) := by
  have hf := index_facts t
  show V c main_v11 (((cfg1.win 4).blk t).view.emb (ix2 z j)) = V c main_v11 (ix2 z j)
  congr 1
  funext a; apply Fin.ext
  match a with
  | ⟨0, _⟩ => show win1_4.index t (0 : Fin 2) * 1 + 1 * z.val = z.val; omega
  | ⟨1, _⟩ => show win1_4.index t (1 : Fin 2) * 300 + 1 * j.val = j.val; omega
theorem w2blk_at (c : Dev nD) (t : Fin cfg1.N) (z : Fin 300) (j : Fin 10) :
    iblk V c 5 t (ix2 z j) = (V c main_v9 : S300x10.Idx → EReal) (ix2 z j) := by
  have hf := index_facts t
  show V c main_v9 (((cfg1.win 5).blk t).view.emb (ix2 z j)) = V c main_v9 (ix2 z j)
  congr 1
  funext a; apply Fin.ext
  match a with
  | ⟨0, _⟩ => show win1_5.index t (0 : Fin 2) * 300 + 1 * z.val = z.val; omega
  | ⟨1, _⟩ => show win1_5.index t (1 : Fin 2) * 10 + 1 * j.val = j.val; omega

/-- The body's product of the blocks at point t is the block of the whole product. -/
theorem blockprod_at (c : Dev nD) (t : Fin cfg1.N) (p : Fin 8192) (i : Fin 10) :
    k1_pay6 (F := Ideal) (iblk V c 0 t) (iblk V c 1 t) (iblk V c 2 t) (iblk V c 3 t) (iblk V c 4 t) (iblk V c 5 t) (ix2 p i) = prodAt V c ⟨8192 * t.val + p.val, row_lt t p⟩ i := by
  rw [k1_pay6_at]
  unfold prodAt normAt
  exact Finset.sum_congr rfl fun j _ => by rw [hblk_at, m1blk_at, i1blk_at, g1blk_at, b1blk_at, w2blk_at]

/-- What point t writes back is block t of the product. -/
theorem flushed_prod (c : Dev nD) (t : Fin cfg1.N) :
    (dat V c).flushed 6 t = ((cfg1.win 6).blk t).view.read (Elt Ideal) (fun i => prodAt V c (i 0) (i 1)) := by
  have hf := index_facts t
  show (cfg1.win 6).cut (grid1.coords t) ((dat V c).after 6 t) = _
  rw [after_6, prod_at]
  funext y
  obtain ⟨p, i, rfl⟩ : ∃ (p : Fin 8192) (i : Fin 10), y = ix2 p i := ⟨y 0, y 1, eq_ix2 y⟩
  refine (blockprod_at V c t p i).trans ?_
  show prodAt V c _ i = prodAt V c ((((cfg1.win 6).blk t).view.emb (ix2 p i)) 0) ((((cfg1.win 6).blk t).view.emb (ix2 p i)) 1)
  congr 1
  · apply Fin.ext
    show 8192 * t.val + p.val = win1_6.index t (0 : Fin 2) * 8192 + 1 * p.val; omega
  · apply Fin.ext
    show i.val = win1_6.index t (1 : Fin 2) * 10 + 1 * i.val; omega

theorem mem_blk (t : Fin cfg1.N) (i : S65536x10.Idx) :
    i ∈ ((cfg1.win 6).blk t).view.set ↔ ∀ a : Fin 2, win1_6.index t a * S8192x10.size a ≤ (i a).val ∧ (i a).val < win1_6.index t a * S8192x10.size a + S8192x10.size a := by
  show i ∈ ((View.whole main_v15_0).slice (win1_6.rect t)).set ↔ _
  rw [View.set_slice_whole, Rect.mem_set_unit]
  exact Iff.rfl

/-- The product array after the call. -/
theorem final_prod (c : Dev nD) : (dat V c).arrAt 6 cfg1.N = fun i => prodAt V c (i 0) (i 1) :=
  (dat V c).arrAt_eq_of_cover 6 _ (fun t _ => flushed_prod V c t) fun i => by
    have hi0 : (i 0).val < 65536 := (i 0).isLt
    have hi1 : (i 1).val < 10 := (i 1).isLt
    have hN : cfg1.N = 8 := N_1
    have hq : (i 0).val / 8192 < cfg1.N := by rw [hN]; omega
    have hf := index_facts ⟨(i 0).val / 8192, hq⟩
    refine ⟨⟨(i 0).val / 8192, hq⟩, flush1_6 _, ?_⟩
    rw [mem_blk]
    intro a
    match a with
    | ⟨0, _⟩ =>
      show win1_6.index ⟨(i 0).val / 8192, hq⟩ (0 : Fin 2) * 8192 ≤ (i 0).val ∧ (i 0).val < win1_6.index ⟨(i 0).val / 8192, hq⟩ (0 : Fin 2) * 8192 + 8192
      rw [hf.2.2.2.2.2.2.2.2.2.2.2.2.1]; dsimp only; omega
    | ⟨1, _⟩ =>
      show win1_6.index ⟨(i 0).val / 8192, hq⟩ (1 : Fin 2) * 10 ≤ (i 1).val ∧ (i 1).val < win1_6.index ⟨(i 0).val / 8192, hq⟩ (1 : Fin 2) * 10 + 10
      rw [hf.2.2.2.2.2.2.2.2.2.2.2.2.2.1]; omega

end Cert.KernelIdeal.Call1

end
-- ==== Proof.KernelIdeal.Call1Stats.lean ====
/-
  The second matrix-product call at the exact reals: its two statistics outputs as arrays. The sum
  accumulator after point n is zero plus the column sums of blocks 0..n of the product (each point adds its block's to
  what the point before left); the 8 blocks tile the 65536 rows, so after the last point it is the column sum of
  the whole product, and likewise for the squares. The last point stores mean = sum / 65536 and
  1/sqrt(sumsq / 65536 - mean^2 + eps), and only that point's write-back reaches the two [1,10] arrays.
-/
import proofs.«117614_j79061757985000_1_alg».proof.Proof.KernelIdeal.Call1Prod
import proofs.«117614_j79061757985000_1_alg».proof.Proof.BnnTiles

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayAt

variable (V : (c : Dev nD) → (b : Ref sig .tc) → Buf (Elt Ideal) ((c : Thread nD τ).loc b))

/-- The column sums of block n of the product (of its entries; of their squares), for n below the number of points. -/
def tileSum (c : Dev nD) (j : Fin 10) (n : ℕ) : EReal :=
  if h : n < cfg1.N then ∑ p : Fin 8192, k1_pay6 (F := Ideal) (iblk V c 0 ⟨n, h⟩) (iblk V c 1 ⟨n, h⟩) (iblk V c 2 ⟨n, h⟩) (iblk V c 3 ⟨n, h⟩) (iblk V c 4 ⟨n, h⟩) (iblk V c 5 ⟨n, h⟩) (ix2 p j) else 0
def tileSq (c : Dev nD) (j : Fin 10) (n : ℕ) : EReal :=
  if h : n < cfg1.N then ∑ p : Fin 8192, k1_pay6 (F := Ideal) (iblk V c 0 ⟨n, h⟩) (iblk V c 1 ⟨n, h⟩) (iblk V c 2 ⟨n, h⟩) (iblk V c 3 ⟨n, h⟩) (iblk V c 4 ⟨n, h⟩) (iblk V c 5 ⟨n, h⟩) (ix2 p j) * k1_pay6 (F := Ideal) (iblk V c 0 ⟨n, h⟩) (iblk V c 1 ⟨n, h⟩) (iblk V c 2 ⟨n, h⟩) (iblk V c 3 ⟨n, h⟩) (iblk V c 4 ⟨n, h⟩) (iblk V c 5 ⟨n, h⟩) (ix2 p j) else 0

/-- The sum accumulator after point n is the running total of the blocks' column sums, from zero. -/
theorem sum_eq_acc (c : Dev nD) (j : Fin 10) : ∀ (n : ℕ) (h : n < cfg1.N), (leftAt V c n h).sum (ix2 0 j) = Cert.Bnn.acc (tileSum V c j) n
  | 0, h => by
    refine (congrFun (sum_first V c ⟨0, h⟩ rfl) (ix2 0 j)).trans ?_
    rw [k1_pay7_at, k1_pay4_at, Cert.Bnn.acc_zero]
    unfold tileSum; rw [dif_pos h]
  | n + 1, h => by
    refine (congrFun (sum_next V c ⟨n + 1, h⟩ (Nat.succ_ne_zero n)) (ix2 0 j)).trans ?_
    rw [k1_pay7_at, Cert.Bnn.acc_succ]
    congr 1
    · exact sum_eq_acc c j n _
    · unfold tileSum; rw [dif_pos h]

theorem sq_eq_acc (c : Dev nD) (j : Fin 10) : ∀ (n : ℕ) (h : n < cfg1.N), (leftAt V c n h).sq (ix2 0 j) = Cert.Bnn.acc (tileSq V c j) n
  | 0, h => by
    refine (congrFun (sq_first V c ⟨0, h⟩ rfl) (ix2 0 j)).trans ?_
    rw [k1_pay1_at, k1_pay5_at, Cert.Bnn.acc_zero]
    unfold tileSq; rw [dif_pos h]
  | n + 1, h => by
    refine (congrFun (sq_next V c ⟨n + 1, h⟩ (Nat.succ_ne_zero n)) (ix2 0 j)).trans ?_
    rw [k1_pay1_at, Cert.Bnn.acc_succ]
    congr 1
    · exact sq_eq_acc c j n _
    · unfold tileSq; rw [dif_pos h]

theorem tile_lt (t : Fin 8) : t.val < cfg1.N := lt_of_lt_of_eq t.isLt (show 8 = cfg1.N from N_1.symm)

/-- After the last point: the column sums of the whole product. -/
theorem sum_last (c : Dev nD) (j : Fin 10) (t : Fin cfg1.N) (hl : t.val = 7) :
    (leftAt V c t.val t.isLt).sum (ix2 0 j) = ∑ r : Fin 65536, prodAt V c r j := by
  rw [sum_eq_acc V c j t.val t.isLt, hl]
  exact Cert.Bnn.acc_7 (fun r => prodAt V c r j) (tileSum V c j) fun s => by
    unfold tileSum; rw [dif_pos (tile_lt s)]
    exact Finset.sum_congr rfl fun p _ => blockprod_at V c ⟨s.val, tile_lt s⟩ p j
theorem sq_last (c : Dev nD) (j : Fin 10) (t : Fin cfg1.N) (hl : t.val = 7) :
    (leftAt V c t.val t.isLt).sq (ix2 0 j) = ∑ r : Fin 65536, prodAt V c r j * prodAt V c r j := by
  rw [sq_eq_acc V c j t.val t.isLt, hl]
  exact Cert.Bnn.acc_7 (fun r => prodAt V c r j * prodAt V c r j) (tileSq V c j) fun s => by
    unfold tileSq; rw [dif_pos (tile_lt s)]
    exact Finset.sum_congr rfl fun p _ => by rw [blockprod_at V c ⟨s.val, tile_lt s⟩ p j]

/-- The column mean and the inverse deviation of the product, column j. -/
def meanAt (c : Dev nD) (j : Fin 10) : EReal := Ideal.div (∑ r : Fin 65536, prodAt V c r j) (Ideal.ofBits .f32 0x47800000#32)
def istdAt (c : Dev nD) (j : Fin 10) : EReal :=
  Ideal.rsqrt (Ideal.div (∑ r : Fin 65536, prodAt V c r j * prodAt V c r j) (Ideal.ofBits .f32 0x47800000#32) - meanAt V c j * meanAt V c j
    + Ideal.ofBits .f32 0x3727C5AC#32)

theorem last_of_flush (t : Fin cfg1.N) (hf : (cfg1.win 7).flush t = true) : t.val = 7 := by
  have h1 := (flush1_7 t).mp hf; have h2 := t.isLt; have h3 : cfg1.N = 8 := N_1; omega
theorem last_of_flush' (t : Fin cfg1.N) (hf : (cfg1.win 8).flush t = true) : t.val = 7 := by
  have h1 := (flush1_8 t).mp hf; have h2 := t.isLt; have h3 : cfg1.N = 8 := N_1; omega

/-- What the last point writes back into the mean array. -/
theorem flushed_mean (c : Dev nD) (t : Fin cfg1.N) (hf : (cfg1.win 7).flush t = true) :
    (dat V c).flushed 7 t = ((cfg1.win 7).blk t).view.read (Elt Ideal) (fun i => meanAt V c (i 1)) := by
  have hl := last_of_flush t hf
  obtain ⟨-, -, -, -, -, -, -, -, -, -, -, -, -, -, e6, e7, e8, e9⟩ := index_facts t
  show (cfg1.win 7).cut (grid1.coords t) ((dat V c).after 7 t) = _
  rw [after_7, mean_last V c t hl]
  funext y
  obtain ⟨z, j, rfl⟩ : ∃ (z : Fin 1) (j : Fin 10), y = ix2 z j := ⟨y 0, y 1, eq_ix2 y⟩
  obtain rfl : z = 0 := Subsingleton.elim _ _
  show k1_pay2 (F := Ideal) (leftAt V c t.val t.isLt).sum (ix2 0 j) = meanAt V c ((((cfg1.win 7).blk t).view.emb (ix2 0 j)) 1)
  rw [k1_pay2_at, sum_last V c j t hl]
  show meanAt V c j = meanAt V c ((((cfg1.win 7).blk t).view.emb (ix2 0 j)) 1)
  congr 1
  apply Fin.ext
  show j.val = win1_7.index t (1 : Fin 2) * 10 + 1 * j.val; omega

/-- What the last point writes back into the inverse-deviation array. -/
theorem flushed_istd (c : Dev nD) (t : Fin cfg1.N) (hf : (cfg1.win 8).flush t = true) :
    (dat V c).flushed 8 t = ((cfg1.win 8).blk t).view.read (Elt Ideal) (fun i => istdAt V c (i 1)) := by
  have hl := last_of_flush' t hf
  obtain ⟨-, -, -, -, -, -, -, -, -, -, -, -, -, -, e6, e7, e8, e9⟩ := index_facts t
  show (cfg1.win 8).cut (grid1.coords t) ((dat V c).after 8 t) = _
  rw [after_8, istd_last V c t hl]
  funext y
  obtain ⟨z, j, rfl⟩ : ∃ (z : Fin 1) (j : Fin 10), y = ix2 z j := ⟨y 0, y 1, eq_ix2 y⟩
  obtain rfl : z = 0 := Subsingleton.elim _ _
  show k1_pay3 (F := Ideal) (leftAt V c t.val t.isLt).sum (leftAt V c t.val t.isLt).sq (ix2 0 j) = istdAt V c ((((cfg1.win 8).blk t).view.emb (ix2 0 j)) 1)
  rw [k1_pay3_at, k1_pay2_at, sum_last V c j t hl, sq_last V c j t hl]
  show istdAt V c j = istdAt V c ((((cfg1.win 8).blk t).view.emb (ix2 0 j)) 1)
  congr 1
  apply Fin.ext
  show j.val = win1_8.index t (1 : Fin 2) * 10 + 1 * j.val; omega

theorem lastPt_lt : 7 < cfg1.N := by rw [show cfg1.N = 8 from N_1]; decide

theorem mem_blk_mean (t : Fin cfg1.N) (i : S1x10.Idx) :
    i ∈ ((cfg1.win 7).blk t).view.set ↔ ∀ a : Fin 2, win1_7.index t a * S1x10.size a ≤ (i a).val ∧ (i a).val < win1_7.index t a * S1x10.size a + S1x10.size a := by
  show i ∈ ((View.whole main_v15_1).slice (win1_7.rect t)).set ↔ _
  rw [View.set_slice_whole, Rect.mem_set_unit]
  exact Iff.rfl
theorem mem_blk_istd (t : Fin cfg1.N) (i : S1x10.Idx) :
    i ∈ ((cfg1.win 8).blk t).view.set ↔ ∀ a : Fin 2, win1_8.index t a * S1x10.size a ≤ (i a).val ∧ (i a).val < win1_8.index t a * S1x10.size a + S1x10.size a := by
  show i ∈ ((View.whole main_v15_2).slice (win1_8.rect t)).set ↔ _
  rw [View.set_slice_whole, Rect.mem_set_unit]
  exact Iff.rfl

/-- The mean array after the call. -/
theorem final_mean (c : Dev nD) : (dat V c).arrAt 7 cfg1.N = fun i => meanAt V c (i 1) :=
  (dat V c).arrAt_eq_of_cover 7 _ (flushed_mean V c) fun i => by
    have hi0 : (i 0).val < 1 := (i 0).isLt
    have hi1 : (i 1).val < 10 := (i 1).isLt
    obtain ⟨-, -, -, -, -, -, -, -, -, -, -, -, -, -, e6, e7, e8, e9⟩ := index_facts ⟨7, lastPt_lt⟩
    refine ⟨⟨7, lastPt_lt⟩, (flush1_7 _).mpr rfl, ?_⟩
    rw [mem_blk_mean]
    intro a
    match a with
    | ⟨0, _⟩ =>
      show win1_7.index ⟨7, lastPt_lt⟩ (0 : Fin 2) * 1 ≤ (i 0).val ∧ (i 0).val < win1_7.index ⟨7, lastPt_lt⟩ (0 : Fin 2) * 1 + 1
      rw [e6]; omega
    | ⟨1, _⟩ =>
      show win1_7.index ⟨7, lastPt_lt⟩ (1 : Fin 2) * 10 ≤ (i 1).val ∧ (i 1).val < win1_7.index ⟨7, lastPt_lt⟩ (1 : Fin 2) * 10 + 10
      rw [e7]; omega

/-- The inverse-deviation array after the call. -/
theorem final_istd (c : Dev nD) : (dat V c).arrAt 8 cfg1.N = fun i => istdAt V c (i 1) :=
  (dat V c).arrAt_eq_of_cover 8 _ (flushed_istd V c) fun i => by
    have hi0 : (i 0).val < 1 := (i 0).isLt
    have hi1 : (i 1).val < 10 := (i 1).isLt
    obtain ⟨-, -, -, -, -, -, -, -, -, -, -, -, -, -, e6, e7, e8, e9⟩ := index_facts ⟨7, lastPt_lt⟩
    refine ⟨⟨7, lastPt_lt⟩, (flush1_8 _).mpr rfl, ?_⟩
    rw [mem_blk_istd]
    intro a
    match a with
    | ⟨0, _⟩ =>
      show win1_8.index ⟨7, lastPt_lt⟩ (0 : Fin 2) * 1 ≤ (i 0).val ∧ (i 0).val < win1_8.index ⟨7, lastPt_lt⟩ (0 : Fin 2) * 1 + 1
      rw [e8]; omega
    | ⟨1, _⟩ =>
      show win1_8.index ⟨7, lastPt_lt⟩ (1 : Fin 2) * 10 ≤ (i 1).val ∧ (i 1).val < win1_8.index ⟨7, lastPt_lt⟩ (1 : Fin 2) * 10 + 10
      rw [e9]; omega

end Cert.KernelIdeal.Call1

end
-- ==== Proof.KernelIdeal.Call2Array.lean ====
/-
  The last call's output array as one function.

  The final normalisation runs over 8 grid points; point t reads rows 8192·t … 8192·t + 8191 of the second product
  and the four one-row arrays (mean, reciprocal deviation, gamma, beta), and writes the same rows of the output.
  Entry by entry a block of the output is ((o − mean) · istd) · gamma + beta of the entries the output's own
  position names: the product's block moves with the output's, the one-row arrays do not move. The 8 blocks
  tile the 65536 rows (row r is in point r / 8192), so the whole output array is that function of the arrays the
  call finds.
-/
import proofs.«117614_j79061757985000_1_alg».proof.Proof.KernelIdeal.Call2
import proofs.«117614_j79061757985000_1_alg».proof.Proof.KernelIdeal.PayloadsAt
import Idealize.ShloMosaic.Lib.Pipeline.Value

noncomputable section

namespace Cert.KernelIdeal.Call2Array

open Cert.KernelIdeal Cert.KernelIdeal.Gen Cert.KernelIdeal.Call2 Cert.KernelIdeal.PayAt
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The normalisation of an array `o` by four one-row arrays: entry (r, i) is
    ((o (r, i) − mean (0, i)) · istd (0, i)) · gamma (0, i) + beta (0, i). -/
def normOf (o : S65536x10.Idx → EReal) (mean istd gamma beta : S1x10.Idx → EReal) : S65536x10.Idx → EReal := fun i =>
  (((o i - mean (ix2 0 (i 1))) * istd (ix2 0 (i 1))) * gamma (ix2 0 (i 1))) + beta (ix2 0 (i 1))

/-- `normOf` at row r, column i. -/
theorem normOf_at (o : S65536x10.Idx → EReal) (mean istd gamma beta : S1x10.Idx → EReal) (r : Fin 65536) (i : Fin 10) :
    normOf o mean istd gamma beta (ix2 r i)
      = (((o (ix2 r i) - mean (ix2 0 i)) * istd (ix2 0 i)) * gamma (ix2 0 i)) + beta (ix2 0 i) := rfl

/-- The output array the call leaves: the second product normalised with its columns' statistics, as the call finds them. -/
def normed (c : Dev nD) : S65536x10.Idx → EReal :=
  normOf (V c main_v15_0) (V c main_v15_1) (V c main_v15_2) (V c main_v12) (V c main_v13)

/-- Every block starts at the origin of its staging buffer. -/
theorem zero_off : (![0, 0] : Fin 2 → Nat) = fun _ => 0 := funext fun a => by fin_cases a <;> rfl

/-- The printed index maps, decided over the 8 grid points: the product's block and the output's block are block
    number t along the rows and 0 along the columns; the four one-row arrays' block is (0, 0) at every point. -/
theorem index_facts : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- WHAT POINT t WRITES BACK is block t of the normalised array. -/
theorem flushed_eq (c : Dev nD) (t : Fin cfg2.N) :
    (dat V c).flushed 5 t = ((cfg2.win 5).blk t).view.read (Elt Ideal) (normed V c) := by
  show (cfg2.win 5).cut (grid2.coords t) ((dat V c).after 5 t) = _
  rw [after_5]
  unfold outBlk
  rw [View.canon_unit_zero zero_off]
  simp only [View.ld_unit_zero (S := S8192x10) zero_off, View.ld_unit_zero (S := S1x10) zero_off]
  obtain ⟨e50, e51, e00, e01, e10, e11, e20, e21, e30, e31, e40, e41⟩ := index_facts t
  funext y
  obtain ⟨p, i, rfl⟩ : ∃ (p : Fin 8192) (i : Fin 10), y = ix2 p i := ⟨y 0, y 1, eq_ix2 y⟩
  refine (k2_pay1_at _ _ _ _ _ p i).trans ?_
  have hE0 : ((cfg2.win 0).blk t).view.emb (ix2 p i) = ((cfg2.win 5).blk t).view.emb (ix2 p i) := by
    funext a; apply Fin.ext
    match a with
    | ⟨0, _⟩ => show win2_0.index t (0 : Fin 2) * 8192 + 1 * p.val = win2_5.index t (0 : Fin 2) * 8192 + 1 * p.val; omega
    | ⟨1, _⟩ => show win2_0.index t (1 : Fin 2) * 10 + 1 * i.val = win2_5.index t (1 : Fin 2) * 10 + 1 * i.val; omega
  have hR1 : ((cfg2.win 1).blk t).view.emb (ix2 0 i) = (ix2 0 (((cfg2.win 5).blk t).view.emb (ix2 p i) 1) : S1x10.Idx) := by
    funext a; apply Fin.ext
    match a with
    | ⟨0, _⟩ => show win2_1.index t (0 : Fin 2) * 1 + 1 * 0 = 0; omega
    | ⟨1, _⟩ => show win2_1.index t (1 : Fin 2) * 10 + 1 * i.val = win2_5.index t (1 : Fin 2) * 10 + 1 * i.val; omega
  have hR2 : ((cfg2.win 2).blk t).view.emb (ix2 0 i) = (ix2 0 (((cfg2.win 5).blk t).view.emb (ix2 p i) 1) : S1x10.Idx) := by
    funext a; apply Fin.ext
    match a with
    | ⟨0, _⟩ => show win2_2.index t (0 : Fin 2) * 1 + 1 * 0 = 0; omega
    | ⟨1, _⟩ => show win2_2.index t (1 : Fin 2) * 10 + 1 * i.val = win2_5.index t (1 : Fin 2) * 10 + 1 * i.val; omega
  have hR3 : ((cfg2.win 3).blk t).view.emb (ix2 0 i) = (ix2 0 (((cfg2.win 5).blk t).view.emb (ix2 p i) 1) : S1x10.Idx) := by
    funext a; apply Fin.ext
    match a with
    | ⟨0, _⟩ => show win2_3.index t (0 : Fin 2) * 1 + 1 * 0 = 0; omega
    | ⟨1, _⟩ => show win2_3.index t (1 : Fin 2) * 10 + 1 * i.val = win2_5.index t (1 : Fin 2) * 10 + 1 * i.val; omega
  have hR4 : ((cfg2.win 4).blk t).view.emb (ix2 0 i) = (ix2 0 (((cfg2.win 5).blk t).view.emb (ix2 p i) 1) : S1x10.Idx) := by
    funext a; apply Fin.ext
    match a with
    | ⟨0, _⟩ => show win2_4.index t (0 : Fin 2) * 1 + 1 * 0 = 0; omega
    | ⟨1, _⟩ => show win2_4.index t (1 : Fin 2) * 10 + 1 * i.val = win2_5.index t (1 : Fin 2) * 10 + 1 * i.val; omega
  have key : ∀ (o : S65536x10.Idx → EReal) (a1 a2 a3 a4 : S1x10.Idx → EReal),
      (((o (((cfg2.win 0).blk t).view.emb (ix2 p i)) - a1 (((cfg2.win 1).blk t).view.emb (ix2 0 i)))
          * a2 (((cfg2.win 2).blk t).view.emb (ix2 0 i))) * a3 (((cfg2.win 3).blk t).view.emb (ix2 0 i)))
        + a4 (((cfg2.win 4).blk t).view.emb (ix2 0 i))
      = normOf o a1 a2 a3 a4 (((cfg2.win 5).blk t).view.emb (ix2 p i)) := by
    intro o a1 a2 a3 a4
    rw [hE0, hR1, hR2, hR3, hR4]
    rfl
  exact key (V c main_v15_0) (V c main_v15_1) (V c main_v15_2) (V c main_v12) (V c main_v13)

/-- An index of the output is in point t's block iff each coordinate is in the block's range on its axis. -/
theorem mem_block (t : Fin cfg2.N) (i : S65536x10.Idx) :
    i ∈ ((cfg2.win 5).blk t).view.set ↔ ∀ a : Fin 2, win2_5.index t a * S8192x10.size a ≤ (i a).val
      ∧ (i a).val < win2_5.index t a * S8192x10.size a + S8192x10.size a := by
  show i ∈ ((View.whole main_v16).slice (win2_5.rect t)).set ↔ _
  rw [View.set_slice_whole, Rect.mem_set_unit]
  exact Iff.rfl

/-- THE BLOCKS TILE THE ROWS: row r is in the block of point r / 8192. -/
theorem covered (i : S65536x10.Idx) :
    ∃ t : Fin cfg2.N, (cfg2.win 5).flush t = true ∧ i ∈ ((cfg2.win 5).blk t).view.set := by
  have hi0 : (i 0).val < 65536 := (i 0).isLt
  have hi1 : (i 1).val < 10 := (i 1).isLt
  have hN : cfg2.N = 8 := N_2
  refine ⟨⟨(i 0).val / 8192, by omega⟩, flush2_5 _, ?_⟩
  rw [mem_block]
  obtain ⟨e50, e51, -⟩ := index_facts ⟨(i 0).val / 8192, by omega⟩
  intro a
  match a with
  | ⟨0, _⟩ =>
    show win2_5.index _ (0 : Fin 2) * 8192 ≤ (i 0).val ∧ (i 0).val < win2_5.index _ (0 : Fin 2) * 8192 + 8192
    rw [e50]; show (i 0).val / 8192 * 8192 ≤ (i 0).val ∧ (i 0).val < (i 0).val / 8192 * 8192 + 8192; omega
  | ⟨1, _⟩ =>
    show win2_5.index _ (1 : Fin 2) * 10 ≤ (i 1).val ∧ (i 1).val < win2_5.index _ (1 : Fin 2) * 10 + 10
    rw [e51]; omega

/-- THE OUTPUT ARRAY after the call: the normalised array, whole. -/
theorem array_eq (c : Dev nD) : (dat V c).arrAt 5 cfg2.N = normed V c :=
  (dat V c).arrAt_eq_of_cover 5 (normed V c) (fun t _ => flushed_eq V c t) covered

/-- The output at row r, column i. -/
theorem array_at (c : Dev nD) (r : Fin 65536) (i : Fin 10) :
    ((dat V c).arrAt 5 cfg2.N : S65536x10.Idx → EReal) (ix2 r i)
      = normOf (V c main_v15_0) (V c main_v15_1) (V c main_v15_2) (V c main_v12) (V c main_v13) (ix2 r i) := by
  rw [array_eq]; rfl

end Cert.KernelIdeal.Call2Array

end
-- ==== Proof.BnnSpec.lean ====
/-
  The specification of the binary-weight two-layer network with batch normalisation, index by index
  on the extended reals, in the arrangement "mean of squares minus square of the mean".

  Inputs: x [65536, 784], W1 [300, 784], g1 b1 [300], W2 [10, 300], g2 b2 [10].
  A weight enters only through its sign: sgn w = +1 where w ≥ 0, else −1.
    h (r, j)  = ∑ k, x (r, k) · sgn W1 (j, k)
    m1 j      = (∑ r, h (r, j)) / 65536
    v1 j      = (∑ r, h (r, j) · h (r, j)) / 65536 − m1 j · m1 j
    i1 j      = rsqrt (v1 j + eps)
    hn (r, j) = ((h (r, j) − m1 j) · i1 j) · g1 j + b1 j
    o (r, i)  = ∑ j, hn (r, j) · sgn W2 (i, j)
    m2, v2, i2 from o as m1, v1, i1 from h
    out (r, i) = ((o (r, i) − m2 i) · i2 i) · g2 i + b2 i
  Every float literal is kept as the word it is written with (65536.0 = 0x47800000, eps = 0x3727C5AC,
  0, 1.0 = 0x3F800000, −1.0 = 0xBF800000); division and reciprocal square root are the ideal
  instance's own (Ideal.div, Ideal.rsqrt). No program is imported here.
-/
import Idealize.ShloMosaic.PureOps.Ideal
import Idealize.ShloMosaic.PureOps.Ideal.Laws
import Idealize.ShloMosaic.Lib.ValueIdx

noncomputable section

open scoped BigOperators

namespace Cert.Bnn

open Idealize.ShloMosaic Idealize.ShloMosaic.ValueIdx

/-- The binarised weight: `+1` where `w ≥ 0`, else `−1` (the select on the comparison with the zero word). -/
def sgn (w : EReal) : EReal :=
  Scalar.select (Ideal.cmp .oge w (Ideal.ofBits .f32 0x00000000#32))
    (Ideal.ofBits .f32 0x3F800000#32) (Ideal.ofBits .f32 0xBF800000#32)

/-- First layer before normalisation: row `r` of `x` against the signs of row `j` of `W1`. -/
def h (x : FVec Ideal ⟨2, ![65536, 784]⟩ .f32) (W1 : FVec Ideal ⟨2, ![300, 784]⟩ .f32)
    (r : Fin 65536) (j : Fin 300) : EReal :=
  ∑ k : Fin 784, x (ix2 r k) * sgn (W1 (ix2 j k))

/-- Batch mean of column `j` of `h`. -/
def m1 (x : FVec Ideal ⟨2, ![65536, 784]⟩ .f32) (W1 : FVec Ideal ⟨2, ![300, 784]⟩ .f32) (j : Fin 300) : EReal :=
  Ideal.div (∑ r : Fin 65536, h x W1 r j) (Ideal.ofBits .f32 0x47800000#32)

/-- Biased batch variance of column `j` of `h`: mean of the squares minus the square of the mean. -/
def v1 (x : FVec Ideal ⟨2, ![65536, 784]⟩ .f32) (W1 : FVec Ideal ⟨2, ![300, 784]⟩ .f32) (j : Fin 300) : EReal :=
  Ideal.div (∑ r : Fin 65536, h x W1 r j * h x W1 r j) (Ideal.ofBits .f32 0x47800000#32) - m1 x W1 j * m1 x W1 j

/-- Reciprocal standard deviation of column `j` of `h`. -/
def i1 (x : FVec Ideal ⟨2, ![65536, 784]⟩ .f32) (W1 : FVec Ideal ⟨2, ![300, 784]⟩ .f32) (j : Fin 300) : EReal :=
  Ideal.rsqrt (v1 x W1 j + Ideal.ofBits .f32 0x3727C5AC#32)

/-- First layer normalised, scaled and shifted. -/
def hn (x : FVec Ideal ⟨2, ![65536, 784]⟩ .f32) (W1 : FVec Ideal ⟨2, ![300, 784]⟩ .f32)
    (g1 b1 : FVec Ideal ⟨1, ![300]⟩ .f32) (r : Fin 65536) (j : Fin 300) : EReal :=
  ((h x W1 r j - m1 x W1 j) * i1 x W1 j) * g1 (ix1 j) + b1 (ix1 j)

/-- Second layer before normalisation: row `r` of `hn` against the signs of row `i` of `W2`. -/
def o (x : FVec Ideal ⟨2, ![65536, 784]⟩ .f32) (W1 : FVec Ideal ⟨2, ![300, 784]⟩ .f32)
    (g1 b1 : FVec Ideal ⟨1, ![300]⟩ .f32) (W2 : FVec Ideal ⟨2, ![10, 300]⟩ .f32)
    (r : Fin 65536) (i : Fin 10) : EReal :=
  ∑ j : Fin 300, hn x W1 g1 b1 r j * sgn (W2 (ix2 i j))

/-- Batch mean of column `i` of `o`. -/
def m2 (x : FVec Ideal ⟨2, ![65536, 784]⟩ .f32) (W1 : FVec Ideal ⟨2, ![300, 784]⟩ .f32)
    (g1 b1 : FVec Ideal ⟨1, ![300]⟩ .f32) (W2 : FVec Ideal ⟨2, ![10, 300]⟩ .f32) (i : Fin 10) : EReal :=
  Ideal.div (∑ r : Fin 65536, o x W1 g1 b1 W2 r i) (Ideal.ofBits .f32 0x47800000#32)

/-- Biased batch variance of column `i` of `o`: mean of the squares minus the square of the mean. -/
def v2 (x : FVec Ideal ⟨2, ![65536, 784]⟩ .f32) (W1 : FVec Ideal ⟨2, ![300, 784]⟩ .f32)
    (g1 b1 : FVec Ideal ⟨1, ![300]⟩ .f32) (W2 : FVec Ideal ⟨2, ![10, 300]⟩ .f32) (i : Fin 10) : EReal :=
  Ideal.div (∑ r : Fin 65536, o x W1 g1 b1 W2 r i * o x W1 g1 b1 W2 r i) (Ideal.ofBits .f32 0x47800000#32)
    - m2 x W1 g1 b1 W2 i * m2 x W1 g1 b1 W2 i

/-- Reciprocal standard deviation of column `i` of `o`. -/
def i2 (x : FVec Ideal ⟨2, ![65536, 784]⟩ .f32) (W1 : FVec Ideal ⟨2, ![300, 784]⟩ .f32)
    (g1 b1 : FVec Ideal ⟨1, ![300]⟩ .f32) (W2 : FVec Ideal ⟨2, ![10, 300]⟩ .f32) (i : Fin 10) : EReal :=
  Ideal.rsqrt (v2 x W1 g1 b1 W2 i + Ideal.ofBits .f32 0x3727C5AC#32)

/-- The result at row `r`, column `i`. -/
def out (x : FVec Ideal ⟨2, ![65536, 784]⟩ .f32) (W1 : FVec Ideal ⟨2, ![300, 784]⟩ .f32)
    (g1 b1 : FVec Ideal ⟨1, ![300]⟩ .f32) (W2 : FVec Ideal ⟨2, ![10, 300]⟩ .f32)
    (g2 b2 : FVec Ideal ⟨1, ![10]⟩ .f32) (r : Fin 65536) (i : Fin 10) : EReal :=
  ((o x W1 g1 b1 W2 r i - m2 x W1 g1 b1 W2 i) * i2 x W1 g1 b1 W2 i) * g2 (ix1 i) + b2 (ix1 i)

/-- The whole result array as one function of the seven argument arrays. -/
def G (x : FVec Ideal ⟨2, ![65536, 784]⟩ .f32) (W1 : FVec Ideal ⟨2, ![300, 784]⟩ .f32)
    (g1 b1 : FVec Ideal ⟨1, ![300]⟩ .f32) (W2 : FVec Ideal ⟨2, ![10, 300]⟩ .f32)
    (g2 b2 : FVec Ideal ⟨1, ![10]⟩ .f32) : FVec Ideal ⟨2, ![65536, 10]⟩ .f32 :=
  fun i => out x W1 g1 b1 W2 g2 b2 (i 0) (i 1)

/-- `G` at the index with coordinates `r`, `i`. -/
theorem G_ix2 (x : FVec Ideal ⟨2, ![65536, 784]⟩ .f32) (W1 : FVec Ideal ⟨2, ![300, 784]⟩ .f32)
    (g1 b1 : FVec Ideal ⟨1, ![300]⟩ .f32) (W2 : FVec Ideal ⟨2, ![10, 300]⟩ .f32)
    (g2 b2 : FVec Ideal ⟨1, ![10]⟩ .f32) (r : Fin 65536) (i : Fin 10) :
    G x W1 g1 b1 W2 g2 b2 (ix2 r i) = out x W1 g1 b1 W2 g2 b2 r i := rfl

end Cert.Bnn

end
-- ==== Proof.KernelIdeal.HostPrefix.lean ====
/-
  What the host operations before the first call leave in the buffers the three calls read.

  Five stretches of host operations run before the first call. Read at an index, the arrays they write are:
  the first weights' signs, transposed (entry (k, j) is sgn W1 (j, k): the comparison with the zero word selects
  between the words of 1.0 and −1.0, the transpose swaps the coordinates, the change of format is the identity);
  the second weights' signs likewise (entry (j, i) is sgn W2 (i, j)); and the four vectors gamma1, beta1, gamma2,
  beta2 as one-row matrices (entry (0, j) is the vector's entry j). The first argument is not written.
-/
import proofs.«117614_j79061757985000_1_alg».proof.Proof.Gen.KernelIdeal.Regions
import proofs.«117614_j79061757985000_1_alg».proof.Proof.BnnSpec
import Idealize.ShloMosaic.Lib.ValueLayout

noncomputable section

namespace Cert.KernelIdeal.HostPrefix

open Cert.KernelIdeal Cert.KernelIdeal.Gen Idealize.ShloMosaic Idealize.ShloMosaic.TcCoe Idealize.ShloMosaic.ValueIdx
  Idealize.SL.Sem
open Idealize.ShloMosaic.StableHlo (after_cons after_nil nullary_result unary_result binary_result ternary_result
  quaternary_result reshape_result binaryIndexed_result nary4_result nary_result unaryIndexed_result nullary_result_ne
  unary_result_ne binary_result_ne ternary_result_ne quaternary_result_ne reshape_result_ne binaryIndexed_result_ne
  nary_result_ne unaryIndexed_result_ne)

variable (m : (ℓ : Loc nD τ sig) → Buf (Elt Ideal) ℓ)

/-- The first call's weight block: entry (k, j) is the sign of W1 (j, k). -/
theorem sign1_at (c : Dev nD) (k : Fin 784) (j : Fin 300) :
    (V5 m c main_v4 : S784x300.Idx → EReal) (ix2 k j) = Cert.Bnn.sgn (m ((c : Thread nD τ).loc main_arg1) (ix2 j k)) := by
  rw [V5_of m c main_v4 (by decide), V4_of m c main_v4 (by decide)]
  dsimp only [V3, V2, V1, V0, hostOps0, hostOps0_1, hostOps0_2]
  after_results
  rw [truncf_apply, transpose_ix2_apply]
  rfl

/-- The second call's weight block: entry (j, i) is the sign of W2 (i, j). -/
theorem sign2_at (c : Dev nD) (j : Fin 300) (i : Fin 10) :
    (V5 m c main_v9 : S300x10.Idx → EReal) (ix2 j i) = Cert.Bnn.sgn (m ((c : Thread nD τ).loc main_arg4) (ix2 i j)) := by
  dsimp only [V5, V4, V3, V2, V1, V0, hostOps0, hostOps0_1, hostOps0_2, hostOps0_3, hostOps0_4]
  after_results
  rw [truncf_apply, transpose_ix2_apply]
  rfl

/-- gamma1 as a one-row matrix. -/
theorem gamma1_at (c : Dev nD) (j : Fin 300) :
    (V5 m c main_v10 : S1x300.Idx → EReal) (ix2 0 j) = m ((c : Thread nD τ).loc main_arg2) (ix1 j) := by
  dsimp only [V5, V4, V3, V2, V1, V0, hostOps0, hostOps0_1, hostOps0_2, hostOps0_3, hostOps0_4]
  after_results
  show shapeCast S1x300 (m ((c : Thread nD τ).loc main_arg2)) shapeCasts_S300_S1x300 (ix2 0 j) = _
  exact shapeCast_a_1a_apply _ _ 0 j

/-- beta1 as a one-row matrix. -/
theorem beta1_at (c : Dev nD) (j : Fin 300) :
    (V5 m c main_v11 : S1x300.Idx → EReal) (ix2 0 j) = m ((c : Thread nD τ).loc main_arg3) (ix1 j) := by
  dsimp only [V5, V4, V3, V2, V1, V0, hostOps0, hostOps0_1, hostOps0_2, hostOps0_3, hostOps0_4]
  after_results
  show shapeCast S1x300 (m ((c : Thread nD τ).loc main_arg3)) shapeCasts_S300_S1x300 (ix2 0 j) = _
  exact shapeCast_a_1a_apply _ _ 0 j

/-- gamma2 as a one-row matrix. -/
theorem gamma2_at (c : Dev nD) (i : Fin 10) :
    (V5 m c main_v12 : S1x10.Idx → EReal) (ix2 0 i) = m ((c : Thread nD τ).loc main_arg5) (ix1 i) := by
  dsimp only [V5, V4, V3, V2, V1, V0, hostOps0, hostOps0_1, hostOps0_2, hostOps0_3, hostOps0_4]
  after_results
  show shapeCast S1x10 (m ((c : Thread nD τ).loc main_arg5)) shapeCasts_S10_S1x10 (ix2 0 i) = _
  exact shapeCast_a_1a_apply _ _ 0 i

/-- beta2 as a one-row matrix. -/
theorem beta2_at (c : Dev nD) (i : Fin 10) :
    (V5 m c main_v13 : S1x10.Idx → EReal) (ix2 0 i) = m ((c : Thread nD τ).loc main_arg6) (ix1 i) := by
  dsimp only [V5, V4, V3, V2, V1, V0, hostOps0, hostOps0_1, hostOps0_2, hostOps0_3, hostOps0_4]
  after_results
  show shapeCast S1x10 (m ((c : Thread nD τ).loc main_arg6)) shapeCasts_S10_S1x10 (ix2 0 i) = _
  exact shapeCast_a_1a_apply _ _ 0 i

/-- No host operation writes the first argument. -/
theorem x_eq (c : Dev nD) : V5 m c main_arg0 = m ((c : Thread nD τ).loc main_arg0) :=
  (V5_of m c main_arg0 (by decide)).trans <| (V4_of m c main_arg0 (by decide)).trans <|
    (V3_of m c main_arg0 (by decide)).trans <| (V2_of m c main_arg0 (by decide)).trans <|
    (V1_of m c main_arg0 (by decide)).trans rfl

end Cert.KernelIdeal.HostPrefix

end
-- ==== Proof.KernelIdeal.Result.lean ====
/-
  The kernel's result array is the specification's G of the launch arrays.

  Going down the three calls from the array the last one leaves:
  * the last call leaves the second product normalised by the statistics and by gamma2, beta2 (Call2Array);
  * the second product, its column means and reciprocal deviations are what the second call leaves, computed from
    the first product, its statistics, gamma1, beta1 and the second sign matrix as the second call finds them;
  * the first product and its statistics are what the first call leaves, computed from x and the first sign
    matrix as the first call finds them;
  * what the first call finds is what the host operations leave: x itself, the sign matrices entry by entry
    (HostPrefix), the four vectors as one-row matrices.
  Each step is a rewriting of one named function of the arrays into the specification's function of the same name:
  no finiteness is needed.
-/
import proofs.«117614_j79061757985000_1_alg».proof.Proof.KernelIdeal.Whole
import proofs.«117614_j79061757985000_1_alg».proof.Proof.KernelIdeal.Call0Prod
import proofs.«117614_j79061757985000_1_alg».proof.Proof.KernelIdeal.Call0Stats
import proofs.«117614_j79061757985000_1_alg».proof.Proof.KernelIdeal.Call1Prod
import proofs.«117614_j79061757985000_1_alg».proof.Proof.KernelIdeal.Call1Stats
import proofs.«117614_j79061757985000_1_alg».proof.Proof.KernelIdeal.Call2Array
import proofs.«117614_j79061757985000_1_alg».proof.Proof.KernelIdeal.HostPrefix
import proofs.«117614_j79061757985000_1_alg».proof.Proof.BnnSpec

noncomputable section

open scoped BigOperators

namespace Cert.KernelIdeal.Result

open Cert.KernelIdeal Cert.KernelIdeal.Gen Cert.KernelIdeal.Whole
open Idealize.ShloMosaic Idealize.ShloMosaic.TcCoe Idealize.ShloMosaic.ValueIdx Idealize.SL.Sem

variable (m : (ℓ : Loc nD τ sig) → Buf (Elt Ideal) ℓ)

/-! ## What the first call finds and leaves -/

/-- The first call finds x itself … -/
theorem x_read (c : Dev nD) (r : Fin 65536) (k : Fin 784) :
    Call0.xArr (E5 (F := Ideal) m) c (ix2 r k) = (m ((c : Thread nD τ).loc main_arg0)) (ix2 r k) :=
  congrFun (HostPrefix.x_eq m c) (ix2 r k)

/-- … and the first weights' signs, transposed. -/
theorem w1_read (c : Dev nD) (k : Fin 784) (j : Fin 300) :
    Call0.wArr (E5 (F := Ideal) m) c (ix2 k j) = Cert.Bnn.sgn ((m ((c : Thread nD τ).loc main_arg1)) (ix2 j k)) :=
  HostPrefix.sign1_at m c k j

/-- The first product is the specification's h. -/
theorem prod0_eq (c : Dev nD) (r : Fin 65536) (j : Fin 300) :
    Call0.prodAt (E5 (F := Ideal) m) c r j = Cert.Bnn.h (m ((c : Thread nD τ).loc main_arg0)) (m ((c : Thread nD τ).loc main_arg1)) r j := by
  unfold Call0.prodAt Cert.Bnn.h
  exact Finset.sum_congr rfl fun k _ => by rw [x_read, w1_read]

/-- Its column mean is m1. -/
theorem mean0_eq (c : Dev nD) (j : Fin 300) :
    Call0.meanAt (E5 (F := Ideal) m) c j = Cert.Bnn.m1 (m ((c : Thread nD τ).loc main_arg0)) (m ((c : Thread nD τ).loc main_arg1)) j := by
  unfold Call0.meanAt Cert.Bnn.m1
  simp only [prod0_eq]

/-- Its reciprocal deviation is i1. -/
theorem istd0_eq (c : Dev nD) (j : Fin 300) :
    Call0.istdAt (E5 (F := Ideal) m) c j = Cert.Bnn.i1 (m ((c : Thread nD τ).loc main_arg0)) (m ((c : Thread nD τ).loc main_arg1)) j := by
  unfold Call0.istdAt Cert.Bnn.i1 Cert.Bnn.v1
  simp only [prod0_eq, mean0_eq]

/-! ## What the second call finds and leaves -/

/-- The second call finds the first product … -/
theorem h_read (c : Dev nD) (r : Fin 65536) (j : Fin 300) :
    Call1.hArr (E6 (F := Ideal) m) c (ix2 r j) = Call0.prodAt (E5 (F := Ideal) m) c r j :=
  congrFun ((W6_arr (F := Ideal) m c 2).trans (Call0.final_prod (E5 (F := Ideal) m) c)) (ix2 r j)

/-- … its column means … -/
theorem m1_read (c : Dev nD) (j : Fin 300) :
    Call1.m1Arr (E6 (F := Ideal) m) c (ix2 0 j) = Call0.meanAt (E5 (F := Ideal) m) c j :=
  congrFun ((W6_arr (F := Ideal) m c 3).trans (Call0.final_mean (E5 (F := Ideal) m) c)) (ix2 0 j)

/-- … its reciprocal deviations … -/
theorem i1_read (c : Dev nD) (j : Fin 300) :
    Call1.i1Arr (E6 (F := Ideal) m) c (ix2 0 j) = Call0.istdAt (E5 (F := Ideal) m) c j :=
  congrFun ((W6_arr (F := Ideal) m c 4).trans (Call0.final_istd (E5 (F := Ideal) m) c)) (ix2 0 j)

/-- … gamma1 and beta1 as the host operations left them … -/
theorem g1_read (c : Dev nD) (j : Fin 300) :
    Call1.g1Arr (E6 (F := Ideal) m) c (ix2 0 j) = (m ((c : Thread nD τ).loc main_arg2)) (ix1 j) :=
  (congrFun (W6_of_ne (F := Ideal) m c main_v10 (by decide)) (ix2 0 j)).trans (HostPrefix.gamma1_at m c j)
theorem b1_read (c : Dev nD) (j : Fin 300) :
    Call1.b1Arr (E6 (F := Ideal) m) c (ix2 0 j) = (m ((c : Thread nD τ).loc main_arg3)) (ix1 j) :=
  (congrFun (W6_of_ne (F := Ideal) m c main_v11 (by decide)) (ix2 0 j)).trans (HostPrefix.beta1_at m c j)

/-- … and the second weights' signs, transposed. -/
theorem w2_read (c : Dev nD) (j : Fin 300) (i : Fin 10) :
    Call1.w2Arr (E6 (F := Ideal) m) c (ix2 j i) = Cert.Bnn.sgn ((m ((c : Thread nD τ).loc main_arg4)) (ix2 i j)) :=
  (congrFun (W6_of_ne (F := Ideal) m c main_v9 (by decide)) (ix2 j i)).trans (HostPrefix.sign2_at m c j i)

/-- The normalised first layer is hn. -/
theorem norm1_eq (c : Dev nD) (r : Fin 65536) (j : Fin 300) :
    Call1.normAt (E6 (F := Ideal) m) c r j = Cert.Bnn.hn (m ((c : Thread nD τ).loc main_arg0)) (m ((c : Thread nD τ).loc main_arg1)) (m ((c : Thread nD τ).loc main_arg2)) (m ((c : Thread nD τ).loc main_arg3)) r j := by
  unfold Call1.normAt Cert.Bnn.hn
  rw [h_read, m1_read, i1_read, g1_read, b1_read, prod0_eq, mean0_eq, istd0_eq]

/-- The second product is o. -/
theorem prod1_eq (c : Dev nD) (r : Fin 65536) (i : Fin 10) :
    Call1.prodAt (E6 (F := Ideal) m) c r i = Cert.Bnn.o (m ((c : Thread nD τ).loc main_arg0)) (m ((c : Thread nD τ).loc main_arg1)) (m ((c : Thread nD τ).loc main_arg2)) (m ((c : Thread nD τ).loc main_arg3)) (m ((c : Thread nD τ).loc main_arg4)) r i := by
  unfold Call1.prodAt Cert.Bnn.o
  exact Finset.sum_congr rfl fun j _ => by rw [norm1_eq, w2_read]

/-- Its column mean is m2. -/
theorem mean1_eq (c : Dev nD) (i : Fin 10) :
    Call1.meanAt (E6 (F := Ideal) m) c i = Cert.Bnn.m2 (m ((c : Thread nD τ).loc main_arg0)) (m ((c : Thread nD τ).loc main_arg1)) (m ((c : Thread nD τ).loc main_arg2)) (m ((c : Thread nD τ).loc main_arg3)) (m ((c : Thread nD τ).loc main_arg4)) i := by
  unfold Call1.meanAt Cert.Bnn.m2
  simp only [prod1_eq]

/-- Its reciprocal deviation is i2. -/
theorem istd1_eq (c : Dev nD) (i : Fin 10) :
    Call1.istdAt (E6 (F := Ideal) m) c i = Cert.Bnn.i2 (m ((c : Thread nD τ).loc main_arg0)) (m ((c : Thread nD τ).loc main_arg1)) (m ((c : Thread nD τ).loc main_arg2)) (m ((c : Thread nD τ).loc main_arg3)) (m ((c : Thread nD τ).loc main_arg4)) i := by
  unfold Call1.istdAt Cert.Bnn.i2 Cert.Bnn.v2
  simp only [prod1_eq, mean1_eq]

/-! ## What the last call finds and leaves -/

/-- The last call finds the second product … -/
theorem o_read (c : Dev nD) (r : Fin 65536) (i : Fin 10) :
    (E7 (F := Ideal) m c main_v15_0 : S65536x10.Idx → EReal) (ix2 r i) = Call1.prodAt (E6 (F := Ideal) m) c r i :=
  congrFun ((W7_arr (F := Ideal) m c 6).trans (Call1.final_prod (E6 (F := Ideal) m) c)) (ix2 r i)

/-- … its column means and reciprocal deviations … -/
theorem m2_read (c : Dev nD) (i : Fin 10) :
    (E7 (F := Ideal) m c main_v15_1 : S1x10.Idx → EReal) (ix2 0 i) = Call1.meanAt (E6 (F := Ideal) m) c i :=
  congrFun ((W7_arr (F := Ideal) m c 7).trans (Call1.final_mean (E6 (F := Ideal) m) c)) (ix2 0 i)
theorem i2_read (c : Dev nD) (i : Fin 10) :
    (E7 (F := Ideal) m c main_v15_2 : S1x10.Idx → EReal) (ix2 0 i) = Call1.istdAt (E6 (F := Ideal) m) c i :=
  congrFun ((W7_arr (F := Ideal) m c 8).trans (Call1.final_istd (E6 (F := Ideal) m) c)) (ix2 0 i)

/-- … and gamma2, beta2 as the host operations left them. -/
theorem g2_read (c : Dev nD) (i : Fin 10) :
    (E7 (F := Ideal) m c main_v12 : S1x10.Idx → EReal) (ix2 0 i) = (m ((c : Thread nD τ).loc main_arg5)) (ix1 i) :=
  (congrFun ((W7_of_ne (F := Ideal) m c main_v12 (by decide)).trans (W6_of_ne (F := Ideal) m c main_v12 (by decide))) (ix2 0 i)).trans
    (HostPrefix.gamma2_at m c i)
theorem b2_read (c : Dev nD) (i : Fin 10) :
    (E7 (F := Ideal) m c main_v13 : S1x10.Idx → EReal) (ix2 0 i) = (m ((c : Thread nD τ).loc main_arg6)) (ix1 i) :=
  (congrFun ((W7_of_ne (F := Ideal) m c main_v13 (by decide)).trans (W6_of_ne (F := Ideal) m c main_v13 (by decide))) (ix2 0 i)).trans
    (HostPrefix.beta2_at m c i)

/-- The entry the last call leaves at row r, column i is the specification's. -/
theorem entry_eq (c : Dev nD) (r : Fin 65536) (i : Fin 10) :
    Call2Array.normed (E7 (F := Ideal) m) c (ix2 r i)
      = Cert.Bnn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r i := by
  unfold Call2Array.normed Cert.Bnn.out
  rw [Call2Array.normOf_at, o_read, m2_read, i2_read, g2_read, b2_read, prod1_eq, mean1_eq, istd1_eq]

/-- THE KERNEL'S RESULT ARRAY IS `G` OF THE LAUNCH ARRAYS. -/
theorem result_eq (c : Dev nD) :
    (W8 (F := Ideal) m c (Proc.devRef .tc main_v16) : S65536x10.Idx → EReal)
      = Cert.Bnn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W8_arr (F := Ideal) m c 5).trans (Call2Array.array_eq (E7 (F := Ideal) m) c)).trans ?_
  funext i
  obtain ⟨r, q, rfl⟩ : ∃ (r : Fin 65536) (q : Fin 10), i = ix2 r q := ⟨i 0, i 1, eq_ix2 i⟩
  rw [Cert.Bnn.G_ix2]
  exact entry_eq m c r q

end Cert.KernelIdeal.Result

end
-- ==== Proof.BnnLaws.lean ====
/-
  Laws used to bring the reference's arrangement onto the specification's (BnnSpec):
  * the literals read as reals (65536.0 is the real 65536, eps is a positive real, 1.0 and −1.0 are ±1);
  * a binarised weight is always ±1, hence a real, and `w + (sgn w − w) = sgn w` at a real `w`;
  * the statistics of a column `F : Fin 65536 → EReal` of reals: the mean is a real, the mean of the squared
    deviations equals the mean of the squares minus the square of the mean (proved on the reals: with
    m = (∑ F)/N, ∑ (F − m)² = ∑ F² − 2 m ∑ F + N m² = ∑ F² − N m²), it is a nonnegative real, and the
    reciprocal square root of it plus eps is a real;
  * hence every intermediate of the specification is a real when the inputs are.
-/
import proofs.«117614_j79061757985000_1_alg».proof.Proof.BnnSpec

noncomputable section

open scoped BigOperators

namespace Cert.Bnn

open Idealize.ShloMosaic Idealize.ShloMosaic.ValueIdx

/-- An extended real that is a real number. -/
abbrev IsReal (e : EReal) : Prop := ∃ a : ℝ, e = (a : EReal)

theorem isReal_add {a b : EReal} (ha : IsReal a) (hb : IsReal b) : IsReal (a + b) := by
  obtain ⟨p, rfl⟩ := ha; obtain ⟨q, rfl⟩ := hb; exact ⟨p + q, (EReal.coe_add p q).symm⟩
theorem isReal_sub {a b : EReal} (ha : IsReal a) (hb : IsReal b) : IsReal (a - b) := by
  obtain ⟨p, rfl⟩ := ha; obtain ⟨q, rfl⟩ := hb; exact ⟨p - q, (EReal.coe_sub p q).symm⟩
theorem isReal_mul {a b : EReal} (ha : IsReal a) (hb : IsReal b) : IsReal (a * b) := by
  obtain ⟨p, rfl⟩ := ha; obtain ⟨q, rfl⟩ := hb; exact ⟨p * q, (EReal.coe_mul p q).symm⟩

/-- The coercion of a finite sum of reals is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-! ## The literals -/

/-- The word of 65536.0 denotes the real 65536. -/
theorem rows_eq : Ideal.ofBits .f32 0x47800000#32 = ((65536 : ℝ) : EReal) := by
  simp [Ideal.ofBits, Ideal.ieee, -EReal.coe_mul]; norm_num

/-- The word of eps denotes a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  positivity

theorem one_eq : Ideal.ofBits .f32 0x3F800000#32 = ((1 : ℝ) : EReal) :=
  (IdealRules.sign_bit.ideal_onePat .f32).trans EReal.coe_one.symm
theorem negOne_eq : Ideal.ofBits .f32 0xBF800000#32 = ((-1 : ℝ) : EReal) :=
  (IdealRules.sign_bit.ideal_negOnePat .f32).trans (by rw [EReal.coe_neg, EReal.coe_one])

/-! ## The binarised weight -/

/-- A binarised weight is `1` or `−1`, whatever the weight. -/
theorem sgn_cases (w : EReal) : sgn w = ((1 : ℝ) : EReal) ∨ sgn w = ((-1 : ℝ) : EReal) := by
  unfold sgn Scalar.select
  split
  · exact Or.inl one_eq
  · exact Or.inr negOne_eq

theorem sgn_real (w : EReal) : IsReal (sgn w) := by
  rcases sgn_cases w with h | h
  · exact ⟨1, h⟩
  · exact ⟨-1, h⟩

/-- At a real weight, `w + (sgn w − w)` is `sgn w`: nothing is lost because `w` is finite. -/
theorem binarize_eq {w : EReal} (hw : IsReal w) : w + (sgn w - w) = sgn w := by
  obtain ⟨a, rfl⟩ := hw
  obtain ⟨s, hs⟩ := sgn_real (a : EReal)
  rw [hs, ← EReal.coe_sub, ← EReal.coe_add]
  congr 1
  ring

/-! ## The statistics of one column -/

/-- Division of a real by the row count is a real. -/
theorem isReal_div_rows {a : EReal} (ha : IsReal a) : IsReal (Ideal.div a (Ideal.ofBits .f32 0x47800000#32)) := by
  obtain ⟨p, rfl⟩ := ha
  rw [rows_eq, Ideal.div_coe (by norm_num)]
  exact ⟨p * (1 / 65536), (EReal.coe_mul _ _).symm⟩

/-- On the reals: the mean of the squared deviations from the mean is the mean of the squares minus the
    square of the mean. -/
theorem real_var (f : Fin 65536 → ℝ) :
    (∑ r, (f r - (∑ r, f r) * (1 / (65536 : ℝ))) * (f r - (∑ r, f r) * (1 / (65536 : ℝ)))) * (1 / (65536 : ℝ))
      = (∑ r, f r * f r) * (1 / (65536 : ℝ)) - ((∑ r, f r) * (1 / (65536 : ℝ))) * ((∑ r, f r) * (1 / (65536 : ℝ))) := by
  have e : ∀ r, (f r - (∑ r, f r) * (1 / (65536 : ℝ))) * (f r - (∑ r, f r) * (1 / (65536 : ℝ)))
      = f r * f r - 2 * ((∑ r, f r) * (1 / (65536 : ℝ))) * f r
        + ((∑ r, f r) * (1 / (65536 : ℝ))) * ((∑ r, f r) * (1 / (65536 : ℝ))) := fun r => by ring
  simp only [e, Finset.sum_add_distrib, Finset.sum_sub_distrib, ← Finset.mul_sum, Finset.sum_const, Finset.card_univ,
    Fintype.card_fin, nsmul_eq_mul, Nat.cast_ofNat]
  ring

/-- The mean of a column of reals, as a real. -/
theorem mean_coe (f : Fin 65536 → ℝ) :
    Ideal.div (∑ r, (f r : EReal)) (Ideal.ofBits .f32 0x47800000#32) = (((∑ r, f r) * (1 / (65536 : ℝ)) : ℝ) : EReal) := by
  rw [rows_eq, Ideal.div_coe (by norm_num), ← coe_sum, ← EReal.coe_mul]

/-- THE VARIANCE IDENTITY on a column of reals: the mean of the squared deviations from the mean equals the
    mean of the squares minus the square of the mean. On the extended reals it needs every entry finite. -/
theorem var_eq (F : Fin 65536 → EReal) (hF : ∀ r, IsReal (F r)) :
    Ideal.div (∑ r, (F r - Ideal.div (∑ r, F r) (Ideal.ofBits .f32 0x47800000#32))
        * (F r - Ideal.div (∑ r, F r) (Ideal.ofBits .f32 0x47800000#32))) (Ideal.ofBits .f32 0x47800000#32)
      = Ideal.div (∑ r, F r * F r) (Ideal.ofBits .f32 0x47800000#32)
        - Ideal.div (∑ r, F r) (Ideal.ofBits .f32 0x47800000#32) * Ideal.div (∑ r, F r) (Ideal.ofBits .f32 0x47800000#32) := by
  choose f hf using hF
  obtain rfl : F = fun r => (f r : EReal) := funext hf
  simp only [mean_coe, ← EReal.coe_sub, ← EReal.coe_mul]
  exact congrArg _ (real_var f)

/-- The variance (in the specification's arrangement) of a column of reals is a nonnegative real. -/
theorem var_nonneg (F : Fin 65536 → EReal) (hF : ∀ r, IsReal (F r)) :
    ∃ a : ℝ, 0 ≤ a ∧ Ideal.div (∑ r, F r * F r) (Ideal.ofBits .f32 0x47800000#32)
        - Ideal.div (∑ r, F r) (Ideal.ofBits .f32 0x47800000#32) * Ideal.div (∑ r, F r) (Ideal.ofBits .f32 0x47800000#32) = (a : EReal) := by
  rw [← var_eq F hF]
  choose f hf using hF
  obtain rfl : F = fun r => (f r : EReal) := funext hf
  simp only [mean_coe, ← EReal.coe_sub, ← EReal.coe_mul]
  exact ⟨_, mul_nonneg (Finset.sum_nonneg fun r _ => mul_self_nonneg _) (by norm_num), rfl⟩

/-- The reciprocal square root of a nonnegative real plus eps is a real. -/
theorem isReal_rsqrt_eps {a : ℝ} (ha : 0 ≤ a) : IsReal (Ideal.rsqrt ((a : EReal) + Ideal.ofBits .f32 0x3727C5AC#32)) := by
  obtain ⟨e, he, hE⟩ := eps_pos
  rw [hE, ← EReal.coe_add, Ideal.rsqrt_coe, if_neg (by linarith), if_neg (by linarith)]
  exact ⟨_, rfl⟩

/-- So the reciprocal standard deviation of a column of reals is a real. -/
theorem isReal_invstd (F : Fin 65536 → EReal) (hF : ∀ r, IsReal (F r)) :
    IsReal (Ideal.rsqrt (Ideal.div (∑ r, F r * F r) (Ideal.ofBits .f32 0x47800000#32)
        - Ideal.div (∑ r, F r) (Ideal.ofBits .f32 0x47800000#32) * Ideal.div (∑ r, F r) (Ideal.ofBits .f32 0x47800000#32)
        + Ideal.ofBits .f32 0x3727C5AC#32)) := by
  obtain ⟨a, ha, h⟩ := var_nonneg F hF
  rw [h]
  exact isReal_rsqrt_eps ha

/-! ## Every intermediate of the specification is a real when the inputs are -/

section Finite
variable (x : FVec Ideal ⟨2, ![65536, 784]⟩ .f32) (W1 : FVec Ideal ⟨2, ![300, 784]⟩ .f32)
  (g1 b1 : FVec Ideal ⟨1, ![300]⟩ .f32) (W2 : FVec Ideal ⟨2, ![10, 300]⟩ .f32)

theorem h_real (hx : ∀ i, IsReal (x i)) (r : Fin 65536) (j : Fin 300) : IsReal (h x W1 r j) :=
  isReal_sum _ _ fun k => isReal_mul (hx _) (sgn_real _)

theorem m1_real (hx : ∀ i, IsReal (x i)) (j : Fin 300) : IsReal (m1 x W1 j) :=
  isReal_div_rows (isReal_sum _ _ fun r => h_real x W1 hx r j)

theorem i1_real (hx : ∀ i, IsReal (x i)) (j : Fin 300) : IsReal (i1 x W1 j) :=
  isReal_invstd (fun r => h x W1 r j) (fun r => h_real x W1 hx r j)

theorem hn_real (hx : ∀ i, IsReal (x i)) (hg1 : ∀ i, IsReal (g1 i)) (hb1 : ∀ i, IsReal (b1 i))
    (r : Fin 65536) (j : Fin 300) : IsReal (hn x W1 g1 b1 r j) :=
  isReal_add (isReal_mul (isReal_mul (isReal_sub (h_real x W1 hx r j) (m1_real x W1 hx j)) (i1_real x W1 hx j)) (hg1 _)) (hb1 _)

theorem o_real (hx : ∀ i, IsReal (x i)) (hg1 : ∀ i, IsReal (g1 i)) (hb1 : ∀ i, IsReal (b1 i))
    (r : Fin 65536) (i : Fin 10) : IsReal (o x W1 g1 b1 W2 r i) :=
  isReal_sum _ _ fun j => isReal_mul (hn_real x W1 g1 b1 hx hg1 hb1 r j) (sgn_real _)

end Finite

end Cert.Bnn

end
-- ==== Proof.BnnReference.lean ====
/-
  The reference computes the specification (BnnSpec's `G`) when its inputs are finite.

  Stage by stage, each of the reference's operations read at an index built from literal coordinates:
  * the weight `W + (sgn W − W)` is `sgn W` at a finite `W` (BnnLaws.binarize_eq);
  * the first product at (r, j) is `h r j`, its column mean `m1 j`;
  * the reference's variance, the mean of the squared deviations `(h r j − m1 j)²`, is the specification's
    mean of squares minus squared mean because every `h r j` is a real (BnnLaws.var_eq);
  * the normalised layer is `hn`, and the same three steps give `o`, `m2`, `v2`, `i2` and the result,
    the second variance needing `o r i` real, that is `x`, `g1`, `b1` finite.
-/
import proofs.«117614_j79061757985000_1_alg».proof.Proof.BnnLaws
import proofs.«117614_j79061757985000_1_alg».proof.Proof.Gen.ReferenceIdeal.Read

noncomputable section

open scoped BigOperators

namespace Cert.Bnn.Reference

open Cert.ReferenceIdeal Cert.ReferenceIdeal.Read Idealize.ShloMosaic Idealize.ShloMosaic.ValueIdx Cert.Bnn

/-- Two index functions into a rank-1 shape agree when their one coordinate does. -/
local macro "idx_r1" : tactic => `(tactic| (funext a; refine Fin.ext ?_; match a with | ⟨0, _⟩ => rfl))
/-- Two index functions into a rank-2 shape agree when their two coordinates do. -/
local macro "idx_r2" : tactic => `(tactic| (funext a; refine Fin.ext ?_; match a with | ⟨0, _⟩ => rfl | ⟨1, _⟩ => rfl))

variable (x0 : (⟨S65536x784, .f32⟩ : BufTy).Contents (Elt Ideal)) (x1 : (⟨S300x784, .f32⟩ : BufTy).Contents (Elt Ideal))
  (x2 x3 : (⟨S300, .f32⟩ : BufTy).Contents (Elt Ideal)) (x4 : (⟨S10x300, .f32⟩ : BufTy).Contents (Elt Ideal))
  (x5 x6 : (⟨S10, .f32⟩ : BufTy).Contents (Elt Ideal))

/-! ## First layer -/

/-- The first weight at (j, k): `W1 + (sgn W1 − W1) = sgn W1`. -/
theorem weight1 (hW1 : ∀ i, IsReal (x1 i)) (j : Fin 300) (k : Fin 784) :
    val_main_v5 (F := Ideal) x1 (ix2 j k) = sgn (x1 (ix2 j k)) := by
  rw [val_main_v5_apply, val_main_v4_apply, val_main_v3_apply, val_main_v2_apply, val_main_v1_apply, val_main_v0_apply,
    val_main_cst_apply, val_main_call0_v0_apply, val_main_cst_0_apply, val_main_call0_v1_apply, val_main_cst_1_apply]
  exact binarize_eq (hW1 _)

/-- The first product at (r, j). -/
theorem prod1 (hW1 : ∀ i, IsReal (x1 i)) (r : Fin 65536) (j : Fin 300) :
    val_main_v7 (F := Ideal) x0 x1 (ix2 r j) = h x0 x1 r j := by
  rw [val_main_v7_apply]
  unfold h
  refine Finset.sum_congr rfl fun k _ => ?_
  rw [val_main_v6_apply, show lidx_main_v7 (ix2 r j) k = ix2 r k by idx_r2,
    show idx_main_v6 (ridx_main_v7 (ix2 r j) k) = ix2 j k by idx_r2, weight1 x1 hW1]

/-- Its column mean at j. -/
theorem mean1 (hW1 : ∀ i, IsReal (x1 i)) (j : Fin 300) :
    val_main_v10 (F := Ideal) x0 x1 (ix1 j) = m1 x0 x1 j := by
  rw [val_main_v10_apply, val_main_v8_apply, val_main_v9_apply, val_main_cst_3_apply, val_main_cst_2_apply]
  unfold m1
  simp only [Ideal.hostDivf_def, Ideal.ofBits_def, Ideal.ofBits_zero_f32, zero_add]
  refine congrArg (fun s => Ideal.div s (Ideal.ofBits .f32 0x47800000#32)) (Finset.sum_congr rfl fun k _ => ?_)
  rw [show idx_main_v8 (ix1 j) k = ix2 k j by idx_r2, prod1 x0 x1 hW1]

/-- The deviation from the mean at (r, j). -/
theorem dev1 (hW1 : ∀ i, IsReal (x1 i)) (r : Fin 65536) (j : Fin 300) :
    val_main_v13 (F := Ideal) x0 x1 (ix2 r j) = h x0 x1 r j - m1 x0 x1 j := by
  rw [val_main_v13_apply, val_main_v12_apply, val_main_v11_apply, prod1 x0 x1 hW1,
    show idx_main_v11 (idx_main_v12 (ix2 r j)) = ix1 j by idx_r1, mean1 x0 x1 hW1]
  rfl

/-- The reference's variance at j is the specification's: every `h r j` is a real. -/
theorem var1 (hx : ∀ i, IsReal (x0 i)) (hW1 : ∀ i, IsReal (x1 i)) (j : Fin 300) :
    val_main_v17 (F := Ideal) x0 x1 (ix1 j) = v1 x0 x1 j := by
  rw [val_main_v17_apply, val_main_v15_apply, val_main_v16_apply, val_main_cst_5_apply, val_main_cst_4_apply]
  have e : ∀ k : Fin 65536, val_main_v14 (F := Ideal) x0 x1 (idx_main_v15 (ix1 j) k)
      = (h x0 x1 k j - m1 x0 x1 j) * (h x0 x1 k j - m1 x0 x1 j) := fun k => by
    rw [show idx_main_v15 (ix1 j) k = ix2 k j by idx_r2, val_main_v14_apply, dev1 x0 x1 hW1]
    rfl
  simp only [e, Ideal.hostDivf_def, Ideal.ofBits_def, Ideal.ofBits_zero_f32, zero_add]
  unfold v1 m1
  exact var_eq (fun r => h x0 x1 r j) (fun r => h_real x0 x1 hx r j)

/-- The reciprocal standard deviation at j. -/
theorem invstd1 (hx : ∀ i, IsReal (x0 i)) (hW1 : ∀ i, IsReal (x1 i)) (j : Fin 300) :
    val_main_v23 (F := Ideal) x0 x1 (ix1 j) = i1 x0 x1 j := by
  rw [val_main_v23_apply, val_main_v22_apply, val_main_v21_apply, val_main_cst_6_apply, var1 x0 x1 hx hW1]
  rfl

/-- The normalised first layer at (r, j). -/
theorem norm1 (hx : ∀ i, IsReal (x0 i)) (hW1 : ∀ i, IsReal (x1 i)) (r : Fin 65536) (j : Fin 300) :
    val_main_v32 (F := Ideal) x0 x1 x2 x3 (ix2 r j) = hn x0 x1 x2 x3 r j := by
  rw [val_main_v32_apply, val_main_v29_apply, val_main_v26_apply, val_main_v20_apply, val_main_v19_apply,
    val_main_v18_apply, val_main_v25_apply, val_main_v24_apply, val_main_v28_apply, val_main_v27_apply,
    val_main_v31_apply, val_main_v30_apply, prod1 x0 x1 hW1,
    show idx_main_v18 (idx_main_v19 (ix2 r j)) = ix1 j by idx_r1, mean1 x0 x1 hW1,
    show idx_main_v24 (idx_main_v25 (ix2 r j)) = ix1 j by idx_r1, invstd1 x0 x1 hx hW1,
    show idx_main_v27 (idx_main_v28 (ix2 r j)) = ix1 j by idx_r1,
    show idx_main_v30 (idx_main_v31 (ix2 r j)) = ix1 j by idx_r1]
  rfl

/-! ## Second layer -/

/-- The second weight at (i, j): `W2 + (sgn W2 − W2) = sgn W2`. -/
theorem weight2 (hW2 : ∀ i, IsReal (x4 i)) (i : Fin 10) (j : Fin 300) :
    val_main_v38 (F := Ideal) x4 (ix2 i j) = sgn (x4 (ix2 i j)) := by
  rw [val_main_v38_apply, val_main_v37_apply, val_main_v36_apply, val_main_v35_apply, val_main_v34_apply, val_main_v33_apply,
    val_main_cst_7_apply, val_main_call1_v0_apply, val_main_cst_8_apply, val_main_call1_v1_apply, val_main_cst_9_apply]
  exact binarize_eq (hW2 _)

/-- The second product at (r, i). -/
theorem prod2 (hx : ∀ i, IsReal (x0 i)) (hW1 : ∀ i, IsReal (x1 i)) (hW2 : ∀ i, IsReal (x4 i)) (r : Fin 65536) (i : Fin 10) :
    val_main_v40 (F := Ideal) x0 x1 x2 x3 x4 (ix2 r i) = o x0 x1 x2 x3 x4 r i := by
  rw [val_main_v40_apply]
  unfold o
  refine Finset.sum_congr rfl fun k _ => ?_
  rw [val_main_v39_apply, show lidx_main_v40 (ix2 r i) k = ix2 r k by idx_r2,
    show idx_main_v39 (ridx_main_v40 (ix2 r i) k) = ix2 i k by idx_r2, weight2 x4 hW2, norm1 x0 x1 x2 x3 hx hW1]

/-- Its column mean at i. -/
theorem mean2 (hx : ∀ i, IsReal (x0 i)) (hW1 : ∀ i, IsReal (x1 i)) (hW2 : ∀ i, IsReal (x4 i)) (i : Fin 10) :
    val_main_v43 (F := Ideal) x0 x1 x2 x3 x4 (ix1 i) = m2 x0 x1 x2 x3 x4 i := by
  rw [val_main_v43_apply, val_main_v41_apply, val_main_v42_apply, val_main_cst_11_apply, val_main_cst_10_apply]
  unfold m2
  simp only [Ideal.hostDivf_def, Ideal.ofBits_def, Ideal.ofBits_zero_f32, zero_add]
  refine congrArg (fun s => Ideal.div s (Ideal.ofBits .f32 0x47800000#32)) (Finset.sum_congr rfl fun k _ => ?_)
  rw [show idx_main_v41 (ix1 i) k = ix2 k i by idx_r2, prod2 x0 x1 x2 x3 x4 hx hW1 hW2]

/-- The deviation from the mean at (r, i). -/
theorem dev2 (hx : ∀ i, IsReal (x0 i)) (hW1 : ∀ i, IsReal (x1 i)) (hW2 : ∀ i, IsReal (x4 i)) (r : Fin 65536) (i : Fin 10) :
    val_main_v46 (F := Ideal) x0 x1 x2 x3 x4 (ix2 r i) = o x0 x1 x2 x3 x4 r i - m2 x0 x1 x2 x3 x4 i := by
  rw [val_main_v46_apply, val_main_v45_apply, val_main_v44_apply, prod2 x0 x1 x2 x3 x4 hx hW1 hW2,
    show idx_main_v44 (idx_main_v45 (ix2 r i)) = ix1 i by idx_r1, mean2 x0 x1 x2 x3 x4 hx hW1 hW2]
  rfl

/-- The reference's second variance at i is the specification's: every `o r i` is a real. -/
theorem var2 (hx : ∀ i, IsReal (x0 i)) (hW1 : ∀ i, IsReal (x1 i)) (hg1 : ∀ i, IsReal (x2 i)) (hb1 : ∀ i, IsReal (x3 i))
    (hW2 : ∀ i, IsReal (x4 i)) (i : Fin 10) :
    val_main_v50 (F := Ideal) x0 x1 x2 x3 x4 (ix1 i) = v2 x0 x1 x2 x3 x4 i := by
  rw [val_main_v50_apply, val_main_v48_apply, val_main_v49_apply, val_main_cst_13_apply, val_main_cst_12_apply]
  have e : ∀ k : Fin 65536, val_main_v47 (F := Ideal) x0 x1 x2 x3 x4 (idx_main_v48 (ix1 i) k)
      = (o x0 x1 x2 x3 x4 k i - m2 x0 x1 x2 x3 x4 i) * (o x0 x1 x2 x3 x4 k i - m2 x0 x1 x2 x3 x4 i) := fun k => by
    rw [show idx_main_v48 (ix1 i) k = ix2 k i by idx_r2, val_main_v47_apply, dev2 x0 x1 x2 x3 x4 hx hW1 hW2]
    rfl
  simp only [e, Ideal.hostDivf_def, Ideal.ofBits_def, Ideal.ofBits_zero_f32, zero_add]
  unfold v2 m2
  exact var_eq (fun r => o x0 x1 x2 x3 x4 r i) (fun r => o_real x0 x1 x2 x3 x4 hx hg1 hb1 r i)

/-- The second reciprocal standard deviation at i. -/
theorem invstd2 (hx : ∀ i, IsReal (x0 i)) (hW1 : ∀ i, IsReal (x1 i)) (hg1 : ∀ i, IsReal (x2 i)) (hb1 : ∀ i, IsReal (x3 i))
    (hW2 : ∀ i, IsReal (x4 i)) (i : Fin 10) :
    val_main_v56 (F := Ideal) x0 x1 x2 x3 x4 (ix1 i) = i2 x0 x1 x2 x3 x4 i := by
  rw [val_main_v56_apply, val_main_v55_apply, val_main_v54_apply, val_main_cst_14_apply,
    var2 x0 x1 x2 x3 x4 hx hW1 hg1 hb1 hW2]
  rfl

/-- The result at (r, i). -/
theorem result (hx : ∀ i, IsReal (x0 i)) (hW1 : ∀ i, IsReal (x1 i)) (hg1 : ∀ i, IsReal (x2 i)) (hb1 : ∀ i, IsReal (x3 i))
    (hW2 : ∀ i, IsReal (x4 i)) (r : Fin 65536) (i : Fin 10) :
    val_main_v65 (F := Ideal) x0 x1 x2 x3 x4 x5 x6 (ix2 r i) = out x0 x1 x2 x3 x4 x5 x6 r i := by
  rw [val_main_v65_apply, val_main_v62_apply, val_main_v59_apply, val_main_v53_apply, val_main_v52_apply,
    val_main_v51_apply, val_main_v58_apply, val_main_v57_apply, val_main_v61_apply, val_main_v60_apply,
    val_main_v64_apply, val_main_v63_apply, prod2 x0 x1 x2 x3 x4 hx hW1 hW2,
    show idx_main_v51 (idx_main_v52 (ix2 r i)) = ix1 i by idx_r1, mean2 x0 x1 x2 x3 x4 hx hW1 hW2,
    show idx_main_v57 (idx_main_v58 (ix2 r i)) = ix1 i by idx_r1, invstd2 x0 x1 x2 x3 x4 hx hW1 hg1 hb1 hW2,
    show idx_main_v60 (idx_main_v61 (ix2 r i)) = ix1 i by idx_r1,
    show idx_main_v63 (idx_main_v64 (ix2 r i)) = ix1 i by idx_r1]
  rfl

/-- THE REFERENCE IS `G`: at finite `x`, `W1`, `g1`, `b1`, `W2` the reference's result array is the specification. -/
theorem reference_eq_G (hx : ∀ i, ∃ a : ℝ, x0 i = (a : EReal)) (hW1 : ∀ i, ∃ a : ℝ, x1 i = (a : EReal))
    (hg1 : ∀ i, ∃ a : ℝ, x2 i = (a : EReal)) (hb1 : ∀ i, ∃ a : ℝ, x3 i = (a : EReal))
    (hW2 : ∀ i, ∃ a : ℝ, x4 i = (a : EReal)) :
    val_main_v65 (F := Ideal) x0 x1 x2 x3 x4 x5 x6 = G x0 x1 x2 x3 x4 x5 x6 := by
  funext i
  obtain ⟨r, c, rfl⟩ : ∃ (r : Fin 65536) (c : Fin 10), i = ix2 r c := ⟨i 0, i 1, eq_ix2 i⟩
  rw [G_ix2]
  exact result x0 x1 x2 x3 x4 x5 x6 hx hW1 hg1 hb1 hW2 r c

end Cert.Bnn.Reference

end
-- ==== Proof.BnnFinite.lean ====
/-
  From the precondition to finiteness: the printed predicate is the conjunction, over the seven inputs, of
  "every entry's absolute value is below +∞"; when it is 1, every entry of every input is a real.

  The predicate's value is a fold of `and` over seven reductions by `and`; each reduction that is 1 had a 1 at
  every entry; an entry's bit is the comparison `max a (−a) < ⊤` on the extended reals, which fails at `⊤` and at `⊥`.
-/
import proofs.«117614_j79061757985000_1_alg».proof.Pre_finite_inputs
import Idealize.ShloMosaic.Lib.ReduceAll
import Idealize.ShloMosaic.Lib.ValueIdx
import Idealize.ShloMosaic.PureOps.Ideal.Laws

noncomputable section

namespace Cert.Bnn.Finite

open Idealize.ShloMosaic Idealize.ShloMosaic.ValueIdx

/-- The word 0x7F800000 denotes `+∞`. -/
theorem inf_eq : Ideal.ofBits .f32 0x7F800000#32 = ⊤ := by simp [Ideal.ofBits, Ideal.ieee]

/-- An extended real whose absolute value compares below `+∞` is a real. -/
theorem real_of_abs_lt_inf (a : EReal)
    (h : FloatOps.cmpf (F := Ideal) (φ := .f32) .olt (FloatOps.hostAbsf a) (FloatOps.ofBits .f32 0x7F800000#32) = 1#1) :
    ∃ r : ℝ, a = (r : EReal) := by
  have h' : BitVec.ofBool (decide (max a (-a) < Ideal.ofBits .f32 0x7F800000#32)) = 1#1 := h
  rw [inf_eq] at h'
  induction a using EReal.rec with
  | bot => simp at h'
  | top => simp at h'
  | coe r => exact ⟨r, rfl⟩

/-- The scalar shape has one index. -/
instance : Subsingleton Cert.Pre_finite_inputs.S_.Idx := ⟨fun a b => funext fun d => d.elim0⟩

open Cert.Pre_finite_inputs in
/-- THE PRECONDITION GIVES FINITENESS: if the printed predicate is 1 on the seven arrays, every entry of each is a real. -/
theorem finite_of_pre [Cert.Pre_finite_inputs.Facts]
    (a0 : FVec Ideal S65536x784 .f32) (a1 : FVec Ideal S300x784 .f32) (a2 a3 : FVec Ideal S300 .f32)
    (a4 : FVec Ideal S10x300 .f32) (a5 a6 : FVec Ideal S10 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [Cert.Pre_finite_inputs.fn, Cert.Pre_finite_inputs.fn_part1] at h0
  simp only [Idealize.ShloMosaic.andi, IntOp.andi_eq_one] at h0
  obtain ⟨⟨⟨⟨⟨⟨e0, e1⟩, e2⟩, e3⟩, e4⟩, e5⟩, e6⟩ := h0
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i),
    fun i => real_of_abs_lt_inf _ (Host.reduce_andi_all _ _ _ _ _ e4 i),
    fun i => real_of_abs_lt_inf _ (Host.reduce_andi_all _ _ _ _ _ e5 i),
    fun i => real_of_abs_lt_inf _ (Host.reduce_andi_all _ _ _ _ _ e6 i)⟩

end Cert.Bnn.Finite

end
-- ==== Proof.lean ====
/-
  The certificate's claim. Both programs are a two-layer network with sign-binarised weights and a batch normalisation
  (batch statistics over all 65536 rows) after each layer. The kernel computes each layer's product in row blocks,
  accumulating the column sums of the entries and of their squares across the blocks, and takes the variance as
  E[h^2] - E[h]^2; the reference computes E[(h - E[h])^2] in a second pass, and writes the binarised weight as
  w + (sign w - w). On the extended reals the two agree where the inputs are finite: then every product entry is a real
  number, the two variance formulas are the same real number, and w + (sign w - w) = sign w. The frames: the kernel's
  run is the program's three calls executed block by block with the two running sums carried between grid points; the
  reference is a straight line of host operations.
-/
import proofs.«117614_j79061757985000_1_alg».proof.Defs
import proofs.«117614_j79061757985000_1_alg».proof.Proof.Gen.Kernel
import proofs.«117614_j79061757985000_1_alg».proof.Proof.Gen.KernelIdeal
import proofs.«117614_j79061757985000_1_alg».proof.Proof.Gen.ReferenceIdeal
import proofs.«117614_j79061757985000_1_alg».proof.Proof.Gen.Pre_finite_inputs
import proofs.«117614_j79061757985000_1_alg».proof.Proof.Gen.ReferenceIdeal.Run
import proofs.«117614_j79061757985000_1_alg».proof.Proof.Gen.ReferenceIdeal.Read
import proofs.«117614_j79061757985000_1_alg».proof.Proof.Kernel.Args
import proofs.«117614_j79061757985000_1_alg».proof.Proof.KernelIdeal.Args
import proofs.«117614_j79061757985000_1_alg».proof.Proof.KernelIdeal.Result
import proofs.«117614_j79061757985000_1_alg».proof.Proof.BnnReference
import proofs.«117614_j79061757985000_1_alg».proof.Proof.BnnFinite
import Idealize.ShloMosaic.Adequacy
import Idealize.ShloMosaic.Init

noncomputable section

namespace Cert.Proof

open Idealize.ShloMosaic Idealize.ShloMosaic.TcCoe Idealize.SL.Sem

/-- The word-level kernel runs to the end and leaves its argument arrays as launched. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Whole.run_args (F := Bits) m ρ)

/-- So does the kernel read at the exact reals. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Whole.run_args (F := Ideal) m ρ)

/-- And the reference: its run with the result dropped. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

/-- At the exact reals, from memories agreeing on the seven arguments, both programs end with the same result array:
    the kernel's is the network's output with the variance taken as E[h^2] - E[h]^2 (its three calls read back), the
    reference's is the same function of finite inputs (the precondition makes them finite). -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Whole.W8 (F := Ideal) m c (Proc.devRef .tc Cert.KernelIdeal.main_v16), Cert.KernelIdeal.Whole.run_args (F := Ideal) m ρ, ?_⟩
  refine (θ_run (Cert.ReferenceIdeal.defs (F := Ideal)) _ _).mono (fun _ h c => ⟨?_, (h c).2⟩) (Cert.ReferenceIdeal.Value.run (F := Ideal) m' ρ')
  obtain ⟨hx, hW1, hg1, hb1, hW2, -, -⟩ := Cert.Bnn.Finite.finite_of_pre _ _ _ _ _ _ _ (hpre c)
  rw [(h c).1, Cert.ReferenceIdeal.Read.val_main_v65_eq, (hagree c).1, (hagree c).2.1, (hagree c).2.2.1, (hagree c).2.2.2.1,
    (hagree c).2.2.2.2.1, (hagree c).2.2.2.2.2.1, (hagree c).2.2.2.2.2.2,
    Cert.Bnn.Reference.reference_eq_G _ _ _ _ _ _ _ hx hW1 hg1 hb1 hW2]
  exact (Cert.KernelIdeal.Result.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
